-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128 .f32) (main_arg12 : FVec F S1 .f32) (main_arg13 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x512 .f32) (main_arg1 : IVec S2x800000 32) (main_arg2 : FVec F S512x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S1 .f32) (main_arg13 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S1x1 : Shape := ⟨2, ![1, 1]⟩

abbrev nBuf : Space → Nat
  | .hbm => 178
  | .vmem => 33
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S1x128, .f32⟩
  | 100 => ⟨S1x128, .f32⟩
  | 101 => ⟨S1x128, .f32⟩
  | 102 => ⟨S1x1, .f32⟩
  | 103 => ⟨S50000x128, .f32⟩
  | 104 => ⟨S50000x128, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x512, .f32⟩

abbrev hbmTy0_1 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S1x128, .f32⟩
  | 26 => ⟨S1x128, .f32⟩
  | 27 => ⟨S1x128, .f32⟩
  | 28 => ⟨S1x1, .f32⟩
  | 29 => ⟨S50000x128, .f32⟩
  | 30 => ⟨S50000x128, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000x128, .f32⟩
  | 40 => ⟨S850000x1, .f32⟩
  | 41 => ⟨S850000x128, .f32⟩
  | 42 => ⟨S850000x128, .f32⟩
  | 43 => ⟨S_, .f32⟩
  | 44 => ⟨S50000x128, .f32⟩
  | 45 => ⟨S850000x1, .i32⟩
  | 46 => ⟨S50000x128, .f32⟩
  | 47 => ⟨S1x128, .f32⟩
  | 48 => ⟨S50000x128, .f32⟩
  | 49 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x1, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_11 : Ref sig .tc := ⟨.hbm, 105, rfl⟩
abbrev main_v57 : Ref sig .tc := ⟨.hbm, 106, rfl⟩
abbrev main_v58 : Ref sig .tc := ⟨.hbm, 107, rfl⟩
abbrev main_c_12 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_13 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_14 : Ref sig .tc := ⟨.hbm, 124, rfl⟩
abbrev main_v73 : Ref sig .tc := ⟨.hbm, 125, rfl⟩
abbrev main_cst_15 : Ref sig .tc := ⟨.hbm, 126, rfl⟩
abbrev main_v74 : Ref sig .tc := ⟨.hbm, 127, rfl⟩
abbrev main_v75 : Ref sig .tc := ⟨.hbm, 128, rfl⟩
abbrev main_c_16 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_cst_3 : Ref sig .tc := ⟨.hbm, 146, rfl⟩
abbrev main_call1_v12 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_c_17 : Ref sig .tc := ⟨.hbm, 159, rfl⟩
abbrev main_v84 : Ref sig .tc := ⟨.hbm, 160, rfl⟩
abbrev main_v85 : Ref sig .tc := ⟨.hbm, 161, rfl⟩
abbrev main_c_18 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_19 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S1_S1x1 : S1.ShapeCasts S1x1
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x128 : S1x1.Broadcasts S2000x128
  inb_S128x128_S128x128_0_0 : ∀ a, (![0, 0] : Fin 2 → Nat) a + S128x128.size a ≤ S128x128.size a
  h_S128x128 : 0 < S128x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v82) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S128, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .i1⟩
  | 117 => ⟨S1x1, .f32⟩
  | 118 => ⟨S50000x128, .f32⟩
  | 119 => ⟨S50000x128, .f32⟩
  | 120 => ⟨S50000x128, .f32⟩
  | 121 => ⟨S50000x128, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x512, .f32⟩

abbrev hbmTy0_1 (i : Nat) : BufTy := match i % 128 with
  | 0 => ⟨S850000, .i32⟩
  | 1 => ⟨S850000x1, .i32⟩
  | 2 => ⟨S850000x128, .f32⟩
  | 3 => ⟨S850000x1, .f32⟩
  | 4 => ⟨S850000x128, .f32⟩
  | 5 => ⟨S850000x128, .f32⟩
  | 6 => ⟨S_, .f32⟩
  | 7 => ⟨S50000x128, .f32⟩
  | 8 => ⟨S850000x1, .i32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S128, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .i1⟩
  | 60 => ⟨S1x1, .f32⟩
  | 61 => ⟨S50000x128, .f32⟩
  | 62 => ⟨S50000x128, .f32⟩
  | 63 => ⟨S50000x128, .f32⟩
  | 64 => ⟨S50000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x128, .f32⟩
  | 74 => ⟨S850000x1, .f32⟩
  | 75 => ⟨S850000x128, .f32⟩
  | 76 => ⟨S850000x128, .f32⟩
  | 77 => ⟨S_, .f32⟩
  | 78 => ⟨S50000x128, .f32⟩
  | 79 => ⟨S850000x1, .i32⟩
  | 80 => ⟨S50000x128, .f32⟩
  | 81 => ⟨S1x128, .f32⟩
  | 82 => ⟨S50000x128, .f32⟩
  | 83 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_11 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_12 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_13 : Ref sig .tc := ⟨.hbm, 122, rfl⟩
abbrev main_v72 : Ref sig .tc := ⟨.hbm, 123, rfl⟩
abbrev main_v73 : Ref sig .tc := ⟨.hbm, 124, rfl⟩
abbrev main_c_14 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_15 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_16 : Ref sig .tc := ⟨.hbm, 141, rfl⟩
abbrev main_v88 : Ref sig .tc := ⟨.hbm, 142, rfl⟩
abbrev main_cst_17 : Ref sig .tc := ⟨.hbm, 143, rfl⟩
abbrev main_v89 : Ref sig .tc := ⟨.hbm, 144, rfl⟩
abbrev main_v90 : Ref sig .tc := ⟨.hbm, 145, rfl⟩
abbrev main_c_18 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_cst_19 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_20 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_c_21 : Ref sig .tc := ⟨.hbm, 193, rfl⟩
abbrev main_v114 : Ref sig .tc := ⟨.hbm, 194, rfl⟩
abbrev main_v115 : Ref sig .tc := ⟨.hbm, 195, rfl⟩
abbrev main_c_22 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_cst_23 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/- The kernel program's run with EVERY unscoped buffer named: every weakly fair execution of the program ends, without a
   fault, in a state whose TensorCore buffers hold the fold of the program's thirteen segments over the launch memory
   (host stretches as their operations' results, each kernel region as its arrays after the write-backs). The frame and
   the value of the result are both read off this one run. -/
import proofs.«175946_j19301583028532_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    TensorCore buffer holds the last boundary's contents `W13`: the segments chained from the launch memory, the last
    thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.Whole

end
-- ==== Proof.StagesK.lean ====
/- The host-side stages of the graph convolution as pure functions of their operands, spelt with the kernel program's
   shapes and dimension records: edge endpoints and weights, one aggregation, the column mean and variance. -/
import proofs.«175946_j19301583028532_1_alg».proof.Proof.Gen.KernelIdeal
import Idealize.ShloMosaic.PureOps.Ideal

noncomputable section

namespace Cert.KStage

open Cert.KernelIdeal Cert.KernelIdeal.Facts₀ Cert.KernelIdeal.Facts Idealize.ShloMosaic Idealize.ShloMosaic.TcCoe

variable {F : FTy → Type} [FloatOps F]

/-- Source node of every edge, the self loops appended: entry `e` of row 0 of the edge list for `e < 800000`, node `e - 800000` after that. -/
def src (main_arg1 : (⟨S2x800000, .i32⟩ : BufTy).Contents (Elt F)) : (⟨S850000, .i32⟩ : BufTy).Contents (Elt F) :=
  have main_v0 : (⟨S50000, .i32⟩ : BufTy).Contents (Elt F) := (iotaInDim S50000 32 0)
  have main_v1 := ((extractStridedSlice S1x800000 ![0, 0] · slices_S2x800000_S1x800000_0_0) : (⟨S2x800000, .i32⟩ : BufTy).Contents (Elt F) → (⟨S1x800000, .i32⟩ : BufTy).Contents (Elt F)) main_arg1
  have main_v2 : (⟨S800000, .i32⟩ : BufTy).Contents (Elt F) := fun i => shapeCast S800000 main_v1 shapeCasts_S1x800000_S800000 i
  have main_v3 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v2 main_v0
  main_v3

/-- Target node of every edge, the self loops appended (row 1 of the edge list, then the nodes themselves). -/
def dst (main_arg1 : (⟨S2x800000, .i32⟩ : BufTy).Contents (Elt F)) : (⟨S850000, .i32⟩ : BufTy).Contents (Elt F) :=
  have main_v0 : (⟨S50000, .i32⟩ : BufTy).Contents (Elt F) := (iotaInDim S50000 32 0)
  have main_v1 := ((extractStridedSlice S1x800000 ![0, 0] · slices_S2x800000_S1x800000_0_0) : (⟨S2x800000, .i32⟩ : BufTy).Contents (Elt F) → (⟨S1x800000, .i32⟩ : BufTy).Contents (Elt F)) main_arg1
  have main_v2 : (⟨S800000, .i32⟩ : BufTy).Contents (Elt F) := fun i => shapeCast S800000 main_v1 shapeCasts_S1x800000_S800000 i
  have main_v3 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v2 main_v0
  have main_v4 := ((extractStridedSlice S1x800000 ![1, 0] · slices_S2x800000_S1x800000_1_0) : (⟨S2x800000, .i32⟩ : BufTy).Contents (Elt F) → (⟨S1x800000, .i32⟩ : BufTy).Contents (Elt F)) main_arg1
  have main_v5 : (⟨S800000, .i32⟩ : BufTy).Contents (Elt F) := fun i => shapeCast S800000 main_v4 shapeCasts_S1x800000_S800000 i
  have main_v6 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v5 main_v0
  main_v6

/-- The symmetric normalisation of every edge: `deg(src)^(-1/2) · deg(dst)^(-1/2)`, the degree of a node the number of edges
    (self loop included) that end in it, at least one. -/
def nrm (main_arg1 : (⟨S2x800000, .i32⟩ : BufTy).Contents (Elt F)) : (⟨S850000, .f32⟩ : BufTy).Contents (Elt F) :=
  have main_v0 : (⟨S50000, .i32⟩ : BufTy).Contents (Elt F) := (iotaInDim S50000 32 0)
  have main_v1 := ((extractStridedSlice S1x800000 ![0, 0] · slices_S2x800000_S1x800000_0_0) : (⟨S2x800000, .i32⟩ : BufTy).Contents (Elt F) → (⟨S1x800000, .i32⟩ : BufTy).Contents (Elt F)) main_arg1
  have main_v2 : (⟨S800000, .i32⟩ : BufTy).Contents (Elt F) := fun i => shapeCast S800000 main_v1 shapeCasts_S1x800000_S800000 i
  have main_v3 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v2 main_v0
  have main_v4 := ((extractStridedSlice S1x800000 ![1, 0] · slices_S2x800000_S1x800000_1_0) : (⟨S2x800000, .i32⟩ : BufTy).Contents (Elt F) → (⟨S1x800000, .i32⟩ : BufTy).Contents (Elt F)) main_arg1
  have main_v5 : (⟨S800000, .i32⟩ : BufTy).Contents (Elt F) := fun i => shapeCast S800000 main_v4 shapeCasts_S1x800000_S800000 i
  have main_v6 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v5 main_v0
  have main_cst : (⟨S_, .f32⟩ : BufTy).Contents (Elt F) := (constant S_ .f32 0x3F800000#32)
  have main_v7 := (broadcastInDim S850000 ![] bcast_S_S850000 : (⟨S_, .f32⟩ : BufTy).Contents (Elt F) → (⟨S850000, .f32⟩ : BufTy).Contents (Elt F)) main_cst
  have main_cst_0 : (⟨S_, .f32⟩ : BufTy).Contents (Elt F) := (constant S_ .f32 0x00000000#32)
  have main_v8 := (broadcastInDim S50000 ![] bcast_S_S50000 : (⟨S_, .f32⟩ : BufTy).Contents (Elt F) → (⟨S50000, .f32⟩ : BufTy).Contents (Elt F)) main_cst_0
  have main_v9 := (broadcastInDim S850000x1 ![0] bcast_S850000_S850000x1_0 : (⟨S850000, .i32⟩ : BufTy).Contents (Elt F) → (⟨S850000x1, .i32⟩ : BufTy).Contents (Elt F)) main_v6
  have main_v10 := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) main_v8 main_v9 main_v7
  have main_cst_1 : (⟨S_, .f32⟩ : BufTy).Contents (Elt F) := (constant S_ .f32 0x3F800000#32)
  have main_v11 := (broadcastInDim S50000 ![] bcast_S_S50000 : (⟨S_, .f32⟩ : BufTy).Contents (Elt F) → (⟨S50000, .f32⟩ : BufTy).Contents (Elt F)) main_cst_1
  have main_v12 := (maximumf : (⟨S50000, .f32⟩ : BufTy).Contents (Elt F) → (⟨S50000, .f32⟩ : BufTy).Contents (Elt F) → (⟨S50000, .f32⟩ : BufTy).Contents (Elt F)) main_v10 main_v11
  have main_v13 := (Host.rsqrt : (⟨S50000, .f32⟩ : BufTy).Contents (Elt F) → (⟨S50000, .f32⟩ : BufTy).Contents (Elt F)) main_v12
  have main_c : (⟨S_, .i32⟩ : BufTy).Contents (Elt F) := (constantI S_ 32 0#32)
  have main_v14 := (broadcastInDim S850000 ![] bcast_S_S850000 : (⟨S_, .i32⟩ : BufTy).Contents (Elt F) → (⟨S850000, .i32⟩ : BufTy).Contents (Elt F)) main_c
  have main_v15 := (cmpi .slt : (⟨S850000, .i32⟩ : BufTy).Contents (Elt F) → (⟨S850000, .i32⟩ : BufTy).Contents (Elt F) → (⟨S850000, .i1⟩ : BufTy).Contents (Elt F)) main_v3 main_v14
  have main_c_2 : (⟨S_, .i32⟩ : BufTy).Contents (Elt F) := (constantI S_ 32 50000#32)
  have main_v16 := (broadcastInDim S850000 ![] bcast_S_S850000 : (⟨S_, .i32⟩ : BufTy).Contents (Elt F) → (⟨S850000, .i32⟩ : BufTy).Contents (Elt F)) main_c_2
  have main_v17 := (addi : (⟨S850000, .i32⟩ : BufTy).Contents (Elt F) → (⟨S850000, .i32⟩ : BufTy).Contents (Elt F) → (⟨S850000, .i32⟩ : BufTy).Contents (Elt F)) main_v3 main_v16
  have main_v18 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v15 main_v17 main_v3
  have main_v19 := (broadcastInDim S850000x1 ![0] bcast_S850000_S850000x1_0 : (⟨S850000, .i32⟩ : BufTy).Contents (Elt F) → (⟨S850000x1, .i32⟩ : BufTy).Contents (Elt F)) main_v18
  have main_v20 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v13 main_v19
  have main_c_3 : (⟨S_, .i32⟩ : BufTy).Contents (Elt F) := (constantI S_ 32 0#32)
  have main_v21 := (broadcastInDim S850000 ![] bcast_S_S850000 : (⟨S_, .i32⟩ : BufTy).Contents (Elt F) → (⟨S850000, .i32⟩ : BufTy).Contents (Elt F)) main_c_3
  have main_v22 := (cmpi .slt : (⟨S850000, .i32⟩ : BufTy).Contents (Elt F) → (⟨S850000, .i32⟩ : BufTy).Contents (Elt F) → (⟨S850000, .i1⟩ : BufTy).Contents (Elt F)) main_v6 main_v21
  have main_c_4 : (⟨S_, .i32⟩ : BufTy).Contents (Elt F) := (constantI S_ 32 50000#32)
  have main_v23 := (broadcastInDim S850000 ![] bcast_S_S850000 : (⟨S_, .i32⟩ : BufTy).Contents (Elt F) → (⟨S850000, .i32⟩ : BufTy).Contents (Elt F)) main_c_4
  have main_v24 := (addi : (⟨S850000, .i32⟩ : BufTy).Contents (Elt F) → (⟨S850000, .i32⟩ : BufTy).Contents (Elt F) → (⟨S850000, .i32⟩ : BufTy).Contents (Elt F)) main_v6 main_v23
  have main_v25 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v22 main_v24 main_v6
  have main_v26 := (broadcastInDim S850000x1 ![0] bcast_S850000_S850000x1_0 : (⟨S850000, .i32⟩ : BufTy).Contents (Elt F) → (⟨S850000x1, .i32⟩ : BufTy).Contents (Elt F)) main_v25
  have main_v27 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v13 main_v26
  have main_v28 := (mulf : (⟨S850000, .f32⟩ : BufTy).Contents (Elt F) → (⟨S850000, .f32⟩ : BufTy).Contents (Elt F) → (⟨S850000, .f32⟩ : BufTy).Contents (Elt F)) main_v20 main_v27
  main_v28

/-- One aggregation: row `src e` of `h` scaled by the edge's weight, summed into row `dst e`, the bias added to every row. -/
def agg (main_v29 : (⟨S50000x128, .f32⟩ : BufTy).Contents (Elt F)) (main_arg3 : (⟨S128, .f32⟩ : BufTy).Contents (Elt F)) (main_v3 main_v6 : (⟨S850000, .i32⟩ : BufTy).Contents (Elt F)) (main_v28 : (⟨S850000, .f32⟩ : BufTy).Contents (Elt F)) : (⟨S50000x128, .f32⟩ : BufTy).Contents (Elt F) :=
  have main_c_5 : (⟨S_, .i32⟩ : BufTy).Contents (Elt F) := (constantI S_ 32 0#32)
  have main_v30 := (broadcastInDim S850000 ![] bcast_S_S850000 : (⟨S_, .i32⟩ : BufTy).Contents (Elt F) → (⟨S850000, .i32⟩ : BufTy).Contents (Elt F)) main_c_5
  have main_v31 := (cmpi .slt : (⟨S850000, .i32⟩ : BufTy).Contents (Elt F) → (⟨S850000, .i32⟩ : BufTy).Contents (Elt F) → (⟨S850000, .i1⟩ : BufTy).Contents (Elt F)) main_v3 main_v30
  have main_c_6 : (⟨S_, .i32⟩ : BufTy).Contents (Elt F) := (constantI S_ 32 50000#32)
  have main_v32 := (broadcastInDim S850000 ![] bcast_S_S850000 : (⟨S_, .i32⟩ : BufTy).Contents (Elt F) → (⟨S850000, .i32⟩ : BufTy).Contents (Elt F)) main_c_6
  have main_v33 := (addi : (⟨S850000, .i32⟩ : BufTy).Contents (Elt F) → (⟨S850000, .i32⟩ : BufTy).Contents (Elt F) → (⟨S850000, .i32⟩ : BufTy).Contents (Elt F)) main_v3 main_v32
  have main_v34 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v31 main_v33 main_v3
  have main_v35 := (broadcastInDim S850000x1 ![0] bcast_S850000_S850000x1_0 : (⟨S850000, .i32⟩ : BufTy).Contents (Elt F) → (⟨S850000x1, .i32⟩ : BufTy).Contents (Elt F)) main_v34
  have main_v36 := ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) main_v29 main_v35
  have main_v37 := (broadcastInDim S850000x1 ![0] bcast_S850000_S850000x1_0 : (⟨S850000, .f32⟩ : BufTy).Contents (Elt F) → (⟨S850000x1, .f32⟩ : BufTy).Contents (Elt F)) main_v28
  have main_v38 := (broadcastInDim S850000x128 ![0, 1] bcast_S850000x1_S850000x128_0_1 : (⟨S850000x1, .f32⟩ : BufTy).Contents (Elt F) → (⟨S850000x128, .f32⟩ : BufTy).Contents (Elt F)) main_v37
  have main_v39 := (mulf : (⟨S850000x128, .f32⟩ : BufTy).Contents (Elt F) → (⟨S850000x128, .f32⟩ : BufTy).Contents (Elt F) → (⟨S850000x128, .f32⟩ : BufTy).Contents (Elt F)) main_v36 main_v38
  have main_cst_7 : (⟨S_, .f32⟩ : BufTy).Contents (Elt F) := (constant S_ .f32 0x00000000#32)
  have main_v40 := (broadcastInDim S50000x128 ![] bcast_S_S50000x128 : (⟨S_, .f32⟩ : BufTy).Contents (Elt F) → (⟨S50000x128, .f32⟩ : BufTy).Contents (Elt F)) main_cst_7
  have main_v41 := (broadcastInDim S850000x1 ![0] bcast_S850000_S850000x1_0 : (⟨S850000, .i32⟩ : BufTy).Contents (Elt F) → (⟨S850000x1, .i32⟩ : BufTy).Contents (Elt F)) main_v6
  have main_v42 := ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) main_v40 main_v41 main_v39
  have main_v43 := (broadcastInDim S1x128 ![1] bcast_S128_S1x128_1 : (⟨S128, .f32⟩ : BufTy).Contents (Elt F) → (⟨S1x128, .f32⟩ : BufTy).Contents (Elt F)) main_arg3
  have main_v44 := (broadcastInDim S50000x128 ![0, 1] bcast_S1x128_S50000x128_0_1 : (⟨S1x128, .f32⟩ : BufTy).Contents (Elt F) → (⟨S50000x128, .f32⟩ : BufTy).Contents (Elt F)) main_v43
  have main_v45 := (addf : (⟨S50000x128, .f32⟩ : BufTy).Contents (Elt F) → (⟨S50000x128, .f32⟩ : BufTy).Contents (Elt F) → (⟨S50000x128, .f32⟩ : BufTy).Contents (Elt F)) main_v42 main_v44
  main_v45

/-- The column means over the 50000 rows. -/
def mean (main_v45 : (⟨S50000x128, .f32⟩ : BufTy).Contents (Elt F)) : (⟨S128, .f32⟩ : BufTy).Contents (Elt F) :=
  have main_cst_8 : (⟨S_, .f32⟩ : BufTy).Contents (Elt F) := (constant S_ .f32 0x00000000#32)
  have main_v46 := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) main_v45 main_cst_8
  have main_cst_9 : (⟨S_, .f32⟩ : BufTy).Contents (Elt F) := (constant S_ .f32 0x47435000#32)
  have main_v47 := (broadcastInDim S128 ![] bcast_S_S128 : (⟨S_, .f32⟩ : BufTy).Contents (Elt F) → (⟨S128, .f32⟩ : BufTy).Contents (Elt F)) main_cst_9
  have main_v48 := (Host.divf : (⟨S128, .f32⟩ : BufTy).Contents (Elt F) → (⟨S128, .f32⟩ : BufTy).Contents (Elt F) → (⟨S128, .f32⟩ : BufTy).Contents (Elt F)) main_v46 main_v47
  main_v48

/-- The (biased) column variances over the 50000 rows: the mean of the squared deviations from the column mean. -/
def var (h : (⟨S50000x128, .f32⟩ : BufTy).Contents (Elt F)) : (⟨S128, .f32⟩ : BufTy).Contents (Elt F) :=
  have arg1 : (⟨S_, .i32⟩ : BufTy).Contents (Elt F) := constantI S_ 32 0#32
  have cst : (⟨S_, .f32⟩ : BufTy).Contents (Elt F) := constant S_ .f32 0x00000000#32
  have v0 : (⟨S128, .f32⟩ : BufTy).Contents (Elt F) := (fun x v => Host.reduceAdd x v reducesTo_S50000x128_S128_d0 h_S_) h cst
  have v1 : (⟨S1x128, .f32⟩ : BufTy).Contents (Elt F) := (broadcastInDim S1x128 ![1] bcast_S128_S1x128_1) v0
  have cst_0 : (⟨S_, .f32⟩ : BufTy).Contents (Elt F) := constant S_ .f32 0x47435000#32
  have v2 : (⟨S1x128, .f32⟩ : BufTy).Contents (Elt F) := (broadcastInDim S1x128 ![] bcast_S_S1x128) cst_0
  have v3 : (⟨S1x128, .f32⟩ : BufTy).Contents (Elt F) := Host.divf v1 v2
  have v4 : (⟨S50000x128, .f32⟩ : BufTy).Contents (Elt F) := (broadcastInDim S50000x128 ![0, 1] bcast_S1x128_S50000x128_0_1) v3
  have v5 : (⟨S50000x128, .f32⟩ : BufTy).Contents (Elt F) := subf h v4
  have v6 : (⟨S50000x128, .f32⟩ : BufTy).Contents (Elt F) := mulf v5 v5
  have v7 : (⟨S_, .f32⟩ : BufTy).Contents (Elt F) := (sitofp .f32) arg1
  have cst_1 : (⟨S_, .f32⟩ : BufTy).Contents (Elt F) := constant S_ .f32 0x47435000#32
  have v8 : (⟨S_, .f32⟩ : BufTy).Contents (Elt F) := subf cst_1 v7
  have cst_2 : (⟨S_, .f32⟩ : BufTy).Contents (Elt F) := constant S_ .f32 0x00000000#32
  have v9 : (⟨S128, .f32⟩ : BufTy).Contents (Elt F) := (fun x v => Host.reduceAdd x v reducesTo_S50000x128_S128_d0 h_S_) v6 cst_2
  have v10 : (⟨S128, .f32⟩ : BufTy).Contents (Elt F) := (broadcastInDim S128 ![] bcast_S_S128) v8
  have v11 : (⟨S128, .f32⟩ : BufTy).Contents (Elt F) := Host.divf v9 v10
  have cst_3 : (⟨S_, .f32⟩ : BufTy).Contents (Elt F) := constant S_ .f32 0x00000000#32
  have v12 : (⟨S_, .i1⟩ : BufTy).Contents (Elt F) := (cmpf .ogt) v8 cst_3
  have cst_4 : (⟨S_, .f32⟩ : BufTy).Contents (Elt F) := constant S_ .f32 0x7FC00000#32
  have w0 : (⟨S_, .f32⟩ : BufTy).Contents (Elt F) := id cst_4
  have w1 : (⟨S128, .f32⟩ : BufTy).Contents (Elt F) := (broadcastInDim S128 ![] bcast_S_S128) w0
  have w2 : (⟨S128, .f32⟩ : BufTy).Contents (Elt F) := (fun p a b => select (broadcastInDim S128 ![] bcast_S_S128 p) a b) v12 v11 w1
  w2

/-- The three-layer encoder over given dense products `mm1` (512 → 128), `mm2` (128 → 128) and a given normalisation-and-rectifier
    `bn` (of the activations, their column mean and variance, scale, shift and slope): product, aggregation, statistics,
    `bn`; again; then product and aggregation. -/
def net (mm1 : (⟨S50000x512, .f32⟩ : BufTy).Contents (Elt F) → (⟨S512x128, .f32⟩ : BufTy).Contents (Elt F) → (⟨S50000x128, .f32⟩ : BufTy).Contents (Elt F)) (mm2 : (⟨S50000x128, .f32⟩ : BufTy).Contents (Elt F) → (⟨S128x128, .f32⟩ : BufTy).Contents (Elt F) → (⟨S50000x128, .f32⟩ : BufTy).Contents (Elt F))
    (bn : (⟨S50000x128, .f32⟩ : BufTy).Contents (Elt F) → (⟨S128, .f32⟩ : BufTy).Contents (Elt F) → (⟨S128, .f32⟩ : BufTy).Contents (Elt F) → (⟨S128, .f32⟩ : BufTy).Contents (Elt F) → (⟨S128, .f32⟩ : BufTy).Contents (Elt F) → (⟨S1, .f32⟩ : BufTy).Contents (Elt F) → (⟨S50000x128, .f32⟩ : BufTy).Contents (Elt F))
    (x : (⟨S50000x512, .f32⟩ : BufTy).Contents (Elt F)) (e : (⟨S2x800000, .i32⟩ : BufTy).Contents (Elt F)) (W1 : (⟨S512x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) (W3 : (⟨S128x128, .f32⟩ : BufTy).Contents (Elt F)) (b3 g1 be1 g2 be2 : (⟨S128, .f32⟩ : BufTy).Contents (Elt F))
    (a1 a2 : (⟨S1, .f32⟩ : BufTy).Contents (Elt F)) : (⟨S50000x128, .f32⟩ : BufTy).Contents (Elt F) :=
  have h1 := agg (mm1 x W1) b1 (src e) (dst e) (nrm e)
  have y1 := bn h1 (mean h1) (var h1) g1 be1 a1
  have h2 := agg (mm2 y1 W2) b2 (src e) (dst e) (nrm e)
  have y2 := bn h2 (mean h2) (var h2) g2 be2 a2
  agg (mm2 y2 W3) b3 (src e) (dst e) (nrm e)

end Cert.KStage

end
-- ==== Proof.KeepDef.lean ====
/- The buffers that no segment of the kernel program writes after the first host stretch: the argument arrays, and the edge
   sources, targets and weights computed from the edge list. -/
import proofs.«175946_j19301583028532_1_alg».proof.Proof.Gen.KernelIdeal.Frame
import proofs.«175946_j19301583028532_1_alg».proof.Proof.StagesK
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The buffers no later segment writes, at a boundary's contents `W`: each argument array (but the edge list, which only
    the first stretch reads) at its launch contents, the edge sources, targets and weights at their functions of the edge list. -/
def Kept (W : Valuation τ sig (Elt Ideal)) : Prop :=
  W (Proc.devRef .tc main_arg0) = m ((c : Thread nD τ).loc main_arg0)
  ∧ W (Proc.devRef .tc main_arg2) = m ((c : Thread nD τ).loc main_arg2)
  ∧ W (Proc.devRef .tc main_arg3) = m ((c : Thread nD τ).loc main_arg3)
  ∧ W (Proc.devRef .tc main_arg4) = m ((c : Thread nD τ).loc main_arg4)
  ∧ W (Proc.devRef .tc main_arg5) = m ((c : Thread nD τ).loc main_arg5)
  ∧ W (Proc.devRef .tc main_arg6) = m ((c : Thread nD τ).loc main_arg6)
  ∧ W (Proc.devRef .tc main_arg7) = m ((c : Thread nD τ).loc main_arg7)
  ∧ W (Proc.devRef .tc main_arg8) = m ((c : Thread nD τ).loc main_arg8)
  ∧ W (Proc.devRef .tc main_arg9) = m ((c : Thread nD τ).loc main_arg9)
  ∧ W (Proc.devRef .tc main_arg10) = m ((c : Thread nD τ).loc main_arg10)
  ∧ W (Proc.devRef .tc main_arg11) = m ((c : Thread nD τ).loc main_arg11)
  ∧ W (Proc.devRef .tc main_arg12) = m ((c : Thread nD τ).loc main_arg12)
  ∧ W (Proc.devRef .tc main_arg13) = m ((c : Thread nD τ).loc main_arg13)
  ∧ W (Proc.devRef .tc main_v3) = Cert.KStage.src (m ((c : Thread nD τ).loc main_arg1))
  ∧ W (Proc.devRef .tc main_v6) = Cert.KStage.dst (m ((c : Thread nD τ).loc main_arg1))
  ∧ W (Proc.devRef .tc main_v28) = Cert.KStage.nrm (m ((c : Thread nD τ).loc main_arg1))

variable {m} {c}

theorem Kept.a0 {W : Valuation τ sig (Elt Ideal)} (h : Kept m c W) : W (Proc.devRef .tc main_arg0) = m ((c : Thread nD τ).loc main_arg0) := by
  unfold Kept at h; exact h.1
theorem Kept.a2 {W : Valuation τ sig (Elt Ideal)} (h : Kept m c W) : W (Proc.devRef .tc main_arg2) = m ((c : Thread nD τ).loc main_arg2) := by
  unfold Kept at h; exact h.2.1
theorem Kept.a3 {W : Valuation τ sig (Elt Ideal)} (h : Kept m c W) : W (Proc.devRef .tc main_arg3) = m ((c : Thread nD τ).loc main_arg3) := by
  unfold Kept at h; exact h.2.2.1
theorem Kept.a4 {W : Valuation τ sig (Elt Ideal)} (h : Kept m c W) : W (Proc.devRef .tc main_arg4) = m ((c : Thread nD τ).loc main_arg4) := by
  unfold Kept at h; exact h.2.2.2.1
theorem Kept.a5 {W : Valuation τ sig (Elt Ideal)} (h : Kept m c W) : W (Proc.devRef .tc main_arg5) = m ((c : Thread nD τ).loc main_arg5) := by
  unfold Kept at h; exact h.2.2.2.2.1
theorem Kept.a6 {W : Valuation τ sig (Elt Ideal)} (h : Kept m c W) : W (Proc.devRef .tc main_arg6) = m ((c : Thread nD τ).loc main_arg6) := by
  unfold Kept at h; exact h.2.2.2.2.2.1
theorem Kept.a7 {W : Valuation τ sig (Elt Ideal)} (h : Kept m c W) : W (Proc.devRef .tc main_arg7) = m ((c : Thread nD τ).loc main_arg7) := by
  unfold Kept at h; exact h.2.2.2.2.2.2.1
theorem Kept.a8 {W : Valuation τ sig (Elt Ideal)} (h : Kept m c W) : W (Proc.devRef .tc main_arg8) = m ((c : Thread nD τ).loc main_arg8) := by
  unfold Kept at h; exact h.2.2.2.2.2.2.2.1
theorem Kept.a9 {W : Valuation τ sig (Elt Ideal)} (h : Kept m c W) : W (Proc.devRef .tc main_arg9) = m ((c : Thread nD τ).loc main_arg9) := by
  unfold Kept at h; exact h.2.2.2.2.2.2.2.2.1
theorem Kept.a10 {W : Valuation τ sig (Elt Ideal)} (h : Kept m c W) : W (Proc.devRef .tc main_arg10) = m ((c : Thread nD τ).loc main_arg10) := by
  unfold Kept at h; exact h.2.2.2.2.2.2.2.2.2.1
theorem Kept.a11 {W : Valuation τ sig (Elt Ideal)} (h : Kept m c W) : W (Proc.devRef .tc main_arg11) = m ((c : Thread nD τ).loc main_arg11) := by
  unfold Kept at h; exact h.2.2.2.2.2.2.2.2.2.2.1
theorem Kept.a12 {W : Valuation τ sig (Elt Ideal)} (h : Kept m c W) : W (Proc.devRef .tc main_arg12) = m ((c : Thread nD τ).loc main_arg12) := by
  unfold Kept at h; exact h.2.2.2.2.2.2.2.2.2.2.2.1
theorem Kept.a13 {W : Valuation τ sig (Elt Ideal)} (h : Kept m c W) : W (Proc.devRef .tc main_arg13) = m ((c : Thread nD τ).loc main_arg13) := by
  unfold Kept at h; exact h.2.2.2.2.2.2.2.2.2.2.2.2.1
theorem Kept.s {W : Valuation τ sig (Elt Ideal)} (h : Kept m c W) : W (Proc.devRef .tc main_v3) = Cert.KStage.src (m ((c : Thread nD τ).loc main_arg1)) := by
  unfold Kept at h; exact h.2.2.2.2.2.2.2.2.2.2.2.2.2.1
theorem Kept.d {W : Valuation τ sig (Elt Ideal)} (h : Kept m c W) : W (Proc.devRef .tc main_v6) = Cert.KStage.dst (m ((c : Thread nD τ).loc main_arg1)) := by
  unfold Kept at h; exact h.2.2.2.2.2.2.2.2.2.2.2.2.2.2.1
theorem Kept.n {W : Valuation τ sig (Elt Ideal)} (h : Kept m c W) : W (Proc.devRef .tc main_v28) = Cert.KStage.nrm (m ((c : Thread nD τ).loc main_arg1)) := by
  unfold Kept at h; exact h.2.2.2.2.2.2.2.2.2.2.2.2.2.2.2

end Cert.KernelIdeal.Fold

end
-- ==== Proof.KeepA.lean ====
/- The first host stretch computes the edge sources, targets and weights from the edge list and leaves the arguments alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first stretch of host operations (the boundary before the first kernel). -/
theorem kept1 : Kept m c (W1 m ρ c) := by
  refine ⟨?_, ?_, ?_, ?_, ?_, ?_, ?_, ?_, ?_, ?_, ?_, ?_, ?_, ?_, ?_, ?_⟩ <;>
    (show StableHlo.after hostOps0 (W0 m ρ c) _ = _; dsimp only [hostOps0]; after_results_simp; try rfl)

end Cert.KernelIdeal.Fold

end
-- ==== Proof.KeepS2.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step2 (h : Kept m c (W1 m ρ c)) : Kept m c (W2 m ρ c) := by
  obtain ⟨h0, h1, h2, h3, h4, h5, h6, h7, h8, h9, h10, h11, h12, h13, h14, h15⟩ := h
  exact ⟨((W2_arr m ρ c 0).trans (((dat0 (V1 m ρ) c).arrAt_in 0 rfl _).trans (A_eq0 (V1 m ρ) c 0))).trans h0,
    ((W2_arr m ρ c 1).trans (((dat0 (V1 m ρ) c).arrAt_in 1 rfl _).trans (A_eq0 (V1 m ρ) c 1))).trans h1,
    (W2_of_ne m ρ c main_arg3 (by decide)).trans h2,
    (W2_of_ne m ρ c main_arg4 (by decide)).trans h3,
    (W2_of_ne m ρ c main_arg5 (by decide)).trans h4,
    (W2_of_ne m ρ c main_arg6 (by decide)).trans h5,
    (W2_of_ne m ρ c main_arg7 (by decide)).trans h6,
    (W2_of_ne m ρ c main_arg8 (by decide)).trans h7,
    (W2_of_ne m ρ c main_arg9 (by decide)).trans h8,
    (W2_of_ne m ρ c main_arg10 (by decide)).trans h9,
    (W2_of_ne m ρ c main_arg11 (by decide)).trans h10,
    (W2_of_ne m ρ c main_arg12 (by decide)).trans h11,
    (W2_of_ne m ρ c main_arg13 (by decide)).trans h12,
    (W2_of_ne m ρ c main_v3 (by decide)).trans h13,
    (W2_of_ne m ρ c main_v6 (by decide)).trans h14,
    (W2_of_ne m ρ c main_v28 (by decide)).trans h15⟩

end Cert.KernelIdeal.Fold

end
-- ==== Proof.KeepS3.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step3 (h : Kept m c (W2 m ρ c)) : Kept m c (W3 m ρ c) := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩
  · show StableHlo.after hostOps1 (W2 m ρ c) _ = _; dsimp only [hostOps1]; after_results_simp; exact h0
  · show StableHlo.after hostOps1 (W2 m ρ c) _ = _; dsimp only [hostOps1]; after_results_simp; exact h1
  · show StableHlo.after hostOps1 (W2 m ρ c) _ = _; dsimp only [hostOps1]; after_results_simp; exact h2
  · show StableHlo.after hostOps1 (W2 m ρ c) _ = _; dsimp only [hostOps1]; after_results_simp; exact h3
  · show StableHlo.after hostOps1 (W2 m ρ c) _ = _; dsimp only [hostOps1]; after_results_simp; exact h4
  · show StableHlo.after hostOps1 (W2 m ρ c) _ = _; dsimp only [hostOps1]; after_results_simp; exact h5
  · show StableHlo.after hostOps1 (W2 m ρ c) _ = _; dsimp only [hostOps1]; after_results_simp; exact h6
  · show StableHlo.after hostOps1 (W2 m ρ c) _ = _; dsimp only [hostOps1]; after_results_simp; exact h7
  · show StableHlo.after hostOps1 (W2 m ρ c) _ = _; dsimp only [hostOps1]; after_results_simp; exact h8
  · show StableHlo.after hostOps1 (W2 m ρ c) _ = _; dsimp only [hostOps1]; after_results_simp; exact h9
  · show StableHlo.after hostOps1 (W2 m ρ c) _ = _; dsimp only [hostOps1]; after_results_simp; exact h10
  · show StableHlo.after hostOps1 (W2 m ρ c) _ = _; dsimp only [hostOps1]; after_results_simp; exact h11
  · show StableHlo.after hostOps1 (W2 m ρ c) _ = _; dsimp only [hostOps1]; after_results_simp; exact h12
  · show StableHlo.after hostOps1 (W2 m ρ c) _ = _; dsimp only [hostOps1]; after_results_simp; exact h13
  · show StableHlo.after hostOps1 (W2 m ρ c) _ = _; dsimp only [hostOps1]; after_results_simp; exact h14
  · show StableHlo.after hostOps1 (W2 m ρ c) _ = _; dsimp only [hostOps1]; after_results_simp; exact h15

end Cert.KernelIdeal.Fold

end
-- ==== Proof.KeepS4.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step4 (h : Kept m c (W3 m ρ c)) : Kept m c (W4 m ρ c) := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩
  · show StableHlo.after hostOps1_1 (W3 m ρ c) _ = _; dsimp only [hostOps1_1]; after_results_simp; exact h0
  · show StableHlo.after hostOps1_1 (W3 m ρ c) _ = _; dsimp only [hostOps1_1]; after_results_simp; exact h1
  · show StableHlo.after hostOps1_1 (W3 m ρ c) _ = _; dsimp only [hostOps1_1]; after_results_simp; exact h2
  · show StableHlo.after hostOps1_1 (W3 m ρ c) _ = _; dsimp only [hostOps1_1]; after_results_simp; exact h3
  · show StableHlo.after hostOps1_1 (W3 m ρ c) _ = _; dsimp only [hostOps1_1]; after_results_simp; exact h4
  · show StableHlo.after hostOps1_1 (W3 m ρ c) _ = _; dsimp only [hostOps1_1]; after_results_simp; exact h5
  · show StableHlo.after hostOps1_1 (W3 m ρ c) _ = _; dsimp only [hostOps1_1]; after_results_simp; exact h6
  · show StableHlo.after hostOps1_1 (W3 m ρ c) _ = _; dsimp only [hostOps1_1]; after_results_simp; exact h7
  · show StableHlo.after hostOps1_1 (W3 m ρ c) _ = _; dsimp only [hostOps1_1]; after_results_simp; exact h8
  · show StableHlo.after hostOps1_1 (W3 m ρ c) _ = _; dsimp only [hostOps1_1]; after_results_simp; exact h9
  · show StableHlo.after hostOps1_1 (W3 m ρ c) _ = _; dsimp only [hostOps1_1]; after_results_simp; exact h10
  · show StableHlo.after hostOps1_1 (W3 m ρ c) _ = _; dsimp only [hostOps1_1]; after_results_simp; exact h11
  · show StableHlo.after hostOps1_1 (W3 m ρ c) _ = _; dsimp only [hostOps1_1]; after_results_simp; exact h12
  · show StableHlo.after hostOps1_1 (W3 m ρ c) _ = _; dsimp only [hostOps1_1]; after_results_simp; exact h13
  · show StableHlo.after hostOps1_1 (W3 m ρ c) _ = _; dsimp only [hostOps1_1]; after_results_simp; exact h14
  · show StableHlo.after hostOps1_1 (W3 m ρ c) _ = _; dsimp only [hostOps1_1]; after_results_simp; exact h15

end Cert.KernelIdeal.Fold

end
-- ==== Proof.KeepS5.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step5 (h : Kept m c (W4 m ρ c)) : Kept m c (W5 m ρ c) := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩
  · show StableHlo.after hostOps1_2 (W4 m ρ c) _ = _; dsimp only [hostOps1_2]; after_results_simp; exact h0
  · show StableHlo.after hostOps1_2 (W4 m ρ c) _ = _; dsimp only [hostOps1_2]; after_results_simp; exact h1
  · show StableHlo.after hostOps1_2 (W4 m ρ c) _ = _; dsimp only [hostOps1_2]; after_results_simp; exact h2
  · show StableHlo.after hostOps1_2 (W4 m ρ c) _ = _; dsimp only [hostOps1_2]; after_results_simp; exact h3
  · show StableHlo.after hostOps1_2 (W4 m ρ c) _ = _; dsimp only [hostOps1_2]; after_results_simp; exact h4
  · show StableHlo.after hostOps1_2 (W4 m ρ c) _ = _; dsimp only [hostOps1_2]; after_results_simp; exact h5
  · show StableHlo.after hostOps1_2 (W4 m ρ c) _ = _; dsimp only [hostOps1_2]; after_results_simp; exact h6
  · show StableHlo.after hostOps1_2 (W4 m ρ c) _ = _; dsimp only [hostOps1_2]; after_results_simp; exact h7
  · show StableHlo.after hostOps1_2 (W4 m ρ c) _ = _; dsimp only [hostOps1_2]; after_results_simp; exact h8
  · show StableHlo.after hostOps1_2 (W4 m ρ c) _ = _; dsimp only [hostOps1_2]; after_results_simp; exact h9
  · show StableHlo.after hostOps1_2 (W4 m ρ c) _ = _; dsimp only [hostOps1_2]; after_results_simp; exact h10
  · show StableHlo.after hostOps1_2 (W4 m ρ c) _ = _; dsimp only [hostOps1_2]; after_results_simp; exact h11
  · show StableHlo.after hostOps1_2 (W4 m ρ c) _ = _; dsimp only [hostOps1_2]; after_results_simp; exact h12
  · show StableHlo.after hostOps1_2 (W4 m ρ c) _ = _; dsimp only [hostOps1_2]; after_results_simp; exact h13
  · show StableHlo.after hostOps1_2 (W4 m ρ c) _ = _; dsimp only [hostOps1_2]; after_results_simp; exact h14
  · show StableHlo.after hostOps1_2 (W4 m ρ c) _ = _; dsimp only [hostOps1_2]; after_results_simp; exact h15

end Cert.KernelIdeal.Fold

end
-- ==== Proof.Spec.lean ====
/- The mathematics of one entry of each stage of the encoder, shared by both programs: the dense products entry by
   entry, and the normalisation followed by the parametric rectifier as a function of six extended reals. -/
import Idealize.ShloMosaic.PureOps.Ideal
import Idealize.ShloMosaic.Lib.ValueIdx

noncomputable section

namespace Cert.Spec

open Idealize.ShloMosaic Idealize.ShloMosaic.ValueIdx

/-- The dense product of a 50000×512 array with a 512×128 one, entry by entry: entry (r, q) is the sum over k of
    A(r, k) · B(k, q). -/
def mm512 (A : FVec Ideal ⟨2, ![50000, 512]⟩ .f32) (B : FVec Ideal ⟨2, ![512, 128]⟩ .f32) : FVec Ideal ⟨2, ![50000, 128]⟩ .f32 :=
  fun i => ∑ k : Fin 512, A (ix2 (n0 := 50000) (i 0) k) * B (ix2 (n1 := 128) k (i 1))

/-- The dense product of a 50000×128 array with a 128×128 one, entry by entry. -/
def mm128 (A : FVec Ideal ⟨2, ![50000, 128]⟩ .f32) (B : FVec Ideal ⟨2, ![128, 128]⟩ .f32) : FVec Ideal ⟨2, ![50000, 128]⟩ .f32 :=
  fun i => ∑ k : Fin 128, A (ix2 (n0 := 50000) (i 0) k) * B (ix2 (n1 := 128) k (i 1))

/-- One entry of the normalisation and rectifier: `y = (h - mean) · (var + ε)^(-1/2) · g + be`, then `y` if `y ≥ 0`
    and `a · y` otherwise. The small constant ε and the compared zero are kept as their 32-bit words. -/
def bnf (h mn vr g be a : EReal) : EReal :=
  Scalar.select
    (Ideal.cmp .oge ((h - mn) * Ideal.rsqrt (vr + Ideal.ofBits .f32 0x3727C5AC#32) * g + be) (Ideal.ofBits .f32 0x00000000#32))
    ((h - mn) * Ideal.rsqrt (vr + Ideal.ofBits .f32 0x3727C5AC#32) * g + be)
    (a * ((h - mn) * Ideal.rsqrt (vr + Ideal.ofBits .f32 0x3727C5AC#32) * g + be))

/-- The same over whole arrays: entry (r, q) from the activations' entry (r, q) and entry q of the column mean, the
    column variance, the scale and the shift, with the one slope. -/
def bn (H : FVec Ideal ⟨2, ![50000, 128]⟩ .f32) (mn vr g be : FVec Ideal ⟨1, ![128]⟩ .f32) (a : FVec Ideal ⟨1, ![1]⟩ .f32) :
    FVec Ideal ⟨2, ![50000, 128]⟩ .f32 :=
  fun i => bnf (H i) (mn (ix1 (n := 128) (i 1))) (vr (ix1 (n := 128) (i 1))) (g (ix1 (n := 128) (i 1)))
    (be (ix1 (n := 128) (i 1))) (a (ix1 (0 : Fin 1)))

end Cert.Spec

end
-- ==== Proof.KernelPoint.lean ====
/- Each kernel body's stored value at one entry (p, q) of its 2000-row block: the three products as sums over the
   contracted axis, the two normalisation-and-rectifier bodies as the shared one-entry function. -/
import proofs.«175946_j19301583028532_1_alg».proof.Proof.Gen.KernelIdeal
import proofs.«175946_j19301583028532_1_alg».proof.Proof.Gen.KernelIdeal.Skeleton
import proofs.«175946_j19301583028532_1_alg».proof.Proof.Spec
import Idealize.ShloMosaic.PureOps.Ideal.Laws
import Idealize.ShloMosaic.Lib.ValueLayout

noncomputable section

namespace Cert.KernelPoint

open Cert.KernelIdeal Cert.KernelIdeal.Gen Idealize.ShloMosaic Idealize.ShloMosaic.ValueIdx

/-! ## The products

A product into a zero accumulator is, at entry (p, q), the sum over the contraction positions of the operands'
products; the one contracted axis has 512 (resp. 128) positions, and position k reads entry (p, k) on the left and
(k, q) on the right. Rounding the operands to the narrower format changes nothing over the extended reals. -/

/-- The left operand's entry a contraction position reads at output entry (p, q): row p, column k. -/
theorem lhs512 (p : Fin 2000) (q : Fin 128) (k : Fin 512) :
    dot_S2000x512_S512x128_S2000x128_1_0_0_1_n_n.lhsIdx (ix2 p q) ((contrEquiv1 dot_S2000x512_S512x128_S2000x128_1_0_0_1_n_n 512 rfl rfl).symm k) = ix2 p k := by
  funext a
  match a with
  | ⟨0, _⟩ => exact Fin.ext rfl
  | ⟨1, _⟩ =>
    exact Fin.ext ((dot_S2000x512_S512x128_S2000x128_1_0_0_1_n_n.lhsIdx_val_of_single (cl := (1 : Fin 2)) rfl (ix2 p q) _).trans
      (contrEquiv1_symm_val dot_S2000x512_S512x128_S2000x128_1_0_0_1_n_n 512 rfl rfl k))

/-- The right operand's entry it reads: row k, column q. -/
theorem rhs512 (p : Fin 2000) (q : Fin 128) (k : Fin 512) :
    dot_S2000x512_S512x128_S2000x128_1_0_0_1_n_n.rhsIdx (ix2 p q) ((contrEquiv1 dot_S2000x512_S512x128_S2000x128_1_0_0_1_n_n 512 rfl rfl).symm k) = ix2 k q := by
  funext a
  match a with
  | ⟨0, _⟩ =>
    exact Fin.ext ((dot_S2000x512_S512x128_S2000x128_1_0_0_1_n_n.rhsIdx_val_of_single (cr := (0 : Fin 2)) rfl (ix2 p q) _).trans
      (contrEquiv1_symm_val dot_S2000x512_S512x128_S2000x128_1_0_0_1_n_n 512 rfl rfl k))
  | ⟨1, _⟩ => exact Fin.ext rfl

/-- The left operand's entry a contraction position reads at output entry (p, q): row p, column k. -/
theorem lhs128 (p : Fin 2000) (q : Fin 128) (k : Fin 128) :
    dot_S2000x128_S128x128_S2000x128_1_0_0_1_n_n.lhsIdx (ix2 p q) ((contrEquiv1 dot_S2000x128_S128x128_S2000x128_1_0_0_1_n_n 128 rfl rfl).symm k) = ix2 p k := by
  funext a
  match a with
  | ⟨0, _⟩ => exact Fin.ext rfl
  | ⟨1, _⟩ =>
    exact Fin.ext ((dot_S2000x128_S128x128_S2000x128_1_0_0_1_n_n.lhsIdx_val_of_single (cl := (1 : Fin 2)) rfl (ix2 p q) _).trans
      (contrEquiv1_symm_val dot_S2000x128_S128x128_S2000x128_1_0_0_1_n_n 128 rfl rfl k))

/-- The right operand's entry it reads: row k, column q. -/
theorem rhs128 (p : Fin 2000) (q : Fin 128) (k : Fin 128) :
    dot_S2000x128_S128x128_S2000x128_1_0_0_1_n_n.rhsIdx (ix2 p q) ((contrEquiv1 dot_S2000x128_S128x128_S2000x128_1_0_0_1_n_n 128 rfl rfl).symm k) = ix2 k q := by
  funext a
  match a with
  | ⟨0, _⟩ =>
    exact Fin.ext ((dot_S2000x128_S128x128_S2000x128_1_0_0_1_n_n.rhsIdx_val_of_single (cr := (0 : Fin 2)) rfl (ix2 p q) _).trans
      (contrEquiv1_symm_val dot_S2000x128_S128x128_S2000x128_1_0_0_1_n_n 128 rfl rfl k))
  | ⟨1, _⟩ => exact Fin.ext rfl

/-- The first layer's product: entry (p, q) is the sum over k of x0(p, k) · x1(k, q). -/
theorem pay0 (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  refine (Ideal.matmul_constant_zero_apply _ none _ _ (ix2 p q)).trans ?_
  rw [← Equiv.sum_comp (contrEquiv1 dot_S2000x512_S512x128_S2000x128_1_0_0_1_n_n 512 rfl rfl).symm]
  refine Finset.sum_congr rfl fun k _ => ?_
  rw [lhs512, rhs512]
  rfl

/-- A 128-column product with the left operand passed through a cast to its own shape. -/
theorem mm128_at (x0 : Vec Ideal S2000x128 .f32) (x1 : Vec Ideal S128x128 .f32) (p : Fin 2000) (q : Fin 128) :
    matmul (F := Ideal) dot_S2000x128_S128x128_S2000x128_1_0_0_1_n_n none
        (truncf .bf16 (shapeCast S2000x128 x0 shapeCasts_S2000x128_S2000x128) bitsLt_bf16_f32)
        (truncf .bf16 x1 bitsLt_bf16_f32) (constant S2000x128 .f32 0x00000000#32) (ix2 p q)
      = ∑ k : Fin 128, x0 (ix2 p k) * x1 (ix2 k q) := by
  refine (Ideal.matmul_constant_zero_apply _ none _ _ (ix2 p q)).trans ?_
  rw [← Equiv.sum_comp (contrEquiv1 dot_S2000x128_S128x128_S2000x128_1_0_0_1_n_n 128 rfl rfl).symm]
  refine Finset.sum_congr rfl fun k _ => ?_
  rw [lhs128, rhs128]
  exact congrArg (· * x1 (ix2 k q)) (congrFun (shapeCast_self x0 shapeCasts_S2000x128_S2000x128) (ix2 p k))

/-- The second layer's product. -/
theorem pay2 (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  exact mm128_at x0 x1 p q

/-- The third layer's product. -/
theorem pay4 (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  exact mm128_at x0 x1 p q

/-! ## The normalisation and the rectifier

Every operation of the body is entrywise except the re-layings: a cast of an array to its own shape, a one-row array
laid along the 2000 rows, and the one-entry slope laid over the whole block. -/

/-- The entrywise part, over arbitrary arrays of the block's shape. -/
theorem bn_at (X M R G B A : FVec Ideal S2000x128 .f32) (j : S2000x128.Idx) :
    select (cmpf .oge (addf (mulf (mulf (subf X M) R) G) B) (broadcast S2000x128 (Scalar.ofBits (F := Ideal) .f32 0x00000000#32)))
        (addf (mulf (mulf (subf X M) R) G) B) (mulf A (addf (mulf (mulf (subf X M) R) G) B)) j
      = Scalar.select (Ideal.cmp .oge ((X j - M j) * R j * G j + B j) (Ideal.ofBits .f32 0x00000000#32))
          ((X j - M j) * R j * G j + B j) (A j * ((X j - M j) * R j * G j + B j)) := rfl

/-- A one-row array, cast to its own shape and laid along the rows, reads its entry of the same column. -/
theorem row_at (v : Vec Ideal S1x128 .f32) (p : Fin 2000) (q : Fin 128) :
    broadcastTo S2000x128 (shapeCast S1x128 v shapeCasts_S1x128_S1x128) broadcasts_S1x128_S2000x128 (ix2 p q)
      = v (ix2 (0 : Fin 1) q) :=
  (broadcastTo_1b_ab_apply _ broadcasts_S1x128_S2000x128 p q).trans
    (congrFun (shapeCast_self v shapeCasts_S1x128_S1x128) (ix2 (0 : Fin 1) q))

/-- The reciprocal root of the variance row plus ε, laid along the rows. -/
theorem rs_at (v : Vec Ideal S1x128 .f32) (p : Fin 2000) (q : Fin 128) :
    broadcastTo S2000x128
        (rsqrt (addf (shapeCast S1x128 v shapeCasts_S1x128_S1x128) (broadcast S1x128 (Scalar.ofBits (F := Ideal) .f32 0x3727C5AC#32))))
        broadcasts_S1x128_S2000x128 (ix2 p q)
      = Ideal.rsqrt (v (ix2 (0 : Fin 1) q) + Ideal.ofBits .f32 0x3727C5AC#32) :=
  (broadcastTo_1b_ab_apply _ broadcasts_S1x128_S2000x128 p q).trans
    (congrArg (fun t => Ideal.rsqrt (t + Ideal.ofBits .f32 0x3727C5AC#32))
      (congrFun (shapeCast_self v shapeCasts_S1x128_S1x128) (ix2 (0 : Fin 1) q)))

/-- The one-entry slope laid over the block reads its one entry. -/
theorem slope_at (v : Vec Ideal S1x1 .f32) (p : Fin 2000) (q : Fin 128) :
    broadcastTo S2000x128 (shapeCast S1x1 v shapeCasts_S1x1_S1x1) broadcasts_S1x1_S2000x128 (ix2 p q)
      = v (ix2 (0 : Fin 1) (0 : Fin 1)) :=
  (broadcastTo_apply _ broadcasts_S1x1_S2000x128 (ix2 p q) (ix2 (0 : Fin 1) (0 : Fin 1)) (fun a => by
      match a with
      | ⟨0, _⟩ => rfl
      | ⟨1, _⟩ => rfl)).trans
    (congrFun (shapeCast_self v shapeCasts_S1x1_S1x1) (ix2 (0 : Fin 1) (0 : Fin 1)))

/-- The first normalisation-and-rectifier body at entry (p, q): the one-entry function of the activation, column q of
    the mean (v7), the variance (v2), the scale (v13), the shift (v17), and the slope. -/
theorem pay1 (x0 : Vec Ideal S2000x128 .f32) (v2 v7 v13 v17 : Vec Ideal S1x128 .f32) (v21 : Vec Ideal S1x1 .f32)
    (p : Fin 2000) (q : Fin 128) :
    k1_pay1 (F := Ideal) x0 v2 v7 v13 v17 v21 (ix2 p q)
      = Cert.Spec.bnf (x0 (ix2 p q)) (v7 (ix2 (0 : Fin 1) q)) (v2 (ix2 (0 : Fin 1) q)) (v13 (ix2 (0 : Fin 1) q))
          (v17 (ix2 (0 : Fin 1) q)) (v21 (ix2 (0 : Fin 1) (0 : Fin 1))) := by
  unfold k1_pay1
  refine (bn_at _ _ _ _ _ _ (ix2 p q)).trans ?_
  rw [row_at v7, rs_at v2, row_at v13, row_at v17, slope_at v21,
    congrFun (shapeCast_self x0 shapeCasts_S2000x128_S2000x128) (ix2 p q)]
  rfl

/-- The second normalisation-and-rectifier body: the same text. -/
theorem pay3 (x0 : Vec Ideal S2000x128 .f32) (v2 v7 v13 v17 : Vec Ideal S1x128 .f32) (v21 : Vec Ideal S1x1 .f32)
    (p : Fin 2000) (q : Fin 128) :
    k3_pay1 (F := Ideal) x0 v2 v7 v13 v17 v21 (ix2 p q)
      = Cert.Spec.bnf (x0 (ix2 p q)) (v7 (ix2 (0 : Fin 1) q)) (v2 (ix2 (0 : Fin 1) q)) (v13 (ix2 (0 : Fin 1) q))
          (v17 (ix2 (0 : Fin 1) q)) (v21 (ix2 (0 : Fin 1) (0 : Fin 1))) := by
  unfold k3_pay1
  refine (bn_at _ _ _ _ _ _ (ix2 p q)).trans ?_
  rw [row_at v7, rs_at v2, row_at v13, row_at v17, slope_at v21,
    congrFun (shapeCast_self x0 shapeCasts_S2000x128_S2000x128) (ix2 p q)]
  rfl

end Cert.KernelPoint

end
-- ==== Proof.Region0.lean ====
/- Kernel 0 of the program is a dense product: its grid of 25 points takes 2000 rows of the left array each, with the whole
   right array, and writes the 2000 corresponding rows of the product; so after the region the output array is the product
   of the two input arrays as the region found them. -/
import proofs.«175946_j19301583028532_1_alg».proof.Proof.Gen.KernelIdeal.Frame
import proofs.«175946_j19301583028532_1_alg».proof.Proof.Spec
import proofs.«175946_j19301583028532_1_alg».proof.Proof.KernelPoint
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: point `t` takes row block `t` of the left array and of the output, and the one
    block of the right array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `2000 t … 2000 t + 1999` of the left array. -/
theorem left_apply (t : Fin cfg0.N) (x : S2000x512.Idx) (i : S50000x512.Idx)
    (h0 : (i 0).val = 2000 * t.val + (x 0).val) (h1 : (i 1).val = (x 1).val) :
    (iblk0 V c 0 t : Vec Ideal S2000x512 .f32) x = (V c (Pipeline.arrRef spec0 0) : S50000x512.Idx → Elt Ideal .f32) i := by
  obtain ⟨e0, e1, -, -, -, -⟩ := idx_facts t
  unfold iblk0
  rw [View.read_apply]
  refine congrArg (V c (Pipeline.arrRef spec0 0) : S50000x512.Idx → Elt Ideal .f32) ?_
  funext a
  apply Fin.ext
  match a with
  | ⟨0, _⟩ => show win0_0.index t 0 * 2000 + 1 * (x 0).val = (i 0).val; rw [e0, h0]; omega
  | ⟨1, _⟩ => show win0_0.index t 1 * 512 + 1 * (x 1).val = (i 1).val; rw [e1, h1]; omega

/-- The right window's one block is the whole right array. -/
theorem right_apply (t : Fin cfg0.N) (x : S512x128.Idx) :
    (iblk0 V c 1 t : Vec Ideal S512x128 .f32) x = (V c (Pipeline.arrRef spec0 1) : S512x128.Idx → Elt Ideal .f32) x := by
  obtain ⟨-, -, e2, e3, -, -⟩ := idx_facts t
  unfold iblk0
  rw [View.read_apply]
  refine congrArg (V c (Pipeline.arrRef spec0 1) : S512x128.Idx → Elt Ideal .f32) ?_
  funext a
  apply Fin.ext
  match a with
  | ⟨0, _⟩ => show win0_1.index t 0 * 512 + 1 * (x 0).val = (x 0).val; rw [e2]; omega
  | ⟨1, _⟩ => show win0_1.index t 1 * 128 + 1 * (x 1).val = (x 1).val; rw [e3]; omega

/-- One entry of the body's product over blocks that are rows of `A` and all of `B` is the entry of the whole product. -/
theorem point (A : FVec Ideal ⟨2, ![50000, 512]⟩ .f32) (B : FVec Ideal ⟨2, ![512, 128]⟩ .f32)
    (x0 : Vec Ideal S2000x512 .f32) (x1 : Vec Ideal S512x128 .f32) (r : Nat) (y : S2000x128.Idx) (i : S50000x128.Idx)
    (hi0 : (i 0).val = 2000 * r + (y 0).val) (hi1 : (i 1).val = (y 1).val)
    (hx0 : ∀ (x : S2000x512.Idx) (j : S50000x512.Idx), (j 0).val = 2000 * r + (x 0).val → (j 1).val = (x 1).val → x0 x = A j)
    (hx1 : ∀ x : S512x128.Idx, x1 x = B x) :
    k0_pay1 (F := Ideal) x0 x1 y = Cert.Spec.mm512 A B i := by
  obtain ⟨p, q, rfl⟩ : ∃ (p : Fin 2000) (q : Fin 128), y = ix2 p q := ⟨y 0, y 1, eq_ix2 y⟩
  rw [Cert.KernelPoint.pay0]
  unfold Cert.Spec.mm512
  refine Finset.sum_congr rfl fun k _ => ?_
  rw [hx0 (ix2 p k) (ix2 (n0 := 50000) (i 0) k) hi0 rfl, hx1 (ix2 k q)]
  refine congrArg (fun z => A (ix2 (n0 := 50000) (i 0) k) * B z) ?_
  funext a
  match a with
  | ⟨0, _⟩ => rfl
  | ⟨1, _⟩ => exact (Fin.ext hi1).symm

/-- WHAT POINT `t` WRITES BACK is block `t` of the product of the two input arrays as the region finds them. -/
theorem flushed_eq (t : Fin cfg0.N) :
    (dat0 V c).flushed 2 t = ((cfg0.win 2).blk t).view.read (Elt Ideal)
      (Cert.Spec.mm512 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨-, -, -, -, e4, e5⟩ := idx_facts t
  funext y
  rw [View.read_apply]
  refine point _ _ _ _ t.val y _ ?_ ?_ (fun x j h0 h1 => left_apply V c t x j h0 h1) (fun x => right_apply V c t x)
  · show win0_2.index t 0 * 2000 + 1 * (y 0).val = 2000 * t.val + (y 0).val; rw [e4]; omega
  · show win0_2.index t 1 * 128 + 1 * (y 1).val = (y 1).val; rw [e5]; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

/-- Every row of the output lies in the block of the point `row / 2000`. -/
theorem cover (i : S50000x128.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨-, -, -, -, e4, e5⟩ := idx_facts t
  have ht : t.val = (i 0).val / 2000 := rfl
  refine ⟨t, flush0_2 t, ?_⟩
  rw [mem_blk]
  intro a
  match a with
  | ⟨0, _⟩ => show win0_2.index t 0 * 2000 ≤ (i 0).val ∧ (i 0).val < win0_2.index t 0 * 2000 + 2000; rw [e4, ht]; omega
  | ⟨1, _⟩ => show win0_2.index t 1 * 128 ≤ (i 1).val ∧ (i 1).val < win0_2.index t 1 * 128 + 128; rw [e5]; omega

/-- THE OUTPUT ARRAY after the region: the product of the two input arrays as the region found them. -/
theorem out_eq : (dat0 V c).arrAt 2 cfg0.N
    = Cert.Spec.mm512 (V c (Pipeline.arrRef spec0 0)) (V c (Pipeline.arrRef spec0 1)) :=
  (dat0 V c).arrAt_eq_of_cover 2 _ (fun t _ => flushed_eq V c t) (cover)

end Cert.KernelIdeal.Region0

end
-- ==== Proof.KStretch.lean ====
/- The host stretches of the kernel program between its kernels, each as the stage it computes: from any contents V of the
   buffers before a stretch, its result buffers hold the aggregation, the column mean and variance of what the stretch
   reads, the buffers it does not write are left alone, and the reshaped rows read the vectors they were cast from. -/
import proofs.«175946_j19301583028532_1_alg».proof.Proof.Gen.KernelIdeal.Launch
import proofs.«175946_j19301583028532_1_alg».proof.Proof.StagesK
import Idealize.ShloMosaic.Lib.StableHlo.Run
import Idealize.ShloMosaic.Lib.ValueLayout

noncomputable section

namespace Cert.KernelIdeal.Stretch

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]

-- the gathers, scatters and column sums stay folded: the equations below never look inside them
attribute [local irreducible] Host.gather Host.scatterAdd Host.reduceAdd

set_option maxRecDepth 16384 in
/-- Layer 1: the aggregation of the product the stretch reads. -/
theorem agg1 (V : Valuation τ sig (Elt F)) :
    after hostOps1 V (no_index (Proc.devRef .tc main_v45))
      = Cert.KStage.agg (V (Proc.devRef .tc main_v29)) (V (Proc.devRef .tc main_arg3)) (V (Proc.devRef .tc main_v3)) (V (Proc.devRef .tc main_v6)) (V (Proc.devRef .tc main_v28)) := by
  after_results_simp
  rfl

set_option maxRecDepth 16384 in
/-- Layer 1: the column means of that aggregation. -/
theorem mean1 (V : Valuation τ sig (Elt F)) :
    after hostOps1 V (no_index (Proc.devRef .tc main_v48))
      = Cert.KStage.mean (Cert.KStage.agg (V (Proc.devRef .tc main_v29)) (V (Proc.devRef .tc main_arg3)) (V (Proc.devRef .tc main_v3)) (V (Proc.devRef .tc main_v6)) (V (Proc.devRef .tc main_v28))) := by
  after_results_simp
  rfl

set_option maxRecDepth 16384 in
/-- Layer 1: the integer zero the variance function is called with. -/
theorem zero1 (V : Valuation τ sig (Elt F)) :
    after hostOps1 V (no_index (Proc.devRef .tc main_c_10))
      = (constantI S_ 32 0#32 : (⟨S_, .i32⟩ : BufTy).Contents (Elt F)) := by
  after_results_simp

set_option maxRecDepth 16384 in
/-- Layer 1: the column variances of the aggregation, the function's integer argument being zero. -/
theorem var1 (V : Valuation τ sig (Elt F)) (h : V (Proc.devRef .tc main_c_10) = (constantI S_ 32 0#32 : (⟨S_, .i32⟩ : BufTy).Contents (Elt F))) :
    after hostOps1_1 V (no_index (Proc.devRef .tc main_v49))
      = Cert.KStage.var (V (Proc.devRef .tc main_v45)) := by
  after_results_simp
  rw [h]
  rfl

set_option maxRecDepth 16384 in
/-- Layer 1: the variance function leaves the aggregation alone. -/
theorem keep1_45 (V : Valuation τ sig (Elt F)) :
    after hostOps1_1 V (no_index (Proc.devRef .tc main_v45))
      = (V (Proc.devRef .tc main_v45)) := by
  after_results_simp

set_option maxRecDepth 16384 in
/-- Layer 1: the variance function leaves the column means alone. -/
theorem keep1_48 (V : Valuation τ sig (Elt F)) :
    after hostOps1_1 V (no_index (Proc.devRef .tc main_v48))
      = (V (Proc.devRef .tc main_v48)) := by
  after_results_simp

set_option maxRecDepth 16384 in
/-- Layer 1: the reshapes leave the aggregation alone. -/
theorem keep1b_45 (V : Valuation τ sig (Elt F)) :
    after hostOps1_2 V (no_index (Proc.devRef .tc main_v45))
      = (V (Proc.devRef .tc main_v45)) := by
  after_results_simp

set_option maxRecDepth 16384 in
/-- Layer 1: the one row of %50 is the vector it was cast from. -/
theorem row1_50 (V : Valuation τ sig (Elt F)) (q : Fin 128) :
    (after hostOps1_2 V (no_index (Proc.devRef .tc main_v50)) : S1x128.Idx → Elt F .f32) (ix2 (0 : Fin 1) q)
      = (V (Proc.devRef .tc main_v48) : S128.Idx → Elt F .f32) (ix1 q) := by
  after_results_simp
  exact shapeCast_a_1a_apply _ _ 0 q

set_option maxRecDepth 16384 in
/-- Layer 1: the one row of %51 is the vector it was cast from. -/
theorem row1_51 (V : Valuation τ sig (Elt F)) (q : Fin 128) :
    (after hostOps1_2 V (no_index (Proc.devRef .tc main_v51)) : S1x128.Idx → Elt F .f32) (ix2 (0 : Fin 1) q)
      = (V (Proc.devRef .tc main_v49) : S128.Idx → Elt F .f32) (ix1 q) := by
  after_results_simp
  exact shapeCast_a_1a_apply _ _ 0 q

set_option maxRecDepth 16384 in
/-- Layer 1: the one row of %52 is the vector it was cast from. -/
theorem row1_52 (V : Valuation τ sig (Elt F)) (q : Fin 128) :
    (after hostOps1_2 V (no_index (Proc.devRef .tc main_v52)) : S1x128.Idx → Elt F .f32) (ix2 (0 : Fin 1) q)
      = (V (Proc.devRef .tc main_arg8) : S128.Idx → Elt F .f32) (ix1 q) := by
  after_results_simp
  exact shapeCast_a_1a_apply _ _ 0 q

set_option maxRecDepth 16384 in
/-- Layer 1: the one row of %53 is the vector it was cast from. -/
theorem row1_53 (V : Valuation τ sig (Elt F)) (q : Fin 128) :
    (after hostOps1_2 V (no_index (Proc.devRef .tc main_v53)) : S1x128.Idx → Elt F .f32) (ix2 (0 : Fin 1) q)
      = (V (Proc.devRef .tc main_arg9) : S128.Idx → Elt F .f32) (ix1 q) := by
  after_results_simp
  exact shapeCast_a_1a_apply _ _ 0 q

set_option maxRecDepth 16384 in
/-- Layer 1: the one entry of %54 is the scalar it was cast from. -/
theorem row1_54 (V : Valuation τ sig (Elt F)) :
    (after hostOps1_2 V (no_index (Proc.devRef .tc main_v54)) : S1x1.Idx → Elt F .f32) (ix2 (0 : Fin 1) (0 : Fin 1))
      = (V (Proc.devRef .tc main_arg12) : S1.Idx → Elt F .f32) (ix1 (0 : Fin 1)) := by
  after_results_simp
  exact shapeCast_a_1a_apply _ _ 0 0

set_option maxRecDepth 16384 in
/-- Layer 2: the aggregation of the product the stretch reads. -/
theorem agg2 (V : Valuation τ sig (Elt F)) :
    after hostOps3 V (no_index (Proc.devRef .tc main_v72))
      = Cert.KStage.agg (V (Proc.devRef .tc main_v56)) (V (Proc.devRef .tc main_arg5)) (V (Proc.devRef .tc main_v3)) (V (Proc.devRef .tc main_v6)) (V (Proc.devRef .tc main_v28)) := by
  after_results_simp
  rfl

set_option maxRecDepth 16384 in
/-- Layer 2: the column means of that aggregation. -/
theorem mean2 (V : Valuation τ sig (Elt F)) :
    after hostOps3 V (no_index (Proc.devRef .tc main_v75))
      = Cert.KStage.mean (Cert.KStage.agg (V (Proc.devRef .tc main_v56)) (V (Proc.devRef .tc main_arg5)) (V (Proc.devRef .tc main_v3)) (V (Proc.devRef .tc main_v6)) (V (Proc.devRef .tc main_v28))) := by
  after_results_simp
  rfl

set_option maxRecDepth 16384 in
/-- Layer 2: the integer zero the variance function is called with. -/
theorem zero2 (V : Valuation τ sig (Elt F)) :
    after hostOps3 V (no_index (Proc.devRef .tc main_c_16))
      = (constantI S_ 32 0#32 : (⟨S_, .i32⟩ : BufTy).Contents (Elt F)) := by
  after_results_simp

set_option maxRecDepth 16384 in
/-- Layer 2: the column variances of the aggregation, the function's integer argument being zero. -/
theorem var2 (V : Valuation τ sig (Elt F)) (h : V (Proc.devRef .tc main_c_16) = (constantI S_ 32 0#32 : (⟨S_, .i32⟩ : BufTy).Contents (Elt F))) :
    after hostOps3_1 V (no_index (Proc.devRef .tc main_v76))
      = Cert.KStage.var (V (Proc.devRef .tc main_v72)) := by
  after_results_simp
  rw [h]
  rfl

set_option maxRecDepth 16384 in
/-- Layer 2: the variance function leaves the aggregation alone. -/
theorem keep2_72 (V : Valuation τ sig (Elt F)) :
    after hostOps3_1 V (no_index (Proc.devRef .tc main_v72))
      = (V (Proc.devRef .tc main_v72)) := by
  after_results_simp

set_option maxRecDepth 16384 in
/-- Layer 2: the variance function leaves the column means alone. -/
theorem keep2_75 (V : Valuation τ sig (Elt F)) :
    after hostOps3_1 V (no_index (Proc.devRef .tc main_v75))
      = (V (Proc.devRef .tc main_v75)) := by
  after_results_simp

set_option maxRecDepth 16384 in
/-- Layer 2: the reshapes leave the aggregation alone. -/
theorem keep2b_72 (V : Valuation τ sig (Elt F)) :
    after hostOps3_2 V (no_index (Proc.devRef .tc main_v72))
      = (V (Proc.devRef .tc main_v72)) := by
  after_results_simp

set_option maxRecDepth 16384 in
/-- Layer 2: the one row of %77 is the vector it was cast from. -/
theorem row2_77 (V : Valuation τ sig (Elt F)) (q : Fin 128) :
    (after hostOps3_2 V (no_index (Proc.devRef .tc main_v77)) : S1x128.Idx → Elt F .f32) (ix2 (0 : Fin 1) q)
      = (V (Proc.devRef .tc main_v75) : S128.Idx → Elt F .f32) (ix1 q) := by
  after_results_simp
  exact shapeCast_a_1a_apply _ _ 0 q

set_option maxRecDepth 16384 in
/-- Layer 2: the one row of %78 is the vector it was cast from. -/
theorem row2_78 (V : Valuation τ sig (Elt F)) (q : Fin 128) :
    (after hostOps3_2 V (no_index (Proc.devRef .tc main_v78)) : S1x128.Idx → Elt F .f32) (ix2 (0 : Fin 1) q)
      = (V (Proc.devRef .tc main_v76) : S128.Idx → Elt F .f32) (ix1 q) := by
  after_results_simp
  exact shapeCast_a_1a_apply _ _ 0 q

set_option maxRecDepth 16384 in
/-- Layer 2: the one row of %79 is the vector it was cast from. -/
theorem row2_79 (V : Valuation τ sig (Elt F)) (q : Fin 128) :
    (after hostOps3_2 V (no_index (Proc.devRef .tc main_v79)) : S1x128.Idx → Elt F .f32) (ix2 (0 : Fin 1) q)
      = (V (Proc.devRef .tc main_arg10) : S128.Idx → Elt F .f32) (ix1 q) := by
  after_results_simp
  exact shapeCast_a_1a_apply _ _ 0 q

set_option maxRecDepth 16384 in
/-- Layer 2: the one row of %80 is the vector it was cast from. -/
theorem row2_80 (V : Valuation τ sig (Elt F)) (q : Fin 128) :
    (after hostOps3_2 V (no_index (Proc.devRef .tc main_v80)) : S1x128.Idx → Elt F .f32) (ix2 (0 : Fin 1) q)
      = (V (Proc.devRef .tc main_arg11) : S128.Idx → Elt F .f32) (ix1 q) := by
  after_results_simp
  exact shapeCast_a_1a_apply _ _ 0 q

set_option maxRecDepth 16384 in
/-- Layer 2: the one entry of %81 is the scalar it was cast from. -/
theorem row2_81 (V : Valuation τ sig (Elt F)) :
    (after hostOps3_2 V (no_index (Proc.devRef .tc main_v81)) : S1x1.Idx → Elt F .f32) (ix2 (0 : Fin 1) (0 : Fin 1))
      = (V (Proc.devRef .tc main_arg13) : S1.Idx → Elt F .f32) (ix1 (0 : Fin 1)) := by
  after_results_simp
  exact shapeCast_a_1a_apply _ _ 0 0

set_option maxRecDepth 16384 in
/-- Layer 3: the aggregation of the product the stretch reads. -/
theorem agg3 (V : Valuation τ sig (Elt F)) :
    after hostOps5 V (no_index (Proc.devRef .tc main_v99))
      = Cert.KStage.agg (V (Proc.devRef .tc main_v83)) (V (Proc.devRef .tc main_arg7)) (V (Proc.devRef .tc main_v3)) (V (Proc.devRef .tc main_v6)) (V (Proc.devRef .tc main_v28)) := by
  after_results_simp
  rfl

end Cert.KernelIdeal.Stretch

end
-- ==== Proof.FoldA.lean ====
/- The kernel program's run, read: the first dense product, the first aggregation, its column statistics and the row
   operands handed to the first normalising kernel, each as a function of the launch contents of the arguments. -/
import proofs.«175946_j19301583028532_1_alg».proof.Proof.KeepA
import proofs.«175946_j19301583028532_1_alg».proof.Proof.KeepS2
import proofs.«175946_j19301583028532_1_alg».proof.Proof.KeepS3
import proofs.«175946_j19301583028532_1_alg».proof.Proof.KeepS4
import proofs.«175946_j19301583028532_1_alg».proof.Proof.KeepS5
import proofs.«175946_j19301583028532_1_alg».proof.Proof.Region0
import proofs.«175946_j19301583028532_1_alg».proof.Proof.StagesK
import proofs.«175946_j19301583028532_1_alg».proof.Proof.Spec
import proofs.«175946_j19301583028532_1_alg».proof.Proof.KStretch
import Idealize.ShloMosaic.Lib.StableHlo.Run
import Idealize.ShloMosaic.Lib.ValueLayout

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The kept buffers at the boundaries of the first layer. -/
theorem kept2 : Kept m c (W2 m ρ c) := step2 m ρ c (kept1 m ρ c)
theorem kept3 : Kept m c (W3 m ρ c) := step3 m ρ c (kept2 m ρ c)
theorem kept4 : Kept m c (W4 m ρ c) := step4 m ρ c (kept3 m ρ c)
theorem kept5 : Kept m c (W5 m ρ c) := step5 m ρ c (kept4 m ρ c)

/-- Layer 1 before normalisation: the first product, aggregated over the edges, the first bias added. -/
def h1 : (⟨S50000x128, .f32⟩ : BufTy).Contents (Elt Ideal) :=
  Cert.KStage.agg (Cert.Spec.mm512 (m ((c : Thread nD τ).loc main_arg0)) (m ((c : Thread nD τ).loc main_arg2))) (m ((c : Thread nD τ).loc main_arg3)) (Cert.KStage.src (m ((c : Thread nD τ).loc main_arg1))) (Cert.KStage.dst (m ((c : Thread nD τ).loc main_arg1))) (Cert.KStage.nrm (m ((c : Thread nD τ).loc main_arg1)))

/-- The first kernel leaves the product of the features with the first weight matrix. -/
theorem W2_v29 : W2 m ρ c (Proc.devRef .tc main_v29) = Cert.Spec.mm512 (m ((c : Thread nD τ).loc main_arg0)) (m ((c : Thread nD τ).loc main_arg2)) := by
  have k := kept1 m ρ c
  refine (W2_arr m ρ c 2).trans ((Cert.KernelIdeal.Region0.out_eq (V1 m ρ) c).trans ?_)
  rw [show V1 m ρ c (Pipeline.arrRef spec0 0) = (m ((c : Thread nD τ).loc main_arg0)) from k.a0, show V1 m ρ c (Pipeline.arrRef spec0 1) = (m ((c : Thread nD τ).loc main_arg2)) from k.a2]

/-- The activations after aggregation 1, before normalisation. -/
theorem W3_v45 : W3 m ρ c (Proc.devRef .tc main_v45) = h1 m c := by
  have k := kept2 m ρ c
  refine (Cert.KernelIdeal.Stretch.agg1 (W2 m ρ c)).trans ?_
  rw [W2_v29 m ρ c, k.a3, k.s, k.d, k.n]
  rfl

/-- Their column means. -/
theorem W3_v48 : W3 m ρ c (Proc.devRef .tc main_v48) = Cert.KStage.mean (h1 m c) := by
  have k := kept2 m ρ c
  refine (Cert.KernelIdeal.Stretch.mean1 (W2 m ρ c)).trans ?_
  rw [W2_v29 m ρ c, k.a3, k.s, k.d, k.n]
  rfl

/-- The integer zero the variance's degrees-of-freedom correction is read from. -/
theorem W3_c_10 : W3 m ρ c (Proc.devRef .tc main_c_10) = constantI S_ 32 0#32 :=
  Cert.KernelIdeal.Stretch.zero1 (W2 m ρ c)

/-- Their column variances. -/
theorem W4_v49 : W4 m ρ c (Proc.devRef .tc main_v49) = Cert.KStage.var (h1 m c) := by
  refine (Cert.KernelIdeal.Stretch.var1 (W3 m ρ c) (W3_c_10 m ρ c)).trans ?_
  rw [W3_v45 m ρ c]

theorem W4_v45 : W4 m ρ c (Proc.devRef .tc main_v45) = h1 m c :=
  (Cert.KernelIdeal.Stretch.keep1_45 (W3 m ρ c)).trans (W3_v45 m ρ c)

theorem W4_v48 : W4 m ρ c (Proc.devRef .tc main_v48) = Cert.KStage.mean (h1 m c) :=
  (Cert.KernelIdeal.Stretch.keep1_48 (W3 m ρ c)).trans (W3_v48 m ρ c)

theorem W5_v45 : W5 m ρ c (Proc.devRef .tc main_v45) = h1 m c :=
  (Cert.KernelIdeal.Stretch.keep1b_45 (W4 m ρ c)).trans (W4_v45 m ρ c)

/-- The row operands of the normalising kernel: the means, the variances, the scale and the shift as 1×128 rows, the slope as 1×1. -/
theorem W5_v50 (q : Fin 128) : (W5 m ρ c (Proc.devRef .tc main_v50) : S1x128.Idx → Elt Ideal .f32) (ix2 (0 : Fin 1) q)
    = Cert.KStage.mean (h1 m c) (ix1 q) := by
  refine (Cert.KernelIdeal.Stretch.row1_50 (W4 m ρ c) q).trans ?_
  rw [W4_v48 m ρ c]

theorem W5_v51 (q : Fin 128) : (W5 m ρ c (Proc.devRef .tc main_v51) : S1x128.Idx → Elt Ideal .f32) (ix2 (0 : Fin 1) q)
    = Cert.KStage.var (h1 m c) (ix1 q) := by
  refine (Cert.KernelIdeal.Stretch.row1_51 (W4 m ρ c) q).trans ?_
  rw [W4_v49 m ρ c]

theorem W5_v52 (q : Fin 128) : (W5 m ρ c (Proc.devRef .tc main_v52) : S1x128.Idx → Elt Ideal .f32) (ix2 (0 : Fin 1) q)
    = (m ((c : Thread nD τ).loc main_arg8)) (ix1 q) := by
  refine (Cert.KernelIdeal.Stretch.row1_52 (W4 m ρ c) q).trans ?_
  rw [(kept4 m ρ c).a8]

theorem W5_v53 (q : Fin 128) : (W5 m ρ c (Proc.devRef .tc main_v53) : S1x128.Idx → Elt Ideal .f32) (ix2 (0 : Fin 1) q)
    = (m ((c : Thread nD τ).loc main_arg9)) (ix1 q) := by
  refine (Cert.KernelIdeal.Stretch.row1_53 (W4 m ρ c) q).trans ?_
  rw [(kept4 m ρ c).a9]

theorem W5_v54 : (W5 m ρ c (Proc.devRef .tc main_v54) : S1x1.Idx → Elt Ideal .f32) (ix2 (0 : Fin 1) (0 : Fin 1))
    = (m ((c : Thread nD τ).loc main_arg12)) (ix1 (0 : Fin 1)) := by
  refine (Cert.KernelIdeal.Stretch.row1_54 (W4 m ρ c)).trans ?_
  rw [(kept4 m ρ c).a12]

end Cert.KernelIdeal.Fold

end
-- ==== Proof.KeepS6.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step6 (h : Kept m c (W5 m ρ c)) : Kept m c (W6 m ρ c) := by
  obtain ⟨h0, h1, h2, h3, h4, h5, h6, h7, h8, h9, h10, h11, h12, h13, h14, h15⟩ := h
  exact ⟨(W6_of_ne m ρ c main_arg0 (by decide)).trans h0,
    (W6_of_ne m ρ c main_arg2 (by decide)).trans h1,
    (W6_of_ne m ρ c main_arg3 (by decide)).trans h2,
    (W6_of_ne m ρ c main_arg4 (by decide)).trans h3,
    (W6_of_ne m ρ c main_arg5 (by decide)).trans h4,
    (W6_of_ne m ρ c main_arg6 (by decide)).trans h5,
    (W6_of_ne m ρ c main_arg7 (by decide)).trans h6,
    (W6_of_ne m ρ c main_arg8 (by decide)).trans h7,
    (W6_of_ne m ρ c main_arg9 (by decide)).trans h8,
    (W6_of_ne m ρ c main_arg10 (by decide)).trans h9,
    (W6_of_ne m ρ c main_arg11 (by decide)).trans h10,
    (W6_of_ne m ρ c main_arg12 (by decide)).trans h11,
    (W6_of_ne m ρ c main_arg13 (by decide)).trans h12,
    (W6_of_ne m ρ c main_v3 (by decide)).trans h13,
    (W6_of_ne m ρ c main_v6 (by decide)).trans h14,
    (W6_of_ne m ρ c main_v28 (by decide)).trans h15⟩

end Cert.KernelIdeal.Fold

end
-- ==== Proof.KeepS7.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step7 (h : Kept m c (W6 m ρ c)) : Kept m c (W7 m ρ c) := by
  obtain ⟨h0, h1, h2, h3, h4, h5, h6, h7, h8, h9, h10, h11, h12, h13, h14, h15⟩ := h
  exact ⟨(W7_of_ne m ρ c main_arg0 (by decide)).trans h0,
    (W7_of_ne m ρ c main_arg2 (by decide)).trans h1,
    (W7_of_ne m ρ c main_arg3 (by decide)).trans h2,
    ((W7_arr m ρ c 1).trans (((dat2 (V6 m ρ) c).arrAt_in 1 rfl _).trans (A_eq2 (V6 m ρ) c 1))).trans h3,
    (W7_of_ne m ρ c main_arg5 (by decide)).trans h4,
    (W7_of_ne m ρ c main_arg6 (by decide)).trans h5,
    (W7_of_ne m ρ c main_arg7 (by decide)).trans h6,
    (W7_of_ne m ρ c main_arg8 (by decide)).trans h7,
    (W7_of_ne m ρ c main_arg9 (by decide)).trans h8,
    (W7_of_ne m ρ c main_arg10 (by decide)).trans h9,
    (W7_of_ne m ρ c main_arg11 (by decide)).trans h10,
    (W7_of_ne m ρ c main_arg12 (by decide)).trans h11,
    (W7_of_ne m ρ c main_arg13 (by decide)).trans h12,
    (W7_of_ne m ρ c main_v3 (by decide)).trans h13,
    (W7_of_ne m ρ c main_v6 (by decide)).trans h14,
    (W7_of_ne m ρ c main_v28 (by decide)).trans h15⟩

end Cert.KernelIdeal.Fold

end
-- ==== Proof.KeepS8.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step8 (h : Kept m c (W7 m ρ c)) : Kept m c (W8 m ρ c) := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩
  · show StableHlo.after hostOps3 (W7 m ρ c) _ = _; dsimp only [hostOps3]; after_results_simp; exact h0
  · show StableHlo.after hostOps3 (W7 m ρ c) _ = _; dsimp only [hostOps3]; after_results_simp; exact h1
  · show StableHlo.after hostOps3 (W7 m ρ c) _ = _; dsimp only [hostOps3]; after_results_simp; exact h2
  · show StableHlo.after hostOps3 (W7 m ρ c) _ = _; dsimp only [hostOps3]; after_results_simp; exact h3
  · show StableHlo.after hostOps3 (W7 m ρ c) _ = _; dsimp only [hostOps3]; after_results_simp; exact h4
  · show StableHlo.after hostOps3 (W7 m ρ c) _ = _; dsimp only [hostOps3]; after_results_simp; exact h5
  · show StableHlo.after hostOps3 (W7 m ρ c) _ = _; dsimp only [hostOps3]; after_results_simp; exact h6
  · show StableHlo.after hostOps3 (W7 m ρ c) _ = _; dsimp only [hostOps3]; after_results_simp; exact h7
  · show StableHlo.after hostOps3 (W7 m ρ c) _ = _; dsimp only [hostOps3]; after_results_simp; exact h8
  · show StableHlo.after hostOps3 (W7 m ρ c) _ = _; dsimp only [hostOps3]; after_results_simp; exact h9
  · show StableHlo.after hostOps3 (W7 m ρ c) _ = _; dsimp only [hostOps3]; after_results_simp; exact h10
  · show StableHlo.after hostOps3 (W7 m ρ c) _ = _; dsimp only [hostOps3]; after_results_simp; exact h11
  · show StableHlo.after hostOps3 (W7 m ρ c) _ = _; dsimp only [hostOps3]; after_results_simp; exact h12
  · show StableHlo.after hostOps3 (W7 m ρ c) _ = _; dsimp only [hostOps3]; after_results_simp; exact h13
  · show StableHlo.after hostOps3 (W7 m ρ c) _ = _; dsimp only [hostOps3]; after_results_simp; exact h14
  · show StableHlo.after hostOps3 (W7 m ρ c) _ = _; dsimp only [hostOps3]; after_results_simp; exact h15

end Cert.KernelIdeal.Fold

end
-- ==== Proof.KeepS9.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step9 (h : Kept m c (W8 m ρ c)) : Kept m c (W9 m ρ c) := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩
  · show StableHlo.after hostOps3_1 (W8 m ρ c) _ = _; dsimp only [hostOps3_1]; after_results_simp; exact h0
  · show StableHlo.after hostOps3_1 (W8 m ρ c) _ = _; dsimp only [hostOps3_1]; after_results_simp; exact h1
  · show StableHlo.after hostOps3_1 (W8 m ρ c) _ = _; dsimp only [hostOps3_1]; after_results_simp; exact h2
  · show StableHlo.after hostOps3_1 (W8 m ρ c) _ = _; dsimp only [hostOps3_1]; after_results_simp; exact h3
  · show StableHlo.after hostOps3_1 (W8 m ρ c) _ = _; dsimp only [hostOps3_1]; after_results_simp; exact h4
  · show StableHlo.after hostOps3_1 (W8 m ρ c) _ = _; dsimp only [hostOps3_1]; after_results_simp; exact h5
  · show StableHlo.after hostOps3_1 (W8 m ρ c) _ = _; dsimp only [hostOps3_1]; after_results_simp; exact h6
  · show StableHlo.after hostOps3_1 (W8 m ρ c) _ = _; dsimp only [hostOps3_1]; after_results_simp; exact h7
  · show StableHlo.after hostOps3_1 (W8 m ρ c) _ = _; dsimp only [hostOps3_1]; after_results_simp; exact h8
  · show StableHlo.after hostOps3_1 (W8 m ρ c) _ = _; dsimp only [hostOps3_1]; after_results_simp; exact h9
  · show StableHlo.after hostOps3_1 (W8 m ρ c) _ = _; dsimp only [hostOps3_1]; after_results_simp; exact h10
  · show StableHlo.after hostOps3_1 (W8 m ρ c) _ = _; dsimp only [hostOps3_1]; after_results_simp; exact h11
  · show StableHlo.after hostOps3_1 (W8 m ρ c) _ = _; dsimp only [hostOps3_1]; after_results_simp; exact h12
  · show StableHlo.after hostOps3_1 (W8 m ρ c) _ = _; dsimp only [hostOps3_1]; after_results_simp; exact h13
  · show StableHlo.after hostOps3_1 (W8 m ρ c) _ = _; dsimp only [hostOps3_1]; after_results_simp; exact h14
  · show StableHlo.after hostOps3_1 (W8 m ρ c) _ = _; dsimp only [hostOps3_1]; after_results_simp; exact h15

end Cert.KernelIdeal.Fold

end
-- ==== Proof.KeepS10.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step10 (h : Kept m c (W9 m ρ c)) : Kept m c (W10 m ρ c) := by
  obtain ⟨h0, h1, h2, h3, h4, h5, h6, h7, h8, h9, h10, h11, h12, h13, h14, h15⟩ := h
  refine ⟨?_, ?_, ?_, ?_, ?_, ?_, ?_, ?_, ?_, ?_, ?_, ?_, ?_, ?_, ?_, ?_⟩
  · show StableHlo.after hostOps3_2 (W9 m ρ c) _ = _; dsimp only [hostOps3_2]; after_results_simp; exact h0
  · show StableHlo.after hostOps3_2 (W9 m ρ c) _ = _; dsimp only [hostOps3_2]; after_results_simp; exact h1
  · show StableHlo.after hostOps3_2 (W9 m ρ c) _ = _; dsimp only [hostOps3_2]; after_results_simp; exact h2
  · show StableHlo.after hostOps3_2 (W9 m ρ c) _ = _; dsimp only [hostOps3_2]; after_results_simp; exact h3
  · show StableHlo.after hostOps3_2 (W9 m ρ c) _ = _; dsimp only [hostOps3_2]; after_results_simp; exact h4
  · show StableHlo.after hostOps3_2 (W9 m ρ c) _ = _; dsimp only [hostOps3_2]; after_results_simp; exact h5
  · show StableHlo.after hostOps3_2 (W9 m ρ c) _ = _; dsimp only [hostOps3_2]; after_results_simp; exact h6
  · show StableHlo.after hostOps3_2 (W9 m ρ c) _ = _; dsimp only [hostOps3_2]; after_results_simp; exact h7
  · show StableHlo.after hostOps3_2 (W9 m ρ c) _ = _; dsimp only [hostOps3_2]; after_results_simp; exact h8
  · show StableHlo.after hostOps3_2 (W9 m ρ c) _ = _; dsimp only [hostOps3_2]; after_results_simp; exact h9
  · show StableHlo.after hostOps3_2 (W9 m ρ c) _ = _; dsimp only [hostOps3_2]; after_results_simp; exact h10
  · show StableHlo.after hostOps3_2 (W9 m ρ c) _ = _; dsimp only [hostOps3_2]; after_results_simp; exact h11
  · show StableHlo.after hostOps3_2 (W9 m ρ c) _ = _; dsimp only [hostOps3_2]; after_results_simp; exact h12
  · show StableHlo.after hostOps3_2 (W9 m ρ c) _ = _; dsimp only [hostOps3_2]; after_results_simp; exact h13
  · show StableHlo.after hostOps3_2 (W9 m ρ c) _ = _; dsimp only [hostOps3_2]; after_results_simp; exact h14
  · show StableHlo.after hostOps3_2 (W9 m ρ c) _ = _; dsimp only [hostOps3_2]; after_results_simp; exact h15

end Cert.KernelIdeal.Fold

end
-- ==== Proof.Region1a.lean ====
/- Kernel 1 of the program normalises and rectifies 2000 rows per grid point: where each window's block sits in its array,
   one entry of the body's result, and the cover of the output by the 25 blocks. -/
import proofs.«175946_j19301583028532_1_alg».proof.Proof.Gen.KernelIdeal.Frame
import proofs.«175946_j19301583028532_1_alg».proof.Proof.Spec
import proofs.«175946_j19301583028532_1_alg».proof.Proof.KernelPoint
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: point `t` takes row block `t` of the activations and of the output, and the one
    block of each of the five small operands. -/
theorem idx_facts : ∀ t : Fin cfg1.N, win1_0.index t (0 : Fin 2) = t.val ∧ win1_0.index t (1 : Fin 2) = 0
    ∧ win1_6.index t (0 : Fin 2) = t.val ∧ win1_6.index t (1 : Fin 2) = 0
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The activations' block at point `t` is rows `2000 t … 2000 t + 1999` of the array. -/
theorem left_apply (t : Fin cfg1.N) (x : S2000x128.Idx) (i : S50000x128.Idx)
    (h0 : (i 0).val = 2000 * t.val + (x 0).val) (h1 : (i 1).val = (x 1).val) :
    (iblk1 V c 0 t : Vec Ideal S2000x128 .f32) x = (V c (Pipeline.arrRef spec1 0) : S50000x128.Idx → Elt Ideal .f32) i := by
  obtain ⟨e0, e1, -⟩ := idx_facts t
  unfold iblk1
  rw [View.read_apply]
  refine congrArg (V c (Pipeline.arrRef spec1 0) : S50000x128.Idx → Elt Ideal .f32) ?_
  funext a
  apply Fin.ext
  match a with
  | ⟨0, _⟩ => show win1_0.index t 0 * 2000 + 1 * (x 0).val = (i 0).val; rw [e0, h0]; omega
  | ⟨1, _⟩ => show win1_0.index t 1 * 128 + 1 * (x 1).val = (i 1).val; rw [e1, h1]; omega

/-- Window 1's one block is its whole array. -/
theorem whole1_apply (t : Fin cfg1.N) (x : S1x128.Idx) :
    (iblk1 V c 1 t : Vec Ideal S1x128 .f32) x = (V c (Pipeline.arrRef spec1 1) : S1x128.Idx → Elt Ideal .f32) x := by
  obtain ⟨e0, e1⟩ := (idx_facts t).2.2.2.2.1
  unfold iblk1
  rw [View.read_apply]
  refine congrArg (V c (Pipeline.arrRef spec1 1) : S1x128.Idx → Elt Ideal .f32) ?_
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- Window 2's one block is its whole array. -/
theorem whole2_apply (t : Fin cfg1.N) (x : S1x128.Idx) :
    (iblk1 V c 2 t : Vec Ideal S1x128 .f32) x = (V c (Pipeline.arrRef spec1 2) : S1x128.Idx → Elt Ideal .f32) x := by
  obtain ⟨e0, e1⟩ := (idx_facts t).2.2.2.2.2.1
  unfold iblk1
  rw [View.read_apply]
  refine congrArg (V c (Pipeline.arrRef spec1 2) : S1x128.Idx → Elt Ideal .f32) ?_
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- Window 3's one block is its whole array. -/
theorem whole3_apply (t : Fin cfg1.N) (x : S1x128.Idx) :
    (iblk1 V c 3 t : Vec Ideal S1x128 .f32) x = (V c (Pipeline.arrRef spec1 3) : S1x128.Idx → Elt Ideal .f32) x := by
  obtain ⟨e0, e1⟩ := (idx_facts t).2.2.2.2.2.2.1
  unfold iblk1
  rw [View.read_apply]
  refine congrArg (V c (Pipeline.arrRef spec1 3) : S1x128.Idx → Elt Ideal .f32) ?_
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- Window 4's one block is its whole array. -/
theorem whole4_apply (t : Fin cfg1.N) (x : S1x128.Idx) :
    (iblk1 V c 4 t : Vec Ideal S1x128 .f32) x = (V c (Pipeline.arrRef spec1 4) : S1x128.Idx → Elt Ideal .f32) x := by
  obtain ⟨e0, e1⟩ := (idx_facts t).2.2.2.2.2.2.2.1
  unfold iblk1
  rw [View.read_apply]
  refine congrArg (V c (Pipeline.arrRef spec1 4) : S1x128.Idx → Elt Ideal .f32) ?_
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- Window 5's one block is its whole array. -/
theorem whole5_apply (t : Fin cfg1.N) (x : S1x1.Idx) :
    (iblk1 V c 5 t : Vec Ideal S1x1 .f32) x = (V c (Pipeline.arrRef spec1 5) : S1x1.Idx → Elt Ideal .f32) x := by
  obtain ⟨e0, e1⟩ := (idx_facts t).2.2.2.2.2.2.2.2
  unfold iblk1
  rw [View.read_apply]
  refine congrArg (V c (Pipeline.arrRef spec1 5) : S1x1.Idx → Elt Ideal .f32) ?_
  funext a
  apply Fin.ext
  match a with
  | ⟨0, _⟩ => show win1_5.index t 0 * 1 + 1 * (x 0).val = (x 0).val; rw [e0]; omega
  | ⟨1, _⟩ => show win1_5.index t 1 * 1 + 1 * (x 1).val = (x 1).val; rw [e1]; omega

/-- One entry of the body's result over a block of rows of `H` and the small operands is the entry of the whole-array function. -/
theorem point (H : FVec Ideal ⟨2, ![50000, 128]⟩ .f32) (mn vr g be : FVec Ideal ⟨1, ![128]⟩ .f32) (a : FVec Ideal ⟨1, ![1]⟩ .f32)
    (x0 : Vec Ideal S2000x128 .f32) (x1 x2 x3 x4 : Vec Ideal S1x128 .f32) (x5 : Vec Ideal S1x1 .f32) (r : Nat)
    (y : S2000x128.Idx) (i : S50000x128.Idx)
    (hi0 : (i 0).val = 2000 * r + (y 0).val) (hi1 : (i 1).val = (y 1).val)
    (hx0 : ∀ (x : S2000x128.Idx) (j : S50000x128.Idx), (j 0).val = 2000 * r + (x 0).val → (j 1).val = (x 1).val → x0 x = H j)
    (hx1 : ∀ q : Fin 128, x1 (ix2 (0 : Fin 1) q) = mn (ix1 q)) (hx2 : ∀ q : Fin 128, x2 (ix2 (0 : Fin 1) q) = vr (ix1 q))
    (hx3 : ∀ q : Fin 128, x3 (ix2 (0 : Fin 1) q) = g (ix1 q)) (hx4 : ∀ q : Fin 128, x4 (ix2 (0 : Fin 1) q) = be (ix1 q))
    (hx5 : x5 (ix2 (0 : Fin 1) (0 : Fin 1)) = a (ix1 (0 : Fin 1))) :
    k1_pay1 (F := Ideal) x0 x2 x1 x3 x4 x5 y = Cert.Spec.bn H mn vr g be a i := by
  obtain ⟨p, q, rfl⟩ : ∃ (p : Fin 2000) (q : Fin 128), y = ix2 p q := ⟨y 0, y 1, eq_ix2 y⟩
  rw [Cert.KernelPoint.pay1]
  unfold Cert.Spec.bn
  have hq : ix1 (n := 128) (i 1) = ix1 q := by
    funext d; match d with | ⟨0, _⟩ => exact Fin.ext hi1
  rw [hx0 (ix2 p q) i hi0 hi1, hx1 q, hx2 q, hx3 q, hx4 q, hx5, hq]

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole (Pipeline.arrRef spec1 6)).slice (win1_6.rect t)).set ↔ _
  rw [View.set_slice_whole, Rect.mem_set_unit]
  exact Iff.rfl

/-- Every row of the output lies in the block of the point `row / 2000`. -/
theorem cover (i : S50000x128.Idx) : ∃ t : Fin cfg1.N, (cfg1.win 6).flush t = true ∧ i ∈ ((cfg1.win 6).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  obtain ⟨-, -, e2, e3, -⟩ := idx_facts t
  have ht : t.val = (i 0).val / 2000 := rfl
  refine ⟨t, flush1_6 t, ?_⟩
  rw [mem_blk]
  intro a
  match a with
  | ⟨0, _⟩ => show win1_6.index t 0 * 2000 ≤ (i 0).val ∧ (i 0).val < win1_6.index t 0 * 2000 + 2000; rw [e2, ht]; omega
  | ⟨1, _⟩ => show win1_6.index t 1 * 128 ≤ (i 1).val ∧ (i 1).val < win1_6.index t 1 * 128 + 128; rw [e3]; omega

end Cert.KernelIdeal.Region1

end
-- ==== Proof.Region1.lean ====
/- Kernel 1's output array after the region, from what each of its 25 points writes back. -/
import proofs.«175946_j19301583028532_1_alg».proof.Proof.Gen.KernelIdeal.Frame
import proofs.«175946_j19301583028532_1_alg».proof.Proof.Region1a
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

set_option maxHeartbeats 1600000 in
/-- WHAT POINT `t` WRITES BACK is block `t` of the whole-array function of the arrays as the region finds them. -/
theorem flushed_eq (mn vr g be : FVec Ideal ⟨1, ![128]⟩ .f32) (a : FVec Ideal ⟨1, ![1]⟩ .f32)
    (h1 : ∀ q : Fin 128, (V c (Pipeline.arrRef spec1 1) : S1x128.Idx → Elt Ideal .f32) (ix2 (0 : Fin 1) q) = mn (ix1 q))
    (h2 : ∀ q : Fin 128, (V c (Pipeline.arrRef spec1 2) : S1x128.Idx → Elt Ideal .f32) (ix2 (0 : Fin 1) q) = vr (ix1 q))
    (h3 : ∀ q : Fin 128, (V c (Pipeline.arrRef spec1 3) : S1x128.Idx → Elt Ideal .f32) (ix2 (0 : Fin 1) q) = g (ix1 q))
    (h4 : ∀ q : Fin 128, (V c (Pipeline.arrRef spec1 4) : S1x128.Idx → Elt Ideal .f32) (ix2 (0 : Fin 1) q) = be (ix1 q))
    (h5 : (V c (Pipeline.arrRef spec1 5) : S1x1.Idx → Elt Ideal .f32) (ix2 (0 : Fin 1) (0 : Fin 1)) = a (ix1 (0 : Fin 1)))
    (t : Fin cfg1.N) :
    (dat1 V c).flushed 6 t = ((cfg1.win 6).blk t).view.read (Elt Ideal)
      (Cert.Spec.bn (V c (Pipeline.arrRef spec1 0)) mn vr g be a) := by
  show (cfg1.win 6).cut (grid1.coords t) ((dat1 V c).after 6 t) = _
  rw [after1_6]
  unfold out1_6
  rw [View.canon_unit_zero hz]
  simp only [View.ld_unit_zero (S := S2000x128) hz, View.ld_unit_zero (S := S1x128) hz, View.ld_unit_zero (S := S1x1) hz]
  obtain ⟨-, -, e2, e3, -⟩ := idx_facts t
  funext y
  rw [View.read_apply]
  refine point (V c (Pipeline.arrRef spec1 0)) mn vr g be a (iblk1 V c 0 t) (iblk1 V c 1 t) (iblk1 V c 2 t) (iblk1 V c 3 t)
    (iblk1 V c 4 t) (iblk1 V c 5 t) t.val y (((cfg1.win 6).blk t).view.emb y) ?_ ?_ (fun x j h0 h1 => left_apply V c t x j h0 h1)
    (fun q => (whole1_apply V c t (ix2 (0 : Fin 1) q)).trans (h1 q)) (fun q => (whole2_apply V c t (ix2 (0 : Fin 1) q)).trans (h2 q))
    (fun q => (whole3_apply V c t (ix2 (0 : Fin 1) q)).trans (h3 q)) (fun q => (whole4_apply V c t (ix2 (0 : Fin 1) q)).trans (h4 q))
    ((whole5_apply V c t (ix2 (0 : Fin 1) (0 : Fin 1))).trans h5)
  · show win1_6.index t 0 * 2000 + 1 * (y 0).val = 2000 * t.val + (y 0).val; rw [e2]; omega
  · show win1_6.index t 1 * 128 + 1 * (y 1).val = (y 1).val; rw [e3]; omega

/-- THE OUTPUT ARRAY after the region: the normalisation and rectifier of the input array, with the statistics, scale,
    shift and slope the small operands hold. -/
theorem out_eq (mn vr g be : FVec Ideal ⟨1, ![128]⟩ .f32) (a : FVec Ideal ⟨1, ![1]⟩ .f32)
    (h1 : ∀ q : Fin 128, (V c (Pipeline.arrRef spec1 1) : S1x128.Idx → Elt Ideal .f32) (ix2 (0 : Fin 1) q) = mn (ix1 q))
    (h2 : ∀ q : Fin 128, (V c (Pipeline.arrRef spec1 2) : S1x128.Idx → Elt Ideal .f32) (ix2 (0 : Fin 1) q) = vr (ix1 q))
    (h3 : ∀ q : Fin 128, (V c (Pipeline.arrRef spec1 3) : S1x128.Idx → Elt Ideal .f32) (ix2 (0 : Fin 1) q) = g (ix1 q))
    (h4 : ∀ q : Fin 128, (V c (Pipeline.arrRef spec1 4) : S1x128.Idx → Elt Ideal .f32) (ix2 (0 : Fin 1) q) = be (ix1 q))
    (h5 : (V c (Pipeline.arrRef spec1 5) : S1x1.Idx → Elt Ideal .f32) (ix2 (0 : Fin 1) (0 : Fin 1)) = a (ix1 (0 : Fin 1))) :
    (dat1 V c).arrAt 6 cfg1.N = Cert.Spec.bn (V c (Pipeline.arrRef spec1 0)) mn vr g be a :=
  (dat1 V c).arrAt_eq_of_cover 6 _ (fun t _ => flushed_eq V c mn vr g be a h1 h2 h3 h4 h5 t) (cover)

end Cert.KernelIdeal.Region1

end
-- ==== Proof.Region2.lean ====
/- Kernel 2 of the program is a dense product: its grid of 25 points takes 2000 rows of the left array each, with the whole
   right array, and writes the 2000 corresponding rows of the product; so after the region the output array is the product
   of the two input arrays as the region found them. -/
import proofs.«175946_j19301583028532_1_alg».proof.Proof.Gen.KernelIdeal.Frame
import proofs.«175946_j19301583028532_1_alg».proof.Proof.Spec
import proofs.«175946_j19301583028532_1_alg».proof.Proof.KernelPoint
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: point `t` takes row block `t` of the left array and of the output, and the one
    block of the right array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `2000 t … 2000 t + 1999` of the left array. -/
theorem left_apply (t : Fin cfg2.N) (x : S2000x128.Idx) (i : S50000x128.Idx)
    (h0 : (i 0).val = 2000 * t.val + (x 0).val) (h1 : (i 1).val = (x 1).val) :
    (iblk2 V c 0 t : Vec Ideal S2000x128 .f32) x = (V c (Pipeline.arrRef spec2 0) : S50000x128.Idx → Elt Ideal .f32) i := by
  obtain ⟨e0, e1, -, -, -, -⟩ := idx_facts t
  unfold iblk2
  rw [View.read_apply]
  refine congrArg (V c (Pipeline.arrRef spec2 0) : S50000x128.Idx → Elt Ideal .f32) ?_
  funext a
  apply Fin.ext
  match a with
  | ⟨0, _⟩ => show win2_0.index t 0 * 2000 + 1 * (x 0).val = (i 0).val; rw [e0, h0]; omega
  | ⟨1, _⟩ => show win2_0.index t 1 * 128 + 1 * (x 1).val = (i 1).val; rw [e1, h1]; omega

/-- The right window's one block is the whole right array. -/
theorem right_apply (t : Fin cfg2.N) (x : S128x128.Idx) :
    (iblk2 V c 1 t : Vec Ideal S128x128 .f32) x = (V c (Pipeline.arrRef spec2 1) : S128x128.Idx → Elt Ideal .f32) x := by
  obtain ⟨-, -, e2, e3, -, -⟩ := idx_facts t
  unfold iblk2
  rw [View.read_apply]
  refine congrArg (V c (Pipeline.arrRef spec2 1) : S128x128.Idx → Elt Ideal .f32) ?_
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

/-- One entry of the body's product over blocks that are rows of `A` and all of `B` is the entry of the whole product. -/
theorem point (A : FVec Ideal ⟨2, ![50000, 128]⟩ .f32) (B : FVec Ideal ⟨2, ![128, 128]⟩ .f32)
    (x0 : Vec Ideal S2000x128 .f32) (x1 : Vec Ideal S128x128 .f32) (r : Nat) (y : S2000x128.Idx) (i : S50000x128.Idx)
    (hi0 : (i 0).val = 2000 * r + (y 0).val) (hi1 : (i 1).val = (y 1).val)
    (hx0 : ∀ (x : S2000x128.Idx) (j : S50000x128.Idx), (j 0).val = 2000 * r + (x 0).val → (j 1).val = (x 1).val → x0 x = A j)
    (hx1 : ∀ x : S128x128.Idx, x1 x = B x) :
    k2_pay1 (F := Ideal) x0 x1 y = Cert.Spec.mm128 A B i := by
  obtain ⟨p, q, rfl⟩ : ∃ (p : Fin 2000) (q : Fin 128), y = ix2 p q := ⟨y 0, y 1, eq_ix2 y⟩
  rw [Cert.KernelPoint.pay2]
  unfold Cert.Spec.mm128
  refine Finset.sum_congr rfl fun k _ => ?_
  rw [hx0 (ix2 p k) (ix2 (n0 := 50000) (i 0) k) hi0 rfl, hx1 (ix2 k q)]
  refine congrArg (fun z => A (ix2 (n0 := 50000) (i 0) k) * B z) ?_
  funext a
  match a with
  | ⟨0, _⟩ => rfl
  | ⟨1, _⟩ => exact (Fin.ext hi1).symm

/-- WHAT POINT `t` WRITES BACK is block `t` of the product of the two input arrays as the region finds them. -/
theorem flushed_eq (t : Fin cfg2.N) :
    (dat2 V c).flushed 2 t = ((cfg2.win 2).blk t).view.read (Elt Ideal)
      (Cert.Spec.mm128 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨-, -, -, -, e4, e5⟩ := idx_facts t
  funext y
  rw [View.read_apply]
  refine point _ _ _ _ t.val y _ ?_ ?_ (fun x j h0 h1 => left_apply V c t x j h0 h1) (fun x => right_apply V c t x)
  · show win2_2.index t 0 * 2000 + 1 * (y 0).val = 2000 * t.val + (y 0).val; rw [e4]; omega
  · show win2_2.index t 1 * 128 + 1 * (y 1).val = (y 1).val; rw [e5]; omega

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole (Pipeline.arrRef spec2 2)).slice (win2_2.rect t)).set ↔ _
  rw [View.set_slice_whole, Rect.mem_set_unit]
  exact Iff.rfl

/-- Every row of the output lies in the block of the point `row / 2000`. -/
theorem cover (i : S50000x128.Idx) : ∃ t : Fin cfg2.N, (cfg2.win 2).flush t = true ∧ i ∈ ((cfg2.win 2).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  obtain ⟨-, -, -, -, e4, e5⟩ := idx_facts t
  have ht : t.val = (i 0).val / 2000 := rfl
  refine ⟨t, flush2_2 t, ?_⟩
  rw [mem_blk]
  intro a
  match a with
  | ⟨0, _⟩ => show win2_2.index t 0 * 2000 ≤ (i 0).val ∧ (i 0).val < win2_2.index t 0 * 2000 + 2000; rw [e4, ht]; omega
  | ⟨1, _⟩ => show win2_2.index t 1 * 128 ≤ (i 1).val ∧ (i 1).val < win2_2.index t 1 * 128 + 128; rw [e5]; omega

/-- THE OUTPUT ARRAY after the region: the product of the two input arrays as the region found them. -/
theorem out_eq : (dat2 V c).arrAt 2 cfg2.N
    = Cert.Spec.mm128 (V c (Pipeline.arrRef spec2 0)) (V c (Pipeline.arrRef spec2 1)) :=
  (dat2 V c).arrAt_eq_of_cover 2 _ (fun t _ => flushed_eq V c t) (cover)

end Cert.KernelIdeal.Region2

end
-- ==== Proof.FoldB.lean ====
/- The kernel program's run, read: the first normalisation, the second dense product, the second aggregation, its column
   statistics and the row operands handed to the second normalising kernel. -/
import proofs.«175946_j19301583028532_1_alg».proof.Proof.FoldA
import proofs.«175946_j19301583028532_1_alg».proof.Proof.KeepS6
import proofs.«175946_j19301583028532_1_alg».proof.Proof.KeepS7
import proofs.«175946_j19301583028532_1_alg».proof.Proof.KeepS8
import proofs.«175946_j19301583028532_1_alg».proof.Proof.KeepS9
import proofs.«175946_j19301583028532_1_alg».proof.Proof.KeepS10
import proofs.«175946_j19301583028532_1_alg».proof.Proof.Region1
import proofs.«175946_j19301583028532_1_alg».proof.Proof.Region2
import Idealize.ShloMosaic.Lib.StableHlo.Run
import Idealize.ShloMosaic.Lib.ValueLayout

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem kept6 : Kept m c (W6 m ρ c) := step6 m ρ c (kept5 m ρ c)
theorem kept7 : Kept m c (W7 m ρ c) := step7 m ρ c (kept6 m ρ c)
theorem kept8 : Kept m c (W8 m ρ c) := step8 m ρ c (kept7 m ρ c)
theorem kept9 : Kept m c (W9 m ρ c) := step9 m ρ c (kept8 m ρ c)
theorem kept10 : Kept m c (W10 m ρ c) := step10 m ρ c (kept9 m ρ c)

/-- Layer 1 after normalisation and rectifier. -/
def y1 : (⟨S50000x128, .f32⟩ : BufTy).Contents (Elt Ideal) :=
  Cert.Spec.bn (h1 m c) (Cert.KStage.mean (h1 m c)) (Cert.KStage.var (h1 m c)) (m ((c : Thread nD τ).loc main_arg8)) (m ((c : Thread nD τ).loc main_arg9)) (m ((c : Thread nD τ).loc main_arg12))

/-- The second kernel leaves the normalised, rectified first layer. -/
theorem W6_v55 : W6 m ρ c (Proc.devRef .tc main_v55) = y1 m c := by
  refine (W6_arr m ρ c 6).trans ((Cert.KernelIdeal.Region1.out_eq (V5 m ρ) c (Cert.KStage.mean (h1 m c)) (Cert.KStage.var (h1 m c))
    (m ((c : Thread nD τ).loc main_arg8)) (m ((c : Thread nD τ).loc main_arg9)) (m ((c : Thread nD τ).loc main_arg12)) (W5_v50 m ρ c) (W5_v51 m ρ c) (W5_v52 m ρ c) (W5_v53 m ρ c) (W5_v54 m ρ c)).trans ?_)
  rw [show V5 m ρ c (Pipeline.arrRef spec1 0) = h1 m c from W5_v45 m ρ c]
  rfl

/-- The third kernel leaves its product with the second weight matrix. -/
theorem W7_v56 : W7 m ρ c (Proc.devRef .tc main_v56) = Cert.Spec.mm128 (y1 m c) (m ((c : Thread nD τ).loc main_arg4)) := by
  have k := kept6 m ρ c
  refine (W7_arr m ρ c 2).trans ((Cert.KernelIdeal.Region2.out_eq (V6 m ρ) c).trans ?_)
  rw [show V6 m ρ c (Pipeline.arrRef spec2 0) = y1 m c from W6_v55 m ρ c, show V6 m ρ c (Pipeline.arrRef spec2 1) = (m ((c : Thread nD τ).loc main_arg4)) from k.a4]

/-- Layer 2 before normalisation. -/
def h2 : (⟨S50000x128, .f32⟩ : BufTy).Contents (Elt Ideal) :=
  Cert.KStage.agg (Cert.Spec.mm128 (y1 m c) (m ((c : Thread nD τ).loc main_arg4))) (m ((c : Thread nD τ).loc main_arg5)) (Cert.KStage.src (m ((c : Thread nD τ).loc main_arg1))) (Cert.KStage.dst (m ((c : Thread nD τ).loc main_arg1))) (Cert.KStage.nrm (m ((c : Thread nD τ).loc main_arg1)))

/-- The activations after aggregation 2, before normalisation. -/
theorem W8_v72 : W8 m ρ c (Proc.devRef .tc main_v72) = h2 m c := by
  have k := kept7 m ρ c
  refine (Cert.KernelIdeal.Stretch.agg2 (W7 m ρ c)).trans ?_
  rw [W7_v56 m ρ c, k.a5, k.s, k.d, k.n]
  rfl

/-- Their column means. -/
theorem W8_v75 : W8 m ρ c (Proc.devRef .tc main_v75) = Cert.KStage.mean (h2 m c) := by
  have k := kept7 m ρ c
  refine (Cert.KernelIdeal.Stretch.mean2 (W7 m ρ c)).trans ?_
  rw [W7_v56 m ρ c, k.a5, k.s, k.d, k.n]
  rfl

/-- The integer zero the variance's degrees-of-freedom correction is read from. -/
theorem W8_c_16 : W8 m ρ c (Proc.devRef .tc main_c_16) = constantI S_ 32 0#32 :=
  Cert.KernelIdeal.Stretch.zero2 (W7 m ρ c)

/-- Their column variances. -/
theorem W9_v76 : W9 m ρ c (Proc.devRef .tc main_v76) = Cert.KStage.var (h2 m c) := by
  refine (Cert.KernelIdeal.Stretch.var2 (W8 m ρ c) (W8_c_16 m ρ c)).trans ?_
  rw [W8_v72 m ρ c]

theorem W9_v72 : W9 m ρ c (Proc.devRef .tc main_v72) = h2 m c :=
  (Cert.KernelIdeal.Stretch.keep2_72 (W8 m ρ c)).trans (W8_v72 m ρ c)

theorem W9_v75 : W9 m ρ c (Proc.devRef .tc main_v75) = Cert.KStage.mean (h2 m c) :=
  (Cert.KernelIdeal.Stretch.keep2_75 (W8 m ρ c)).trans (W8_v75 m ρ c)

theorem W10_v72 : W10 m ρ c (Proc.devRef .tc main_v72) = h2 m c :=
  (Cert.KernelIdeal.Stretch.keep2b_72 (W9 m ρ c)).trans (W9_v72 m ρ c)

/-- The row operands of the normalising kernel: the means, the variances, the scale and the shift as 1×128 rows, the slope as 1×1. -/
theorem W10_v77 (q : Fin 128) : (W10 m ρ c (Proc.devRef .tc main_v77) : S1x128.Idx → Elt Ideal .f32) (ix2 (0 : Fin 1) q)
    = Cert.KStage.mean (h2 m c) (ix1 q) := by
  refine (Cert.KernelIdeal.Stretch.row2_77 (W9 m ρ c) q).trans ?_
  rw [W9_v75 m ρ c]

theorem W10_v78 (q : Fin 128) : (W10 m ρ c (Proc.devRef .tc main_v78) : S1x128.Idx → Elt Ideal .f32) (ix2 (0 : Fin 1) q)
    = Cert.KStage.var (h2 m c) (ix1 q) := by
  refine (Cert.KernelIdeal.Stretch.row2_78 (W9 m ρ c) q).trans ?_
  rw [W9_v76 m ρ c]

theorem W10_v79 (q : Fin 128) : (W10 m ρ c (Proc.devRef .tc main_v79) : S1x128.Idx → Elt Ideal .f32) (ix2 (0 : Fin 1) q)
    = (m ((c : Thread nD τ).loc main_arg10)) (ix1 q) := by
  refine (Cert.KernelIdeal.Stretch.row2_79 (W9 m ρ c) q).trans ?_
  rw [(kept9 m ρ c).a10]

theorem W10_v80 (q : Fin 128) : (W10 m ρ c (Proc.devRef .tc main_v80) : S1x128.Idx → Elt Ideal .f32) (ix2 (0 : Fin 1) q)
    = (m ((c : Thread nD τ).loc main_arg11)) (ix1 q) := by
  refine (Cert.KernelIdeal.Stretch.row2_80 (W9 m ρ c) q).trans ?_
  rw [(kept9 m ρ c).a11]

theorem W10_v81 : (W10 m ρ c (Proc.devRef .tc main_v81) : S1x1.Idx → Elt Ideal .f32) (ix2 (0 : Fin 1) (0 : Fin 1))
    = (m ((c : Thread nD τ).loc main_arg13)) (ix1 (0 : Fin 1)) := by
  refine (Cert.KernelIdeal.Stretch.row2_81 (W9 m ρ c)).trans ?_
  rw [(kept9 m ρ c).a13]

end Cert.KernelIdeal.Fold

end
-- ==== Proof.KeepS11.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step11 (h : Kept m c (W10 m ρ c)) : Kept m c (W11 m ρ c) := by
  obtain ⟨h0, h1, h2, h3, h4, h5, h6, h7, h8, h9, h10, h11, h12, h13, h14, h15⟩ := h
  exact ⟨(W11_of_ne m ρ c main_arg0 (by decide)).trans h0,
    (W11_of_ne m ρ c main_arg2 (by decide)).trans h1,
    (W11_of_ne m ρ c main_arg3 (by decide)).trans h2,
    (W11_of_ne m ρ c main_arg4 (by decide)).trans h3,
    (W11_of_ne m ρ c main_arg5 (by decide)).trans h4,
    (W11_of_ne m ρ c main_arg6 (by decide)).trans h5,
    (W11_of_ne m ρ c main_arg7 (by decide)).trans h6,
    (W11_of_ne m ρ c main_arg8 (by decide)).trans h7,
    (W11_of_ne m ρ c main_arg9 (by decide)).trans h8,
    (W11_of_ne m ρ c main_arg10 (by decide)).trans h9,
    (W11_of_ne m ρ c main_arg11 (by decide)).trans h10,
    (W11_of_ne m ρ c main_arg12 (by decide)).trans h11,
    (W11_of_ne m ρ c main_arg13 (by decide)).trans h12,
    (W11_of_ne m ρ c main_v3 (by decide)).trans h13,
    (W11_of_ne m ρ c main_v6 (by decide)).trans h14,
    (W11_of_ne m ρ c main_v28 (by decide)).trans h15⟩

end Cert.KernelIdeal.Fold

end
-- ==== Proof.KeepS12.lean ====
/- One segment of the kernel program leaves the kept buffers alone. -/
import proofs.«175946_j19301583028532_1_alg».proof.Proof.KeepDef
import Idealize.ShloMosaic.Lib.StableHlo.Run

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- From the boundary before to the boundary after: nothing of the kept buffers is written. -/
theorem step12 (h : Kept m c (W11 m ρ c)) : Kept m c (W12 m ρ c) := by
  obtain ⟨h0, h1, h2, h3, h4, h5, h6, h7, h8, h9, h10, h11, h12, h13, h14, h15⟩ := h
  exact ⟨(W12_of_ne m ρ c main_arg0 (by decide)).trans h0,
    (W12_of_ne m ρ c main_arg2 (by decide)).trans h1,
    (W12_of_ne m ρ c main_arg3 (by decide)).trans h2,
    (W12_of_ne m ρ c main_arg4 (by decide)).trans h3,
    (W12_of_ne m ρ c main_arg5 (by decide)).trans h4,
    ((W12_arr m ρ c 1).trans (((dat4 (V11 m ρ) c).arrAt_in 1 rfl _).trans (A_eq4 (V11 m ρ) c 1))).trans h5,
    (W12_of_ne m ρ c main_arg7 (by decide)).trans h6,
    (W12_of_ne m ρ c main_arg8 (by decide)).trans h7,
    (W12_of_ne m ρ c main_arg9 (by decide)).trans h8,
    (W12_of_ne m ρ c main_arg10 (by decide)).trans h9,
    (W12_of_ne m ρ c main_arg11 (by decide)).trans h10,
    (W12_of_ne m ρ c main_arg12 (by decide)).trans h11,
    (W12_of_ne m ρ c main_arg13 (by decide)).trans h12,
    (W12_of_ne m ρ c main_v3 (by decide)).trans h13,
    (W12_of_ne m ρ c main_v6 (by decide)).trans h14,
    (W12_of_ne m ρ c main_v28 (by decide)).trans h15⟩

end Cert.KernelIdeal.Fold

end
-- ==== Proof.Region3a.lean ====
/- Kernel 3 of the program normalises and rectifies 2000 rows per grid point: where each window's block sits in its array,
   one entry of the body's result, and the cover of the output by the 25 blocks. -/
import proofs.«175946_j19301583028532_1_alg».proof.Proof.Gen.KernelIdeal.Frame
import proofs.«175946_j19301583028532_1_alg».proof.Proof.Spec
import proofs.«175946_j19301583028532_1_alg».proof.Proof.KernelPoint
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: point `t` takes row block `t` of the activations and of the output, and the one
    block of each of the five small operands. -/
theorem idx_facts : ∀ t : Fin cfg3.N, win3_0.index t (0 : Fin 2) = t.val ∧ win3_0.index t (1 : Fin 2) = 0
    ∧ win3_6.index t (0 : Fin 2) = t.val ∧ win3_6.index t (1 : Fin 2) = 0
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

/-- The activations' block at point `t` is rows `2000 t … 2000 t + 1999` of the array. -/
theorem left_apply (t : Fin cfg3.N) (x : S2000x128.Idx) (i : S50000x128.Idx)
    (h0 : (i 0).val = 2000 * t.val + (x 0).val) (h1 : (i 1).val = (x 1).val) :
    (iblk3 V c 0 t : Vec Ideal S2000x128 .f32) x = (V c (Pipeline.arrRef spec3 0) : S50000x128.Idx → Elt Ideal .f32) i := by
  obtain ⟨e0, e1, -⟩ := idx_facts t
  unfold iblk3
  rw [View.read_apply]
  refine congrArg (V c (Pipeline.arrRef spec3 0) : S50000x128.Idx → Elt Ideal .f32) ?_
  funext a
  apply Fin.ext
  match a with
  | ⟨0, _⟩ => show win3_0.index t 0 * 2000 + 1 * (x 0).val = (i 0).val; rw [e0, h0]; omega
  | ⟨1, _⟩ => show win3_0.index t 1 * 128 + 1 * (x 1).val = (i 1).val; rw [e1, h1]; omega

/-- Window 1's one block is its whole array. -/
theorem whole1_apply (t : Fin cfg3.N) (x : S1x128.Idx) :
    (iblk3 V c 1 t : Vec Ideal S1x128 .f32) x = (V c (Pipeline.arrRef spec3 1) : S1x128.Idx → Elt Ideal .f32) x := by
  obtain ⟨e0, e1⟩ := (idx_facts t).2.2.2.2.1
  unfold iblk3
  rw [View.read_apply]
  refine congrArg (V c (Pipeline.arrRef spec3 1) : S1x128.Idx → Elt Ideal .f32) ?_
  funext a
  apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

/-- Window 2's one block is its whole array. -/
theorem whole2_apply (t : Fin cfg3.N) (x : S1x128.Idx) :
    (iblk3 V c 2 t : Vec Ideal S1x128 .f32) x = (V c (Pipeline.arrRef spec3 2) : S1x128.Idx → Elt Ideal .f32) x := by
  obtain ⟨e0, e1⟩ := (idx_facts t).2.2.2.2.2.1
  unfold iblk3
  rw [View.read_apply]
  refine congrArg (V c (Pipeline.arrRef spec3 2) : S1x128.Idx → Elt Ideal .f32) ?_
  funext a
  apply Fin.ext
  match a with
  | ⟨0, _⟩ => show win3_2.index t 0 * 1 + 1 * (x 0).val = (x 0).val; rw [e0]; omega
  | ⟨1, _⟩ => show win3_2.index t 1 * 128 + 1 * (x 1).val = (x 1).val; rw [e1]; omega

/-- Window 3's one block is its whole array. -/
theorem whole3_apply (t : Fin cfg3.N) (x : S1x128.Idx) :
    (iblk3 V c 3 t : Vec Ideal S1x128 .f32) x = (V c (Pipeline.arrRef spec3 3) : S1x128.Idx → Elt Ideal .f32) x := by
  obtain ⟨e0, e1⟩ := (idx_facts t).2.2.2.2.2.2.1
  unfold iblk3
  rw [View.read_apply]
  refine congrArg (V c (Pipeline.arrRef spec3 3) : S1x128.Idx → Elt Ideal .f32) ?_
  funext a
  apply Fin.ext
  match a with
  | ⟨0, _⟩ => show win3_3.index t 0 * 1 + 1 * (x 0).val = (x 0).val; rw [e0]; omega
  | ⟨1, _⟩ => show win3_3.index t 1 * 128 + 1 * (x 1).val = (x 1).val; rw [e1]; omega

/-- Window 4's one block is its whole array. -/
theorem whole4_apply (t : Fin cfg3.N) (x : S1x128.Idx) :
    (iblk3 V c 4 t : Vec Ideal S1x128 .f32) x = (V c (Pipeline.arrRef spec3 4) : S1x128.Idx → Elt Ideal .f32) x := by
  obtain ⟨e0, e1⟩ := (idx_facts t).2.2.2.2.2.2.2.1
  unfold iblk3
  rw [View.read_apply]
  refine congrArg (V c (Pipeline.arrRef spec3 4) : S1x128.Idx → Elt Ideal .f32) ?_
  funext a
  apply Fin.ext
  match a with
  | ⟨0, _⟩ => show win3_4.index t 0 * 1 + 1 * (x 0).val = (x 0).val; rw [e0]; omega
  | ⟨1, _⟩ => show win3_4.index t 1 * 128 + 1 * (x 1).val = (x 1).val; rw [e1]; omega

/-- Window 5's one block is its whole array. -/
theorem whole5_apply (t : Fin cfg3.N) (x : S1x1.Idx) :
    (iblk3 V c 5 t : Vec Ideal S1x1 .f32) x = (V c (Pipeline.arrRef spec3 5) : S1x1.Idx → Elt Ideal .f32) x := by
  obtain ⟨e0, e1⟩ := (idx_facts t).2.2.2.2.2.2.2.2
  unfold iblk3
  rw [View.read_apply]
  refine congrArg (V c (Pipeline.arrRef spec3 5) : S1x1.Idx → Elt Ideal .f32) ?_
  funext a
  apply Fin.ext
  match a with
  | ⟨0, _⟩ => show win3_5.index t 0 * 1 + 1 * (x 0).val = (x 0).val; rw [e0]; omega
  | ⟨1, _⟩ => show win3_5.index t 1 * 1 + 1 * (x 1).val = (x 1).val; rw [e1]; omega

/-- One entry of the body's result over a block of rows of `H` and the small operands is the entry of the whole-array function. -/
theorem point (H : FVec Ideal ⟨2, ![50000, 128]⟩ .f32) (mn vr g be : FVec Ideal ⟨1, ![128]⟩ .f32) (a : FVec Ideal ⟨1, ![1]⟩ .f32)
    (x0 : Vec Ideal S2000x128 .f32) (x1 x2 x3 x4 : Vec Ideal S1x128 .f32) (x5 : Vec Ideal S1x1 .f32) (r : Nat)
    (y : S2000x128.Idx) (i : S50000x128.Idx)
    (hi0 : (i 0).val = 2000 * r + (y 0).val) (hi1 : (i 1).val = (y 1).val)
    (hx0 : ∀ (x : S2000x128.Idx) (j : S50000x128.Idx), (j 0).val = 2000 * r + (x 0).val → (j 1).val = (x 1).val → x0 x = H j)
    (hx1 : ∀ q : Fin 128, x1 (ix2 (0 : Fin 1) q) = mn (ix1 q)) (hx2 : ∀ q : Fin 128, x2 (ix2 (0 : Fin 1) q) = vr (ix1 q))
    (hx3 : ∀ q : Fin 128, x3 (ix2 (0 : Fin 1) q) = g (ix1 q)) (hx4 : ∀ q : Fin 128, x4 (ix2 (0 : Fin 1) q) = be (ix1 q))
    (hx5 : x5 (ix2 (0 : Fin 1) (0 : Fin 1)) = a (ix1 (0 : Fin 1))) :
    k3_pay1 (F := Ideal) x0 x2 x1 x3 x4 x5 y = Cert.Spec.bn H mn vr g be a i := by
  obtain ⟨p, q, rfl⟩ : ∃ (p : Fin 2000) (q : Fin 128), y = ix2 p q := ⟨y 0, y 1, eq_ix2 y⟩
  rw [Cert.KernelPoint.pay3]
  unfold Cert.Spec.bn
  have hq : ix1 (n := 128) (i 1) = ix1 q := by
    funext d; match d with | ⟨0, _⟩ => exact Fin.ext hi1
  rw [hx0 (ix2 p q) i hi0 hi1, hx1 q, hx2 q, hx3 q, hx4 q, hx5, hq]

/-- An index of the output array is in point `t`'s block iff each coordinate is in the block's range on its axis. -/
theorem mem_blk (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole (Pipeline.arrRef spec3 6)).slice (win3_6.rect t)).set ↔ _
  rw [View.set_slice_whole, Rect.mem_set_unit]
  exact Iff.rfl

/-- Every row of the output lies in the block of the point `row / 2000`. -/
theorem cover (i : S50000x128.Idx) : ∃ t : Fin cfg3.N, (cfg3.win 6).flush t = true ∧ i ∈ ((cfg3.win 6).blk t).view.set := by
  have hN : cfg3.N = 25 := N_3
  have hi0 : (i 0).val < 50000 := (i 0).isLt
  have hi1 : (i 1).val < 128 := (i 1).isLt
  let t : Fin cfg3.N := ⟨(i 0).val / 2000, by rw [hN]; omega⟩
  obtain ⟨-, -, e2, e3, -⟩ := idx_facts t
  have ht : t.val = (i 0).val / 2000 := rfl
  refine ⟨t, flush3_6 t, ?_⟩
  rw [mem_blk]
  intro a
  match a with
  | ⟨0, _⟩ => show win3_6.index t 0 * 2000 ≤ (i 0).val ∧ (i 0).val < win3_6.index t 0 * 2000 + 2000; rw [e2, ht]; omega
  | ⟨1, _⟩ => show win3_6.index t 1 * 128 ≤ (i 1).val ∧ (i 1).val < win3_6.index t 1 * 128 + 128; rw [e3]; omega

end Cert.KernelIdeal.Region3

end
-- ==== Proof.Region3.lean ====
/- Kernel 3's output array after the region, from what each of its 25 points writes back. -/
import proofs.«175946_j19301583028532_1_alg».proof.Proof.Gen.KernelIdeal.Frame
import proofs.«175946_j19301583028532_1_alg».proof.Proof.Region3a
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

set_option maxHeartbeats 1600000 in
/-- WHAT POINT `t` WRITES BACK is block `t` of the whole-array function of the arrays as the region finds them. -/
theorem flushed_eq (mn vr g be : FVec Ideal ⟨1, ![128]⟩ .f32) (a : FVec Ideal ⟨1, ![1]⟩ .f32)
    (h1 : ∀ q : Fin 128, (V c (Pipeline.arrRef spec3 1) : S1x128.Idx → Elt Ideal .f32) (ix2 (0 : Fin 1) q) = mn (ix1 q))
    (h2 : ∀ q : Fin 128, (V c (Pipeline.arrRef spec3 2) : S1x128.Idx → Elt Ideal .f32) (ix2 (0 : Fin 1) q) = vr (ix1 q))
    (h3 : ∀ q : Fin 128, (V c (Pipeline.arrRef spec3 3) : S1x128.Idx → Elt Ideal .f32) (ix2 (0 : Fin 1) q) = g (ix1 q))
    (h4 : ∀ q : Fin 128, (V c (Pipeline.arrRef spec3 4) : S1x128.Idx → Elt Ideal .f32) (ix2 (0 : Fin 1) q) = be (ix1 q))
    (h5 : (V c (Pipeline.arrRef spec3 5) : S1x1.Idx → Elt Ideal .f32) (ix2 (0 : Fin 1) (0 : Fin 1)) = a (ix1 (0 : Fin 1)))
    (t : Fin cfg3.N) :
    (dat3 V c).flushed 6 t = ((cfg3.win 6).blk t).view.read (Elt Ideal)
      (Cert.Spec.bn (V c (Pipeline.arrRef spec3 0)) mn vr g be a) := by
  show (cfg3.win 6).cut (grid3.coords t) ((dat3 V c).after 6 t) = _
  rw [after3_6]
  unfold out3_6
  rw [View.canon_unit_zero hz]
  simp only [View.ld_unit_zero (S := S2000x128) hz, View.ld_unit_zero (S := S1x128) hz, View.ld_unit_zero (S := S1x1) hz]
  obtain ⟨-, -, e2, e3, -⟩ := idx_facts t
  funext y
  rw [View.read_apply]
  refine point (V c (Pipeline.arrRef spec3 0)) mn vr g be a (iblk3 V c 0 t) (iblk3 V c 1 t) (iblk3 V c 2 t) (iblk3 V c 3 t)
    (iblk3 V c 4 t) (iblk3 V c 5 t) t.val y (((cfg3.win 6).blk t).view.emb y) ?_ ?_ (fun x j h0 h1 => left_apply V c t x j h0 h1)
    (fun q => (whole1_apply V c t (ix2 (0 : Fin 1) q)).trans (h1 q)) (fun q => (whole2_apply V c t (ix2 (0 : Fin 1) q)).trans (h2 q))
    (fun q => (whole3_apply V c t (ix2 (0 : Fin 1) q)).trans (h3 q)) (fun q => (whole4_apply V c t (ix2 (0 : Fin 1) q)).trans (h4 q))
    ((whole5_apply V c t (ix2 (0 : Fin 1) (0 : Fin 1))).trans h5)
  · show win3_6.index t 0 * 2000 + 1 * (y 0).val = 2000 * t.val + (y 0).val; rw [e2]; omega
  · show win3_6.index t 1 * 128 + 1 * (y 1).val = (y 1).val; rw [e3]; omega

/-- THE OUTPUT ARRAY after the region: the normalisation and rectifier of the input array, with the statistics, scale,
    shift and slope the small operands hold. -/
theorem out_eq (mn vr g be : FVec Ideal ⟨1, ![128]⟩ .f32) (a : FVec Ideal ⟨1, ![1]⟩ .f32)
    (h1 : ∀ q : Fin 128, (V c (Pipeline.arrRef spec3 1) : S1x128.Idx → Elt Ideal .f32) (ix2 (0 : Fin 1) q) = mn (ix1 q))
    (h2 : ∀ q : Fin 128, (V c (Pipeline.arrRef spec3 2) : S1x128.Idx → Elt Ideal .f32) (ix2 (0 : Fin 1) q) = vr (ix1 q))
    (h3 : ∀ q : Fin 128, (V c (Pipeline.arrRef spec3 3) : S1x128.Idx → Elt Ideal .f32) (ix2 (0 : Fin 1) q) = g (ix1 q))
    (h4 : ∀ q : Fin 128, (V c (Pipeline.arrRef spec3 4) : S1x128.Idx → Elt Ideal .f32) (ix2 (0 : Fin 1) q) = be (ix1 q))
    (h5 : (V c (Pipeline.arrRef spec3 5) : S1x1.Idx → Elt Ideal .f32) (ix2 (0 : Fin 1) (0 : Fin 1)) = a (ix1 (0 : Fin 1))) :
    (dat3 V c).arrAt 6 cfg3.N = Cert.Spec.bn (V c (Pipeline.arrRef spec3 0)) mn vr g be a :=
  (dat3 V c).arrAt_eq_of_cover 6 _ (fun t _ => flushed_eq V c mn vr g be a h1 h2 h3 h4 h5 t) (cover)

end Cert.KernelIdeal.Region3

end
-- ==== Proof.Region4.lean ====
/- Kernel 4 of the program is a dense product: its grid of 25 points takes 2000 rows of the left array each, with the whole
   right array, and writes the 2000 corresponding rows of the product; so after the region the output array is the product
   of the two input arrays as the region found them. -/
import proofs.«175946_j19301583028532_1_alg».proof.Proof.Gen.KernelIdeal.Frame
import proofs.«175946_j19301583028532_1_alg».proof.Proof.Spec
import proofs.«175946_j19301583028532_1_alg».proof.Proof.KernelPoint
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps over the grid: point `t` takes row block `t` of the left array and of the output, and the one
    block of the right array. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point `t` is rows `2000 t … 2000 t + 1999` of the left array. -/
theorem left_apply (t : Fin cfg4.N) (x : S2000x128.Idx) (i : S50000x128.Idx)
    (h0 : (i 0).val = 2000 * t.val + (x 0).val) (h1 : (i 1).val = (x 1).val) :
    (iblk4 V c 0 t : Vec Ideal S2000x128 .f32) x = (V c (Pipeline.arrRef spec4 0) : S50000x128.Idx → Elt Ideal .f32) i := by
  obtain ⟨e0, e1, -, -, -, -⟩ := idx_facts t
  unfold iblk4
  rw [View.read_apply]
  refine congrArg (V c (Pipeline.arrRef spec4 0) : S50000x128.Idx → Elt Ideal .f32) ?_
  funext a
  apply Fin.ext
  match a with
  | ⟨0, _⟩ => show win4_0.index t 0 * 2000 + 1 * (x 0).val = (i 0).val; rw [e0, h0]; omega
  | ⟨1, _⟩ => show win4_0.index t 1 * 128 + 1 * (x 1).val = (i 1).val; rw [e1, h1]; omega

/-- The right window's one block is the whole right array. -/
theorem right_apply (t : Fin cfg4.N) (x : S128x128.Idx) :
    (iblk4 V c 1 t : Vec Ideal S128x128 .f32) x = (V c (Pipeline.arrRef spec4 1) : S128x128.Idx → Elt Ideal .f32) x := by
  obtain ⟨-, -, e2, e3, -, -⟩ := idx_facts t
  unfold iblk4
  rw [View.read_apply]
  refine congrArg (V c (Pipeline.arrRef spec4 1) : S128x128.Idx → Elt Ideal .f32) ?_
  funext a
  apply Fin.ext
  match a with
  | ⟨0, _⟩ => show win4_1.index t 0 * 128 + 1 * (x 0).val = (x 0).val; rw [e2]; omega
  | ⟨1, _⟩ => show win4_1.index t 1 * 128 + 1 * (x 1).val = (x 1).val; rw [e3]; omega

/-- One entry of the body's product over blocks that are rows of `A` and all of `B` is the entry of the whole product. -/
theorem point (A : FVec Ideal ⟨2, ![50000, 128]⟩ .f32) (B : FVec Ideal ⟨2, ![128, 128]⟩ .f32)
    (x0 : Vec Ideal S2000x128 .f32) (x1 : Vec Ideal S128x128 .f32) (r : Nat) (y : S2000x128.Idx) (i : S50000x128.Idx)
    (hi0 : (i 0).val = 2000 * r + (y 0).val) (hi1 : (i 1).val = (y 1).val)
    (hx0 : ∀ (x : S2000x128.Idx) (j : S50000x128.Idx), (j 0).val = 2000 * r + (x 0).val → (j 1).val = (x 1).val → x0 x = A j)
    (hx1 : ∀ x : S128x128.Idx, x1 x = B x) :
    k4_pay1 (F := Ideal) x0 x1 y = Cert.Spec.mm128 A B i := by
  obtain ⟨p, q, rfl⟩ : ∃ (p : Fin 2000) (q : Fin 128), y = ix2 p q := ⟨y 0, y 1, eq_ix2 y⟩
  rw [Cert.KernelPoint.pay4]
  unfold Cert.Spec.mm128
  refine Finset.sum_congr rfl fun k _ => ?_
  rw [hx0 (ix2 p k) (ix2 (n0 := 50000) (i 0) k) hi0 rfl, hx1 (ix2 k q)]
  refine congrArg (fun z => A (ix2 (n0 := 50000) (i 0) k) * B z) ?_
  funext a
  match a with
  | ⟨0, _⟩ => rfl
  | ⟨1, _⟩ => exact (Fin.ext hi1).symm

/-- WHAT POINT `t` WRITES BACK is block `t` of the product of the two input arrays as the region finds them. -/
theorem flushed_eq (t : Fin cfg4.N) :
    (dat4 V c).flushed 2 t = ((cfg4.win 2).blk t).view.read (Elt Ideal)
      (Cert.Spec.mm128 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨-, -, -, -, e4, e5⟩ := idx_facts t
  funext y
  rw [View.read_apply]
  refine point _ _ _ _ t.val y _ ?_ ?_ (fun x j h0 h1 => left_apply V c t x j h0 h1) (fun x => right_apply V c t x)
  · show win4_2.index t 0 * 2000 + 1 * (y 0).val = 2000 * t.val + (y 0).val; rw [e4]; omega
  · show win4_2.index t 1 * 128 + 1 * (y 1).val = (y 1).val; rw [e5]; omega

/-- An index of the output array is in point `t`'s block iff each coordinate is in the block's range on its axis. -/
theorem mem_blk (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

/-- Every row of the output lies in the block of the point `row / 2000`. -/
theorem cover (i : S50000x128.Idx) : ∃ t : Fin cfg4.N, (cfg4.win 2).flush t = true ∧ i ∈ ((cfg4.win 2).blk t).view.set := by
  have hN : cfg4.N = 25 := N_4
  have hi0 : (i 0).val < 50000 := (i 0).isLt
  have hi1 : (i 1).val < 128 := (i 1).isLt
  let t : Fin cfg4.N := ⟨(i 0).val / 2000, by rw [hN]; omega⟩
  obtain ⟨-, -, -, -, e4, e5⟩ := idx_facts t
  have ht : t.val = (i 0).val / 2000 := rfl
  refine ⟨t, flush4_2 t, ?_⟩
  rw [mem_blk]
  intro a
  match a with
  | ⟨0, _⟩ => show win4_2.index t 0 * 2000 ≤ (i 0).val ∧ (i 0).val < win4_2.index t 0 * 2000 + 2000; rw [e4, ht]; omega
  | ⟨1, _⟩ => show win4_2.index t 1 * 128 ≤ (i 1).val ∧ (i 1).val < win4_2.index t 1 * 128 + 128; rw [e5]; omega

/-- THE OUTPUT ARRAY after the region: the product of the two input arrays as the region found them. -/
theorem out_eq : (dat4 V c).arrAt 2 cfg4.N
    = Cert.Spec.mm128 (V c (Pipeline.arrRef spec4 0)) (V c (Pipeline.arrRef spec4 1)) :=
  (dat4 V c).arrAt_eq_of_cover 2 _ (fun t _ => flushed_eq V c t) (cover)

end Cert.KernelIdeal.Region4

end
-- ==== Proof.FoldC.lean ====
/- The kernel program's run, read to the end: the second normalisation, the third dense product and the last aggregation;
   the program's result is the three-layer encoder of the launch contents of its arguments. -/
import proofs.«175946_j19301583028532_1_alg».proof.Proof.FoldB
import proofs.«175946_j19301583028532_1_alg».proof.Proof.KeepS11
import proofs.«175946_j19301583028532_1_alg».proof.Proof.KeepS12
import proofs.«175946_j19301583028532_1_alg».proof.Proof.Region3
import proofs.«175946_j19301583028532_1_alg».proof.Proof.Region4
import Idealize.ShloMosaic.Lib.StableHlo.Run
import Idealize.ShloMosaic.Lib.ValueLayout

set_option maxRecDepth 16384
set_option maxHeartbeats 2000000

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

theorem kept11 : Kept m c (W11 m ρ c) := step11 m ρ c (kept10 m ρ c)
theorem kept12 : Kept m c (W12 m ρ c) := step12 m ρ c (kept11 m ρ c)

/-- Layer 2 after normalisation and rectifier. -/
def y2 : (⟨S50000x128, .f32⟩ : BufTy).Contents (Elt Ideal) :=
  Cert.Spec.bn (h2 m c) (Cert.KStage.mean (h2 m c)) (Cert.KStage.var (h2 m c)) (m ((c : Thread nD τ).loc main_arg10)) (m ((c : Thread nD τ).loc main_arg11)) (m ((c : Thread nD τ).loc main_arg13))

/-- The fourth kernel leaves the normalised, rectified second layer. -/
theorem W11_v82 : W11 m ρ c (Proc.devRef .tc main_v82) = y2 m c := by
  refine (W11_arr m ρ c 6).trans ((Cert.KernelIdeal.Region3.out_eq (V10 m ρ) c (Cert.KStage.mean (h2 m c)) (Cert.KStage.var (h2 m c))
    (m ((c : Thread nD τ).loc main_arg10)) (m ((c : Thread nD τ).loc main_arg11)) (m ((c : Thread nD τ).loc main_arg13)) (W10_v77 m ρ c) (W10_v78 m ρ c) (W10_v79 m ρ c) (W10_v80 m ρ c) (W10_v81 m ρ c)).trans ?_)
  rw [show V10 m ρ c (Pipeline.arrRef spec3 0) = h2 m c from W10_v72 m ρ c]
  rfl

/-- The fifth kernel leaves its product with the third weight matrix. -/
theorem W12_v83 : W12 m ρ c (Proc.devRef .tc main_v83) = Cert.Spec.mm128 (y2 m c) (m ((c : Thread nD τ).loc main_arg6)) := by
  have k := kept11 m ρ c
  refine (W12_arr m ρ c 2).trans ((Cert.KernelIdeal.Region4.out_eq (V11 m ρ) c).trans ?_)
  rw [show V11 m ρ c (Pipeline.arrRef spec4 0) = y2 m c from W11_v82 m ρ c, show V11 m ρ c (Pipeline.arrRef spec4 1) = (m ((c : Thread nD τ).loc main_arg6)) from k.a6]

/-- THE RESULT of the kernel program: the three-layer encoder over the exact dense products and the exact normalisation,
    of the launch contents of the fourteen arguments. -/
theorem value : W13 m ρ c (Proc.devRef .tc main_v99)
    = Cert.KStage.net Cert.Spec.mm512 Cert.Spec.mm128 Cert.Spec.bn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have k := kept12 m ρ c
  refine (Cert.KernelIdeal.Stretch.agg3 (W12 m ρ c)).trans ?_
  rw [W12_v83 m ρ c, k.a7, k.s, k.d, k.n]
  rfl

end Cert.KernelIdeal.Fold

end
-- ==== Proof.KValue.lean ====
/- The kernel program's run with its result named: every execution ends with the result array holding the encoder over
   the shared one-entry mathematics, applied to the argument arrays as launched, and with the arguments unchanged. -/
import proofs.«175946_j19301583028532_1_alg».proof.Proof.KRun
import proofs.«175946_j19301583028532_1_alg».proof.Proof.FoldC

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option backward.isDefEq.respectTransparency.types false in
/-- The run with every buffer named, read at the result and at the fourteen arguments: the result is the last
    boundary's contents, which is the encoder of the launched arguments; each argument is as launched. -/
theorem run_value : θ_run defs (onTc (τ := τ) (main (F := Ideal))) ⟨m, fun _ => 0, ρ⟩ (fun r => ∀ c : Dev nD,
      r.2.mem ((c.tc : Thread nD τ).loc main_v99)
        = Cert.KStage.net Cert.Spec.mm512 Cert.Spec.mm128 Cert.Spec.bn
            (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c _ (mem_uc main_v99 (by decide))).trans (Cert.KernelIdeal.Fold.value m ρ c),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)
    (run_all m ρ)

end Cert.KernelIdeal.Whole

end
-- ==== Proof.StagesR.lean ====
/- The host-side stages of the graph convolution as pure functions of their operands, spelt with the reference program's
   shapes and dimension records: edge endpoints and weights, one aggregation, the column mean and variance, and the
   normalisation followed by the rectifier. -/
import proofs.«175946_j19301583028532_1_alg».proof.Proof.Gen.ReferenceIdeal
import Idealize.ShloMosaic.PureOps.Ideal

noncomputable section

namespace Cert.RStage

open Cert.ReferenceIdeal Cert.ReferenceIdeal.Facts₀ Cert.ReferenceIdeal.Facts Idealize.ShloMosaic Idealize.ShloMosaic.TcCoe

variable {F : FTy → Type} [FloatOps F]

/-- Source node of every edge, the self loops appended: entry `e` of row 0 of the edge list for `e < 800000`, node `e - 800000` after that. -/
def src (main_arg1 : (⟨S2x800000, .i32⟩ : BufTy).Contents (Elt F)) : (⟨S850000, .i32⟩ : BufTy).Contents (Elt F) :=
  have main_v0 : (⟨S50000, .i32⟩ : BufTy).Contents (Elt F) := (iotaInDim S50000 32 0)
  have main_v1 := ((extractStridedSlice S1x800000 ![0, 0] · slices_S2x800000_S1x800000_0_0) : (⟨S2x800000, .i32⟩ : BufTy).Contents (Elt F) → (⟨S1x800000, .i32⟩ : BufTy).Contents (Elt F)) main_arg1
  have main_v2 : (⟨S800000, .i32⟩ : BufTy).Contents (Elt F) := fun i => shapeCast S800000 main_v1 shapeCasts_S1x800000_S800000 i
  have main_v3 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v2 main_v0
  main_v3

/-- Target node of every edge, the self loops appended (row 1 of the edge list, then the nodes themselves). -/
def dst (main_arg1 : (⟨S2x800000, .i32⟩ : BufTy).Contents (Elt F)) : (⟨S850000, .i32⟩ : BufTy).Contents (Elt F) :=
  have main_v0 : (⟨S50000, .i32⟩ : BufTy).Contents (Elt F) := (iotaInDim S50000 32 0)
  have main_v1 := ((extractStridedSlice S1x800000 ![0, 0] · slices_S2x800000_S1x800000_0_0) : (⟨S2x800000, .i32⟩ : BufTy).Contents (Elt F) → (⟨S1x800000, .i32⟩ : BufTy).Contents (Elt F)) main_arg1
  have main_v2 : (⟨S800000, .i32⟩ : BufTy).Contents (Elt F) := fun i => shapeCast S800000 main_v1 shapeCasts_S1x800000_S800000 i
  have main_v3 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v2 main_v0
  have main_v4 := ((extractStridedSlice S1x800000 ![1, 0] · slices_S2x800000_S1x800000_1_0) : (⟨S2x800000, .i32⟩ : BufTy).Contents (Elt F) → (⟨S1x800000, .i32⟩ : BufTy).Contents (Elt F)) main_arg1
  have main_v5 : (⟨S800000, .i32⟩ : BufTy).Contents (Elt F) := fun i => shapeCast S800000 main_v4 shapeCasts_S1x800000_S800000 i
  have main_v6 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v5 main_v0
  main_v6

/-- The symmetric normalisation of every edge: `deg(src)^(-1/2) · deg(dst)^(-1/2)`, the degree of a node the number of edges
    (self loop included) that end in it, at least one. -/
def nrm (main_arg1 : (⟨S2x800000, .i32⟩ : BufTy).Contents (Elt F)) : (⟨S850000, .f32⟩ : BufTy).Contents (Elt F) :=
  have main_v0 : (⟨S50000, .i32⟩ : BufTy).Contents (Elt F) := (iotaInDim S50000 32 0)
  have main_v1 := ((extractStridedSlice S1x800000 ![0, 0] · slices_S2x800000_S1x800000_0_0) : (⟨S2x800000, .i32⟩ : BufTy).Contents (Elt F) → (⟨S1x800000, .i32⟩ : BufTy).Contents (Elt F)) main_arg1
  have main_v2 : (⟨S800000, .i32⟩ : BufTy).Contents (Elt F) := fun i => shapeCast S800000 main_v1 shapeCasts_S1x800000_S800000 i
  have main_v3 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v2 main_v0
  have main_v4 := ((extractStridedSlice S1x800000 ![1, 0] · slices_S2x800000_S1x800000_1_0) : (⟨S2x800000, .i32⟩ : BufTy).Contents (Elt F) → (⟨S1x800000, .i32⟩ : BufTy).Contents (Elt F)) main_arg1
  have main_v5 : (⟨S800000, .i32⟩ : BufTy).Contents (Elt F) := fun i => shapeCast S800000 main_v4 shapeCasts_S1x800000_S800000 i
  have main_v6 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v5 main_v0
  have main_cst : (⟨S_, .f32⟩ : BufTy).Contents (Elt F) := (constant S_ .f32 0x3F800000#32)
  have main_v7 := (broadcastInDim S850000 ![] bcast_S_S850000 : (⟨S_, .f32⟩ : BufTy).Contents (Elt F) → (⟨S850000, .f32⟩ : BufTy).Contents (Elt F)) main_cst
  have main_cst_0 : (⟨S_, .f32⟩ : BufTy).Contents (Elt F) := (constant S_ .f32 0x00000000#32)
  have main_v8 := (broadcastInDim S50000 ![] bcast_S_S50000 : (⟨S_, .f32⟩ : BufTy).Contents (Elt F) → (⟨S50000, .f32⟩ : BufTy).Contents (Elt F)) main_cst_0
  have main_v9 := (broadcastInDim S850000x1 ![0] bcast_S850000_S850000x1_0 : (⟨S850000, .i32⟩ : BufTy).Contents (Elt F) → (⟨S850000x1, .i32⟩ : BufTy).Contents (Elt F)) main_v6
  have main_v10 := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) main_v8 main_v9 main_v7
  have main_cst_1 : (⟨S_, .f32⟩ : BufTy).Contents (Elt F) := (constant S_ .f32 0x3F800000#32)
  have main_v11 := (broadcastInDim S50000 ![] bcast_S_S50000 : (⟨S_, .f32⟩ : BufTy).Contents (Elt F) → (⟨S50000, .f32⟩ : BufTy).Contents (Elt F)) main_cst_1
  have main_v12 := (maximumf : (⟨S50000, .f32⟩ : BufTy).Contents (Elt F) → (⟨S50000, .f32⟩ : BufTy).Contents (Elt F) → (⟨S50000, .f32⟩ : BufTy).Contents (Elt F)) main_v10 main_v11
  have main_v13 := (Host.rsqrt : (⟨S50000, .f32⟩ : BufTy).Contents (Elt F) → (⟨S50000, .f32⟩ : BufTy).Contents (Elt F)) main_v12
  have main_c : (⟨S_, .i32⟩ : BufTy).Contents (Elt F) := (constantI S_ 32 0#32)
  have main_v14 := (broadcastInDim S850000 ![] bcast_S_S850000 : (⟨S_, .i32⟩ : BufTy).Contents (Elt F) → (⟨S850000, .i32⟩ : BufTy).Contents (Elt F)) main_c
  have main_v15 := (cmpi .slt : (⟨S850000, .i32⟩ : BufTy).Contents (Elt F) → (⟨S850000, .i32⟩ : BufTy).Contents (Elt F) → (⟨S850000, .i1⟩ : BufTy).Contents (Elt F)) main_v3 main_v14
  have main_c_2 : (⟨S_, .i32⟩ : BufTy).Contents (Elt F) := (constantI S_ 32 50000#32)
  have main_v16 := (broadcastInDim S850000 ![] bcast_S_S850000 : (⟨S_, .i32⟩ : BufTy).Contents (Elt F) → (⟨S850000, .i32⟩ : BufTy).Contents (Elt F)) main_c_2
  have main_v17 := (addi : (⟨S850000, .i32⟩ : BufTy).Contents (Elt F) → (⟨S850000, .i32⟩ : BufTy).Contents (Elt F) → (⟨S850000, .i32⟩ : BufTy).Contents (Elt F)) main_v3 main_v16
  have main_v18 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v15 main_v17 main_v3
  have main_v19 := (broadcastInDim S850000x1 ![0] bcast_S850000_S850000x1_0 : (⟨S850000, .i32⟩ : BufTy).Contents (Elt F) → (⟨S850000x1, .i32⟩ : BufTy).Contents (Elt F)) main_v18
  have main_v20 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v13 main_v19
  have main_c_3 : (⟨S_, .i32⟩ : BufTy).Contents (Elt F) := (constantI S_ 32 0#32)
  have main_v21 := (broadcastInDim S850000 ![] bcast_S_S850000 : (⟨S_, .i32⟩ : BufTy).Contents (Elt F) → (⟨S850000, .i32⟩ : BufTy).Contents (Elt F)) main_c_3
  have main_v22 := (cmpi .slt : (⟨S850000, .i32⟩ : BufTy).Contents (Elt F) → (⟨S850000, .i32⟩ : BufTy).Contents (Elt F) → (⟨S850000, .i1⟩ : BufTy).Contents (Elt F)) main_v6 main_v21
  have main_c_4 : (⟨S_, .i32⟩ : BufTy).Contents (Elt F) := (constantI S_ 32 50000#32)
  have main_v23 := (broadcastInDim S850000 ![] bcast_S_S850000 : (⟨S_, .i32⟩ : BufTy).Contents (Elt F) → (⟨S850000, .i32⟩ : BufTy).Contents (Elt F)) main_c_4
  have main_v24 := (addi : (⟨S850000, .i32⟩ : BufTy).Contents (Elt F) → (⟨S850000, .i32⟩ : BufTy).Contents (Elt F) → (⟨S850000, .i32⟩ : BufTy).Contents (Elt F)) main_v6 main_v23
  have main_v25 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v22 main_v24 main_v6
  have main_v26 := (broadcastInDim S850000x1 ![0] bcast_S850000_S850000x1_0 : (⟨S850000, .i32⟩ : BufTy).Contents (Elt F) → (⟨S850000x1, .i32⟩ : BufTy).Contents (Elt F)) main_v25
  have main_v27 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v13 main_v26
  have main_v28 := (mulf : (⟨S850000, .f32⟩ : BufTy).Contents (Elt F) → (⟨S850000, .f32⟩ : BufTy).Contents (Elt F) → (⟨S850000, .f32⟩ : BufTy).Contents (Elt F)) main_v20 main_v27
  main_v28

/-- One aggregation: row `src e` of `h` scaled by the edge's weight, summed into row `dst e`, the bias added to every row. -/
def agg (main_v29 : (⟨S50000x128, .f32⟩ : BufTy).Contents (Elt F)) (main_arg3 : (⟨S128, .f32⟩ : BufTy).Contents (Elt F)) (main_v3 main_v6 : (⟨S850000, .i32⟩ : BufTy).Contents (Elt F)) (main_v28 : (⟨S850000, .f32⟩ : BufTy).Contents (Elt F)) : (⟨S50000x128, .f32⟩ : BufTy).Contents (Elt F) :=
  have main_c_5 : (⟨S_, .i32⟩ : BufTy).Contents (Elt F) := (constantI S_ 32 0#32)
  have main_v30 := (broadcastInDim S850000 ![] bcast_S_S850000 : (⟨S_, .i32⟩ : BufTy).Contents (Elt F) → (⟨S850000, .i32⟩ : BufTy).Contents (Elt F)) main_c_5
  have main_v31 := (cmpi .slt : (⟨S850000, .i32⟩ : BufTy).Contents (Elt F) → (⟨S850000, .i32⟩ : BufTy).Contents (Elt F) → (⟨S850000, .i1⟩ : BufTy).Contents (Elt F)) main_v3 main_v30
  have main_c_6 : (⟨S_, .i32⟩ : BufTy).Contents (Elt F) := (constantI S_ 32 50000#32)
  have main_v32 := (broadcastInDim S850000 ![] bcast_S_S850000 : (⟨S_, .i32⟩ : BufTy).Contents (Elt F) → (⟨S850000, .i32⟩ : BufTy).Contents (Elt F)) main_c_6
  have main_v33 := (addi : (⟨S850000, .i32⟩ : BufTy).Contents (Elt F) → (⟨S850000, .i32⟩ : BufTy).Contents (Elt F) → (⟨S850000, .i32⟩ : BufTy).Contents (Elt F)) main_v3 main_v32
  have main_v34 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v31 main_v33 main_v3
  have main_v35 := (broadcastInDim S850000x1 ![0] bcast_S850000_S850000x1_0 : (⟨S850000, .i32⟩ : BufTy).Contents (Elt F) → (⟨S850000x1, .i32⟩ : BufTy).Contents (Elt F)) main_v34
  have main_v36 := ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) main_v29 main_v35
  have main_v37 := (broadcastInDim S850000x1 ![0] bcast_S850000_S850000x1_0 : (⟨S850000, .f32⟩ : BufTy).Contents (Elt F) → (⟨S850000x1, .f32⟩ : BufTy).Contents (Elt F)) main_v28
  have main_v38 := (broadcastInDim S850000x128 ![0, 1] bcast_S850000x1_S850000x128_0_1 : (⟨S850000x1, .f32⟩ : BufTy).Contents (Elt F) → (⟨S850000x128, .f32⟩ : BufTy).Contents (Elt F)) main_v37
  have main_v39 := (mulf : (⟨S850000x128, .f32⟩ : BufTy).Contents (Elt F) → (⟨S850000x128, .f32⟩ : BufTy).Contents (Elt F) → (⟨S850000x128, .f32⟩ : BufTy).Contents (Elt F)) main_v36 main_v38
  have main_cst_7 : (⟨S_, .f32⟩ : BufTy).Contents (Elt F) := (constant S_ .f32 0x00000000#32)
  have main_v40 := (broadcastInDim S50000x128 ![] bcast_S_S50000x128 : (⟨S_, .f32⟩ : BufTy).Contents (Elt F) → (⟨S50000x128, .f32⟩ : BufTy).Contents (Elt F)) main_cst_7
  have main_v41 := (broadcastInDim S850000x1 ![0] bcast_S850000_S850000x1_0 : (⟨S850000, .i32⟩ : BufTy).Contents (Elt F) → (⟨S850000x1, .i32⟩ : BufTy).Contents (Elt F)) main_v6
  have main_v42 := ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) main_v40 main_v41 main_v39
  have main_v43 := (broadcastInDim S1x128 ![1] bcast_S128_S1x128_1 : (⟨S128, .f32⟩ : BufTy).Contents (Elt F) → (⟨S1x128, .f32⟩ : BufTy).Contents (Elt F)) main_arg3
  have main_v44 := (broadcastInDim S50000x128 ![0, 1] bcast_S1x128_S50000x128_0_1 : (⟨S1x128, .f32⟩ : BufTy).Contents (Elt F) → (⟨S50000x128, .f32⟩ : BufTy).Contents (Elt F)) main_v43
  have main_v45 := (addf : (⟨S50000x128, .f32⟩ : BufTy).Contents (Elt F) → (⟨S50000x128, .f32⟩ : BufTy).Contents (Elt F) → (⟨S50000x128, .f32⟩ : BufTy).Contents (Elt F)) main_v42 main_v44
  main_v45

/-- The column means over the 50000 rows. -/
def mean (main_v45 : (⟨S50000x128, .f32⟩ : BufTy).Contents (Elt F)) : (⟨S128, .f32⟩ : BufTy).Contents (Elt F) :=
  have main_cst_8 : (⟨S_, .f32⟩ : BufTy).Contents (Elt F) := (constant S_ .f32 0x00000000#32)
  have main_v46 := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) main_v45 main_cst_8
  have main_cst_9 : (⟨S_, .f32⟩ : BufTy).Contents (Elt F) := (constant S_ .f32 0x47435000#32)
  have main_v47 := (broadcastInDim S128 ![] bcast_S_S128 : (⟨S_, .f32⟩ : BufTy).Contents (Elt F) → (⟨S128, .f32⟩ : BufTy).Contents (Elt F)) main_cst_9
  have main_v48 := (Host.divf : (⟨S128, .f32⟩ : BufTy).Contents (Elt F) → (⟨S128, .f32⟩ : BufTy).Contents (Elt F) → (⟨S128, .f32⟩ : BufTy).Contents (Elt F)) main_v46 main_v47
  main_v48

/-- The (biased) column variances over the 50000 rows: the mean of the squared deviations from the column mean. -/
def var (h : (⟨S50000x128, .f32⟩ : BufTy).Contents (Elt F)) : (⟨S128, .f32⟩ : BufTy).Contents (Elt F) :=
  have arg1 : (⟨S_, .i32⟩ : BufTy).Contents (Elt F) := constantI S_ 32 0#32
  have cst : (⟨S_, .f32⟩ : BufTy).Contents (Elt F) := constant S_ .f32 0x00000000#32
  have v0 : (⟨S128, .f32⟩ : BufTy).Contents (Elt F) := (fun x v => Host.reduceAdd x v reducesTo_S50000x128_S128_d0 h_S_) h cst
  have v1 : (⟨S1x128, .f32⟩ : BufTy).Contents (Elt F) := (broadcastInDim S1x128 ![1] bcast_S128_S1x128_1) v0
  have cst_0 : (⟨S_, .f32⟩ : BufTy).Contents (Elt F) := constant S_ .f32 0x47435000#32
  have v2 : (⟨S1x128, .f32⟩ : BufTy).Contents (Elt F) := (broadcastInDim S1x128 ![] bcast_S_S1x128) cst_0
  have v3 : (⟨S1x128, .f32⟩ : BufTy).Contents (Elt F) := Host.divf v1 v2
  have v4 : (⟨S50000x128, .f32⟩ : BufTy).Contents (Elt F) := (broadcastInDim S50000x128 ![0, 1] bcast_S1x128_S50000x128_0_1) v3
  have v5 : (⟨S50000x128, .f32⟩ : BufTy).Contents (Elt F) := subf h v4
  have v6 : (⟨S50000x128, .f32⟩ : BufTy).Contents (Elt F) := mulf v5 v5
  have v7 : (⟨S_, .f32⟩ : BufTy).Contents (Elt F) := (sitofp .f32) arg1
  have cst_1 : (⟨S_, .f32⟩ : BufTy).Contents (Elt F) := constant S_ .f32 0x47435000#32
  have v8 : (⟨S_, .f32⟩ : BufTy).Contents (Elt F) := subf cst_1 v7
  have cst_2 : (⟨S_, .f32⟩ : BufTy).Contents (Elt F) := constant S_ .f32 0x00000000#32
  have v9 : (⟨S128, .f32⟩ : BufTy).Contents (Elt F) := (fun x v => Host.reduceAdd x v reducesTo_S50000x128_S128_d0 h_S_) v6 cst_2
  have v10 : (⟨S128, .f32⟩ : BufTy).Contents (Elt F) := (broadcastInDim S128 ![] bcast_S_S128) v8
  have v11 : (⟨S128, .f32⟩ : BufTy).Contents (Elt F) := Host.divf v9 v10
  have cst_3 : (⟨S_, .f32⟩ : BufTy).Contents (Elt F) := constant S_ .f32 0x00000000#32
  have v12 : (⟨S_, .i1⟩ : BufTy).Contents (Elt F) := (cmpf .ogt) v8 cst_3
  have cst_4 : (⟨S_, .f32⟩ : BufTy).Contents (Elt F) := constant S_ .f32 0x7FC00000#32
  have w0 : (⟨S_, .f32⟩ : BufTy).Contents (Elt F) := id cst_4
  have w1 : (⟨S128, .f32⟩ : BufTy).Contents (Elt F) := (broadcastInDim S128 ![] bcast_S_S128) w0
  have w2 : (⟨S128, .f32⟩ : BufTy).Contents (Elt F) := (fun p a b => select (broadcastInDim S128 ![] bcast_S_S128 p) a b) v12 v11 w1
  w2

/-- Batch normalisation with the given column statistics, scale and shift, then the parametric rectifier of slope `a`:
    `y = (h - mean) · (var + ε)^(-1/2) · g + be`, and `y` where `y ≥ 0`, `a · y` elsewhere. -/
def bnp (main_v45 : (⟨S50000x128, .f32⟩ : BufTy).Contents (Elt F)) (main_v48 main_v49 main_arg8 main_arg9 : (⟨S128, .f32⟩ : BufTy).Contents (Elt F)) (main_arg12 : (⟨S1, .f32⟩ : BufTy).Contents (Elt F)) : (⟨S50000x128, .f32⟩ : BufTy).Contents (Elt F) :=
  have main_v50 := (broadcastInDim S1x128 ![1] bcast_S128_S1x128_1 : (⟨S128, .f32⟩ : BufTy).Contents (Elt F) → (⟨S1x128, .f32⟩ : BufTy).Contents (Elt F)) main_v48
  have main_v51 := (broadcastInDim S50000x128 ![0, 1] bcast_S1x128_S50000x128_0_1 : (⟨S1x128, .f32⟩ : BufTy).Contents (Elt F) → (⟨S50000x128, .f32⟩ : BufTy).Contents (Elt F)) main_v50
  have main_v52 := (subf : (⟨S50000x128, .f32⟩ : BufTy).Contents (Elt F) → (⟨S50000x128, .f32⟩ : BufTy).Contents (Elt F) → (⟨S50000x128, .f32⟩ : BufTy).Contents (Elt F)) main_v45 main_v51
  have main_cst_11 : (⟨S_, .f32⟩ : BufTy).Contents (Elt F) := (constant S_ .f32 0x3727C5AC#32)
  have main_v53 := (broadcastInDim S128 ![] bcast_S_S128 : (⟨S_, .f32⟩ : BufTy).Contents (Elt F) → (⟨S128, .f32⟩ : BufTy).Contents (Elt F)) main_cst_11
  have main_v54 := (addf : (⟨S128, .f32⟩ : BufTy).Contents (Elt F) → (⟨S128, .f32⟩ : BufTy).Contents (Elt F) → (⟨S128, .f32⟩ : BufTy).Contents (Elt F)) main_v49 main_v53
  have main_v55 := (Host.rsqrt : (⟨S128, .f32⟩ : BufTy).Contents (Elt F) → (⟨S128, .f32⟩ : BufTy).Contents (Elt F)) main_v54
  have main_v56 := (broadcastInDim S1x128 ![1] bcast_S128_S1x128_1 : (⟨S128, .f32⟩ : BufTy).Contents (Elt F) → (⟨S1x128, .f32⟩ : BufTy).Contents (Elt F)) main_v55
  have main_v57 := (broadcastInDim S50000x128 ![0, 1] bcast_S1x128_S50000x128_0_1 : (⟨S1x128, .f32⟩ : BufTy).Contents (Elt F) → (⟨S50000x128, .f32⟩ : BufTy).Contents (Elt F)) main_v56
  have main_v58 := (mulf : (⟨S50000x128, .f32⟩ : BufTy).Contents (Elt F) → (⟨S50000x128, .f32⟩ : BufTy).Contents (Elt F) → (⟨S50000x128, .f32⟩ : BufTy).Contents (Elt F)) main_v52 main_v57
  have main_v59 := (broadcastInDim S1x128 ![1] bcast_S128_S1x128_1 : (⟨S128, .f32⟩ : BufTy).Contents (Elt F) → (⟨S1x128, .f32⟩ : BufTy).Contents (Elt F)) main_arg8
  have main_v60 := (broadcastInDim S50000x128 ![0, 1] bcast_S1x128_S50000x128_0_1 : (⟨S1x128, .f32⟩ : BufTy).Contents (Elt F) → (⟨S50000x128, .f32⟩ : BufTy).Contents (Elt F)) main_v59
  have main_v61 := (mulf : (⟨S50000x128, .f32⟩ : BufTy).Contents (Elt F) → (⟨S50000x128, .f32⟩ : BufTy).Contents (Elt F) → (⟨S50000x128, .f32⟩ : BufTy).Contents (Elt F)) main_v58 main_v60
  have main_v62 := (broadcastInDim S1x128 ![1] bcast_S128_S1x128_1 : (⟨S128, .f32⟩ : BufTy).Contents (Elt F) → (⟨S1x128, .f32⟩ : BufTy).Contents (Elt F)) main_arg9
  have main_v63 := (broadcastInDim S50000x128 ![0, 1] bcast_S1x128_S50000x128_0_1 : (⟨S1x128, .f32⟩ : BufTy).Contents (Elt F) → (⟨S50000x128, .f32⟩ : BufTy).Contents (Elt F)) main_v62
  have main_v64 := (addf : (⟨S50000x128, .f32⟩ : BufTy).Contents (Elt F) → (⟨S50000x128, .f32⟩ : BufTy).Contents (Elt F) → (⟨S50000x128, .f32⟩ : BufTy).Contents (Elt F)) main_v61 main_v63
  have main_cst_12 : (⟨S_, .f32⟩ : BufTy).Contents (Elt F) := (constant S_ .f32 0x00000000#32)
  have main_v65 := (broadcastInDim S50000x128 ![] bcast_S_S50000x128 : (⟨S_, .f32⟩ : BufTy).Contents (Elt F) → (⟨S50000x128, .f32⟩ : BufTy).Contents (Elt F)) main_cst_12
  have main_v66 := (cmpf .oge : (⟨S50000x128, .f32⟩ : BufTy).Contents (Elt F) → (⟨S50000x128, .f32⟩ : BufTy).Contents (Elt F) → (⟨S50000x128, .i1⟩ : BufTy).Contents (Elt F)) main_v64 main_v65
  have main_v67 := (broadcastInDim S1x1 ![1] bcast_S1_S1x1_1 : (⟨S1, .f32⟩ : BufTy).Contents (Elt F) → (⟨S1x1, .f32⟩ : BufTy).Contents (Elt F)) main_arg12
  have main_v68 := (broadcastInDim S50000x128 ![0, 1] bcast_S1x1_S50000x128_0_1 : (⟨S1x1, .f32⟩ : BufTy).Contents (Elt F) → (⟨S50000x128, .f32⟩ : BufTy).Contents (Elt F)) main_v67
  have main_v69 := (mulf : (⟨S50000x128, .f32⟩ : BufTy).Contents (Elt F) → (⟨S50000x128, .f32⟩ : BufTy).Contents (Elt F) → (⟨S50000x128, .f32⟩ : BufTy).Contents (Elt F)) main_v68 main_v64
  select main_v66 main_v64 main_v69

/-- The three-layer encoder over given dense products `mm1` (512 → 128), `mm2` (128 → 128) and a given normalisation-and-rectifier
    `bn` (of the activations, their column mean and variance, scale, shift and slope): product, aggregation, statistics,
    `bn`; again; then product and aggregation. -/
def net (mm1 : (⟨S50000x512, .f32⟩ : BufTy).Contents (Elt F) → (⟨S512x128, .f32⟩ : BufTy).Contents (Elt F) → (⟨S50000x128, .f32⟩ : BufTy).Contents (Elt F)) (mm2 : (⟨S50000x128, .f32⟩ : BufTy).Contents (Elt F) → (⟨S128x128, .f32⟩ : BufTy).Contents (Elt F) → (⟨S50000x128, .f32⟩ : BufTy).Contents (Elt F))
    (bn : (⟨S50000x128, .f32⟩ : BufTy).Contents (Elt F) → (⟨S128, .f32⟩ : BufTy).Contents (Elt F) → (⟨S128, .f32⟩ : BufTy).Contents (Elt F) → (⟨S128, .f32⟩ : BufTy).Contents (Elt F) → (⟨S128, .f32⟩ : BufTy).Contents (Elt F) → (⟨S1, .f32⟩ : BufTy).Contents (Elt F) → (⟨S50000x128, .f32⟩ : BufTy).Contents (Elt F))
    (x : (⟨S50000x512, .f32⟩ : BufTy).Contents (Elt F)) (e : (⟨S2x800000, .i32⟩ : BufTy).Contents (Elt F)) (W1 : (⟨S512x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) (W3 : (⟨S128x128, .f32⟩ : BufTy).Contents (Elt F)) (b3 g1 be1 g2 be2 : (⟨S128, .f32⟩ : BufTy).Contents (Elt F))
    (a1 a2 : (⟨S1, .f32⟩ : BufTy).Contents (Elt F)) : (⟨S50000x128, .f32⟩ : BufTy).Contents (Elt F) :=
  have h1 := agg (mm1 x W1) b1 (src e) (dst e) (nrm e)
  have y1 := bn h1 (mean h1) (var h1) g1 be1 a1
  have h2 := agg (mm2 y1 W2) b2 (src e) (dst e) (nrm e)
  have y2 := bn h2 (mean h2) (var h2) g2 be2 a2
  agg (mm2 y2 W3) b3 (src e) (dst e) (nrm e)

end Cert.RStage

end
-- ==== Proof.StagesEq.lean ====
/- The host-side stages spelt with the kernel program's records and with the reference program's are the same functions:
   the two programs print the same shapes and the same dimension records under two names. -/
import proofs.«175946_j19301583028532_1_alg».proof.Proof.StagesK
import proofs.«175946_j19301583028532_1_alg».proof.Proof.StagesR

noncomputable section

namespace Cert.StageEq

open Idealize.ShloMosaic

variable {F : FTy → Type} [FloatOps F]

theorem src_eq : (Cert.KStage.src (F := F)) = Cert.RStage.src := rfl
theorem dst_eq : (Cert.KStage.dst (F := F)) = Cert.RStage.dst := rfl
theorem nrm_eq : (Cert.KStage.nrm (F := F)) = Cert.RStage.nrm := rfl
theorem agg_eq : (Cert.KStage.agg (F := F)) = Cert.RStage.agg := rfl
theorem mean_eq : (Cert.KStage.mean (F := F)) = Cert.RStage.mean := rfl
theorem var_eq : (Cert.KStage.var (F := F)) = Cert.RStage.var := rfl
theorem net_eq : (Cert.KStage.net (F := F)) = Cert.RStage.net := rfl

end Cert.StageEq

end
-- ==== Proof.RefPoint.lean ====
/- The reference's stages against the shared one-entry mathematics: its two dense products are the entry-by-entry
   sums, and its normalisation followed by the rectifier is the one-entry function applied at every entry. -/
import proofs.«175946_j19301583028532_1_alg».proof.Proof.StagesR
import proofs.«175946_j19301583028532_1_alg».proof.Proof.Spec
import Idealize.ShloMosaic.PureOps.Ideal.Laws
import Idealize.ShloMosaic.Lib.ValueLayout

noncomputable section

namespace Cert.RefPoint

open Cert.ReferenceIdeal Cert.ReferenceIdeal.Facts₀ Cert.ReferenceIdeal.Facts Idealize.ShloMosaic Idealize.ShloMosaic.ValueIdx

/-! ## The products

The host's product at entry (r, q) is the sum over the positions of the one contracted axis; position k reads entry
(r, k) on the left and (k, q) on the right. -/

/-- The left operand's entry a contraction position reads at output entry (p, q): row p, column k. -/
theorem lhs512 (p : Fin 50000) (q : Fin 128) (k : Fin 512) :
    dot_S50000x512_S512x128_S50000x128_1_0_0_1_n_n.lhsIdx (ix2 p q) ((contrEquiv1 dot_S50000x512_S512x128_S50000x128_1_0_0_1_n_n 512 rfl rfl).symm k) = ix2 p k := by
  funext a
  match a with
  | ⟨0, _⟩ => exact Fin.ext rfl
  | ⟨1, _⟩ =>
    exact Fin.ext ((dot_S50000x512_S512x128_S50000x128_1_0_0_1_n_n.lhsIdx_val_of_single (cl := (1 : Fin 2)) rfl (ix2 p q) _).trans
      (contrEquiv1_symm_val dot_S50000x512_S512x128_S50000x128_1_0_0_1_n_n 512 rfl rfl k))

/-- The right operand's entry it reads: row k, column q. -/
theorem rhs512 (p : Fin 50000) (q : Fin 128) (k : Fin 512) :
    dot_S50000x512_S512x128_S50000x128_1_0_0_1_n_n.rhsIdx (ix2 p q) ((contrEquiv1 dot_S50000x512_S512x128_S50000x128_1_0_0_1_n_n 512 rfl rfl).symm k) = ix2 k q := by
  funext a
  match a with
  | ⟨0, _⟩ =>
    exact Fin.ext ((dot_S50000x512_S512x128_S50000x128_1_0_0_1_n_n.rhsIdx_val_of_single (cr := (0 : Fin 2)) rfl (ix2 p q) _).trans
      (contrEquiv1_symm_val dot_S50000x512_S512x128_S50000x128_1_0_0_1_n_n 512 rfl rfl k))
  | ⟨1, _⟩ => exact Fin.ext rfl

/-- The left operand's entry a contraction position reads at output entry (p, q): row p, column k. -/
theorem lhs128 (p : Fin 50000) (q : Fin 128) (k : Fin 128) :
    dot_S50000x128_S128x128_S50000x128_1_0_0_1_n_n.lhsIdx (ix2 p q) ((contrEquiv1 dot_S50000x128_S128x128_S50000x128_1_0_0_1_n_n 128 rfl rfl).symm k) = ix2 p k := by
  funext a
  match a with
  | ⟨0, _⟩ => exact Fin.ext rfl
  | ⟨1, _⟩ =>
    exact Fin.ext ((dot_S50000x128_S128x128_S50000x128_1_0_0_1_n_n.lhsIdx_val_of_single (cl := (1 : Fin 2)) rfl (ix2 p q) _).trans
      (contrEquiv1_symm_val dot_S50000x128_S128x128_S50000x128_1_0_0_1_n_n 128 rfl rfl k))

/-- The right operand's entry it reads: row k, column q. -/
theorem rhs128 (p : Fin 50000) (q : Fin 128) (k : Fin 128) :
    dot_S50000x128_S128x128_S50000x128_1_0_0_1_n_n.rhsIdx (ix2 p q) ((contrEquiv1 dot_S50000x128_S128x128_S50000x128_1_0_0_1_n_n 128 rfl rfl).symm k) = ix2 k q := by
  funext a
  match a with
  | ⟨0, _⟩ =>
    exact Fin.ext ((dot_S50000x128_S128x128_S50000x128_1_0_0_1_n_n.rhsIdx_val_of_single (cr := (0 : Fin 2)) rfl (ix2 p q) _).trans
      (contrEquiv1_symm_val dot_S50000x128_S128x128_S50000x128_1_0_0_1_n_n 128 rfl rfl k))
  | ⟨1, _⟩ => exact Fin.ext rfl

/-- The 512-column product is the entry-by-entry sum. -/
theorem dot512 (A : (⟨S50000x512, .f32⟩ : BufTy).Contents (Elt Ideal)) (B : (⟨S512x128, .f32⟩ : BufTy).Contents (Elt Ideal)) :
    Host.dotGeneral (F := Ideal) (φ₁ := .f32) (φ₂ := .f32) dot_S50000x512_S512x128_S50000x128_1_0_0_1_n_n none A B = Cert.Spec.mm512 A B := by
  funext i
  obtain ⟨r, q, rfl⟩ : ∃ (r : Fin 50000) (q : Fin 128), i = ix2 r q := ⟨i 0, i 1, eq_ix2 i⟩
  refine (Ideal.dotGeneral_apply dot_S50000x512_S512x128_S50000x128_1_0_0_1_n_n none .single (φ₁ := .f32) (φ₂ := .f32) A B (ix2 r q)).trans ?_
  rw [← Equiv.sum_comp (contrEquiv1 dot_S50000x512_S512x128_S50000x128_1_0_0_1_n_n 512 rfl rfl).symm]
  refine Finset.sum_congr rfl fun k _ => ?_
  rw [lhs512, rhs512]

/-- The 128-column product is the entry-by-entry sum. -/
theorem dot128 (A : (⟨S50000x128, .f32⟩ : BufTy).Contents (Elt Ideal)) (B : (⟨S128x128, .f32⟩ : BufTy).Contents (Elt Ideal)) :
    Host.dotGeneral (F := Ideal) (φ₁ := .f32) (φ₂ := .f32) dot_S50000x128_S128x128_S50000x128_1_0_0_1_n_n none A B = Cert.Spec.mm128 A B := by
  funext i
  obtain ⟨r, q, rfl⟩ : ∃ (r : Fin 50000) (q : Fin 128), i = ix2 r q := ⟨i 0, i 1, eq_ix2 i⟩
  refine (Ideal.dotGeneral_apply dot_S50000x128_S128x128_S50000x128_1_0_0_1_n_n none .single (φ₁ := .f32) (φ₂ := .f32) A B (ix2 r q)).trans ?_
  rw [← Equiv.sum_comp (contrEquiv1 dot_S50000x128_S128x128_S50000x128_1_0_0_1_n_n 128 rfl rfl).symm]
  refine Finset.sum_congr rfl fun k _ => ?_
  rw [lhs128, rhs128]

/-! ## The normalisation and the rectifier

Every operation is entrywise except the layings-out: a 128-vector made a one-row array and laid along the 50000 rows,
a constant laid over a whole array, and the one-entry slope laid over the whole array. -/

/-- The entrywise part, over arbitrary arrays of the activations' shape. -/
theorem bn_at (X M R G B A Z : FVec Ideal S50000x128 .f32) (j : S50000x128.Idx) :
    select (cmpf .oge (addf (mulf (mulf (subf X M) R) G) B) Z)
        (addf (mulf (mulf (subf X M) R) G) B) (mulf A (addf (mulf (mulf (subf X M) R) G) B)) j
      = Scalar.select (Ideal.cmp .oge ((X j - M j) * R j * G j + B j) (Z j))
          ((X j - M j) * R j * G j + B j) (A j * ((X j - M j) * R j * G j + B j)) := rfl

/-- A 128-vector made a one-row array and laid along the rows reads, at (r, q), its entry q. -/
theorem row_at (v : FVec Ideal S128 .f32) (r : Fin 50000) (q : Fin 128) :
    broadcastInDim S50000x128 ![0, 1] bcast_S1x128_S50000x128_0_1 (broadcastInDim S1x128 ![1] bcast_S128_S1x128_1 v) (ix2 r q)
      = v (ix1 q) :=
  (broadcastInDim_apply ![0, 1] bcast_S1x128_S50000x128_0_1 _ (ix2 r q) (ix2 (0 : Fin 1) q) (fun a => by
      match a with
      | ⟨0, _⟩ => rfl
      | ⟨1, _⟩ => rfl)).trans
    (broadcastInDim_apply ![1] bcast_S128_S1x128_1 v (ix2 (0 : Fin 1) q) (ix1 q) (fun a => by
      match a with
      | ⟨0, _⟩ => rfl))

/-- The one-entry slope made a 1×1 array and laid over the whole array reads its one entry. -/
theorem slope_at (v : FVec Ideal S1 .f32) (r : Fin 50000) (q : Fin 128) :
    broadcastInDim S50000x128 ![0, 1] bcast_S1x1_S50000x128_0_1 (broadcastInDim S1x1 ![1] bcast_S1_S1x1_1 v) (ix2 r q)
      = v (ix1 (0 : Fin 1)) :=
  (broadcastInDim_apply ![0, 1] bcast_S1x1_S50000x128_0_1 _ (ix2 r q) (ix2 (0 : Fin 1) (0 : Fin 1)) (fun a => by
      match a with
      | ⟨0, _⟩ => rfl
      | ⟨1, _⟩ => rfl)).trans
    (broadcastInDim_apply ![1] bcast_S1_S1x1_1 v (ix2 (0 : Fin 1) (0 : Fin 1)) (ix1 (0 : Fin 1)) (fun a => by
      match a with
      | ⟨0, _⟩ => rfl))

/-- A constant laid over a 128-vector reads the constant. -/
theorem const128_at (w : BitVec 32) (q : Fin 128) :
    broadcastInDim S128 ![] bcast_S_S128 (constant (F := Ideal) S_ .f32 w) (ix1 q) = Ideal.ofBits .f32 w :=
  broadcastInDim_apply ![] bcast_S_S128 (constant (F := Ideal) S_ .f32 w) (ix1 q) ix0 (fun a => a.elim0)

/-- A constant laid over the whole array reads the constant. -/
theorem constAll_at (w : BitVec 32) (r : Fin 50000) (q : Fin 128) :
    broadcastInDim S50000x128 ![] bcast_S_S50000x128 (constant (F := Ideal) S_ .f32 w) (ix2 r q) = Ideal.ofBits .f32 w :=
  broadcastInDim_apply ![] bcast_S_S50000x128 (constant (F := Ideal) S_ .f32 w) (ix2 r q) ix0 (fun a => a.elim0)

/-- The reciprocal root of the variance plus ε, laid along the rows. -/
theorem rs_at (v : FVec Ideal S128 .f32) (r : Fin 50000) (q : Fin 128) :
    broadcastInDim S50000x128 ![0, 1] bcast_S1x128_S50000x128_0_1
        (broadcastInDim S1x128 ![1] bcast_S128_S1x128_1
          (Host.rsqrt (addf v (broadcastInDim S128 ![] bcast_S_S128 (constant (F := Ideal) S_ .f32 0x3727C5AC#32))))) (ix2 r q)
      = Ideal.rsqrt (v (ix1 q) + Ideal.ofBits .f32 0x3727C5AC#32) :=
  (row_at _ r q).trans (congrArg (fun t => Ideal.rsqrt (v (ix1 q) + t)) (const128_at 0x3727C5AC#32 q))

/-- The reference's normalisation and rectifier is the one-entry function at every entry. -/
theorem bnp_eq (H : (⟨S50000x128, .f32⟩ : BufTy).Contents (Elt Ideal)) (mn vr g be : (⟨S128, .f32⟩ : BufTy).Contents (Elt Ideal))
    (a : (⟨S1, .f32⟩ : BufTy).Contents (Elt Ideal)) :
    Cert.RStage.bnp (F := Ideal) H mn vr g be a = Cert.Spec.bn H mn vr g be a := by
  funext i
  obtain ⟨r, q, rfl⟩ : ∃ (r : Fin 50000) (q : Fin 128), i = ix2 r q := ⟨i 0, i 1, eq_ix2 i⟩
  unfold Cert.RStage.bnp
  refine (bn_at _ _ _ _ _ _ _ (ix2 r q)).trans ?_
  rw [row_at mn, rs_at vr, row_at g, row_at be, slope_at a, constAll_at]
  rfl

end Cert.RefPoint

end
-- ==== Proof.Bridge.lean ====
/- The encoder over the shared one-entry mathematics is the encoder over the reference's own stages: the host-side
   stages of the two programs are the same functions, the reference's two dense products are the entry-by-entry sums,
   and its normalisation followed by the rectifier is the one-entry function at every entry. -/
import proofs.«175946_j19301583028532_1_alg».proof.Proof.StagesEq
import proofs.«175946_j19301583028532_1_alg».proof.Proof.RefPoint

noncomputable section

namespace Cert.Bridge

open Cert.ReferenceIdeal Idealize.ShloMosaic

/-- The encoder with the entry-by-entry products and normalisation plugged in, spelt with the kernel program's records,
    is the encoder with the reference's own products and normalisation, spelt with the reference's records. -/
theorem net_eq :
    Cert.KStage.net (F := Ideal) Cert.Spec.mm512 Cert.Spec.mm128 Cert.Spec.bn
      = Cert.RStage.net (F := Ideal)
          (fun l r => Host.dotGeneral (F := Ideal) (φ₁ := .f32) (φ₂ := .f32) dot_S50000x512_S512x128_S50000x128_1_0_0_1_n_n none l r)
          (fun l r => Host.dotGeneral (F := Ideal) (φ₁ := .f32) (φ₂ := .f32) dot_S50000x128_S128x128_S50000x128_1_0_0_1_n_n none l r)
          Cert.RStage.bnp := by
  have e1 : (fun (l : (⟨S50000x512, .f32⟩ : BufTy).Contents (Elt Ideal)) (r : (⟨S512x128, .f32⟩ : BufTy).Contents (Elt Ideal)) =>
      Host.dotGeneral (F := Ideal) (φ₁ := .f32) (φ₂ := .f32) dot_S50000x512_S512x128_S50000x128_1_0_0_1_n_n none l r) = Cert.Spec.mm512 :=
    funext fun l => funext fun r => Cert.RefPoint.dot512 l r
  have e2 : (fun (l : (⟨S50000x128, .f32⟩ : BufTy).Contents (Elt Ideal)) (r : (⟨S128x128, .f32⟩ : BufTy).Contents (Elt Ideal)) =>
      Host.dotGeneral (F := Ideal) (φ₁ := .f32) (φ₂ := .f32) dot_S50000x128_S128x128_S50000x128_1_0_0_1_n_n none l r) = Cert.Spec.mm128 :=
    funext fun l => funext fun r => Cert.RefPoint.dot128 l r
  have e3 : Cert.RStage.bnp (F := Ideal) = Cert.Spec.bn :=
    funext fun H => funext fun mn => funext fun vr => funext fun g => funext fun be => funext fun a =>
      Cert.RefPoint.bnp_eq H mn vr g be a
  rw [Cert.StageEq.net_eq, e1, e2, e3]

end Cert.Bridge

end
-- ==== Proof.RefOps.lean ====
/- The reference program's @main as lists of its host operations, the calls of its module-local functions replaced by the
   callees' operations over each call's buffers, cut at the boundaries of the network's stages; that @main is the straight
   line of these lists in order; and its run: every execution ends with each buffer at the fold of the operations' results
   over the launch contents. -/
import proofs.«175946_j19301583028532_1_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- 36 operations, in order — edge endpoints and edge weights: the values %0 … %28. -/
abbrev opsEdge : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (maximumf : (⟨S50000, .f32⟩ : BufTy).Contents (Elt F) → (⟨S50000, .f32⟩ : BufTy).Contents (Elt F) → (⟨S50000, .f32⟩ : BufTy).Contents (Elt F)),
    StableHlo.unary main_v12 main_v13 (Host.rsqrt : (⟨S50000, .f32⟩ : BufTy).Contents (Elt F) → (⟨S50000, .f32⟩ : BufTy).Contents (Elt F)),
    StableHlo.nullary main_c (constantI S_ 32 0#32),
    StableHlo.unary main_c main_v14 (broadcastInDim S850000 ![] bcast_S_S850000 : (⟨S_, .i32⟩ : BufTy).Contents (Elt F) → (⟨S850000, .i32⟩ : BufTy).Contents (Elt F)),
    StableHlo.binary main_v3 main_v14 main_v15 (cmpi .slt : (⟨S850000, .i32⟩ : BufTy).Contents (Elt F) → (⟨S850000, .i32⟩ : BufTy).Contents (Elt F) → (⟨S850000, .i1⟩ : BufTy).Contents (Elt F)),
    StableHlo.nullary main_c_2 (constantI S_ 32 50000#32),
    StableHlo.unary main_c_2 main_v16 (broadcastInDim S850000 ![] bcast_S_S850000 : (⟨S_, .i32⟩ : BufTy).Contents (Elt F) → (⟨S850000, .i32⟩ : BufTy).Contents (Elt F)),
    StableHlo.binary main_v3 main_v16 main_v17 (addi : (⟨S850000, .i32⟩ : BufTy).Contents (Elt F) → (⟨S850000, .i32⟩ : BufTy).Contents (Elt F) → (⟨S850000, .i32⟩ : BufTy).Contents (Elt F)),
    StableHlo.ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v18 main_v19 (broadcastInDim S850000x1 ![0] bcast_S850000_S850000x1_0 : (⟨S850000, .i32⟩ : BufTy).Contents (Elt F) → (⟨S850000x1, .i32⟩ : BufTy).Contents (Elt F)),
    StableHlo.binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_3 (constantI S_ 32 0#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (addi : (⟨S850000, .i32⟩ : BufTy).Contents (Elt F) → (⟨S850000, .i32⟩ : BufTy).Contents (Elt F) → (⟨S850000, .i32⟩ : BufTy).Contents (Elt F)),
    StableHlo.ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v25 main_v26 (broadcastInDim S850000x1 ![0] bcast_S850000_S850000x1_0 : (⟨S850000, .i32⟩ : BufTy).Contents (Elt F) → (⟨S850000x1, .i32⟩ : BufTy).Contents (Elt F)),
    StableHlo.binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v20 main_v27 main_v28 (mulf : (⟨S850000, .f32⟩ : BufTy).Contents (Elt F) → (⟨S850000, .f32⟩ : BufTy).Contents (Elt F) → (⟨S850000, .f32⟩ : BufTy).Contents (Elt F)) ]
theorem opsEdge_sub : (opsEdge : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsEdge_fresh : ∀ op ∈ (opsEdge : List (HloOp τ sig (Elt F))), op.fresh = ∅ := by
  intro _ h; (repeat (cases h with | head => rfl | tail _ h => ?_)); exact nomatch h

/-- 20 operations, in order — first dense product and aggregation: %29 … %45. -/
abbrev opsAgg1 : List (HloOp τ sig (Elt F)) :=
  [ StableHlo.binary main_arg0 main_arg2 main_v29 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.nullary main_c_5 (constantI S_ 32 0#32),
    StableHlo.unary main_c_5 main_v30 (broadcastInDim S850000 ![] bcast_S_S850000 : (⟨S_, .i32⟩ : BufTy).Contents (Elt F) → (⟨S850000, .i32⟩ : BufTy).Contents (Elt F)),
    StableHlo.binary main_v3 main_v30 main_v31 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (addi : (⟨S850000, .i32⟩ : BufTy).Contents (Elt F) → (⟨S850000, .i32⟩ : BufTy).Contents (Elt F) → (⟨S850000, .i32⟩ : BufTy).Contents (Elt F)),
    StableHlo.ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v34 main_v35 (broadcastInDim S850000x1 ![0] bcast_S850000_S850000x1_0 : (⟨S850000, .i32⟩ : BufTy).Contents (Elt F) → (⟨S850000x1, .i32⟩ : BufTy).Contents (Elt F)),
    StableHlo.binary main_v29 main_v35 main_v36 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v28 main_v37 (broadcastInDim S850000x1 ![0] bcast_S850000_S850000x1_0 : (⟨S850000, .f32⟩ : BufTy).Contents (Elt F) → (⟨S850000x1, .f32⟩ : BufTy).Contents (Elt F)),
    StableHlo.unary main_v37 main_v38 (broadcastInDim S850000x128 ![0, 1] bcast_S850000x1_S850000x128_0_1 : (⟨S850000x1, .f32⟩ : BufTy).Contents (Elt F) → (⟨S850000x128, .f32⟩ : BufTy).Contents (Elt F)),
    StableHlo.binary main_v36 main_v38 main_v39 (mulf : (⟨S850000x128, .f32⟩ : BufTy).Contents (Elt F) → (⟨S850000x128, .f32⟩ : BufTy).Contents (Elt F) → (⟨S850000x128, .f32⟩ : BufTy).Contents (Elt F)),
    StableHlo.nullary main_cst_7 (constant S_ .f32 0x00000000#32),
    StableHlo.unary main_cst_7 main_v40 (broadcastInDim S50000x128 ![] bcast_S_S50000x128 : (⟨S_, .f32⟩ : BufTy).Contents (Elt F) → (⟨S50000x128, .f32⟩ : BufTy).Contents (Elt F)),
    StableHlo.unary main_v6 main_v41 (broadcastInDim S850000x1 ![0] bcast_S850000_S850000x1_0 : (⟨S850000, .i32⟩ : BufTy).Contents (Elt F) → (⟨S850000x1, .i32⟩ : BufTy).Contents (Elt F)),
    StableHlo.ternary main_v40 main_v41 main_v39 main_v42 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (addf : (⟨S50000x128, .f32⟩ : BufTy).Contents (Elt F) → (⟨S50000x128, .f32⟩ : BufTy).Contents (Elt F) → (⟨S50000x128, .f32⟩ : BufTy).Contents (Elt F)) ]
theorem opsAgg1_sub : (opsAgg1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg1_fresh : ∀ op ∈ (opsAgg1 : List (HloOp τ sig (Elt F))), op.fresh = ∅ := by
  intro _ h; (repeat (cases h with | head => rfl | tail _ h => ?_)); exact nomatch h

/-- 4 operations, in order — column sums of the first aggregation and the row count: %cst_8 … %47. -/
abbrev opsMean1a : List (HloOp τ sig (Elt F)) :=
  [ StableHlo.nullary main_cst_8 (constant S_ .f32 0x00000000#32),
    StableHlo.binary main_v45 main_cst_8 main_v46 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v47 (broadcastInDim S128 ![] bcast_S_S128 : (⟨S_, .f32⟩ : BufTy).Contents (Elt F) → (⟨S128, .f32⟩ : BufTy).Contents (Elt F)) ]
theorem opsMean1a_sub : (opsMean1a : List (HloOp τ sig (Elt F))).Forall fun op => op.bufs ⊆ tcRefs τ sig :=
  ⟨nullary_bufs_sub .., binary_bufs_sub .., nullary_bufs_sub .., unary_bufs_sub ..⟩
theorem opsMean1a_fresh : ∀ op ∈ (opsMean1a : List (HloOp τ sig (Elt F))), op.fresh = ∅ := by
  intro _ h; (repeat (cases h with | head => rfl | tail _ h => ?_)); exact nomatch h

/-- 1 operations, in order — the first column mean: %48. -/
abbrev opsMean1b : List (HloOp τ sig (Elt F)) :=
  [ StableHlo.binary main_v46 main_v47 main_v48 (Host.divf : (⟨S128, .f32⟩ : BufTy).Contents (Elt F) → (⟨S128, .f32⟩ : BufTy).Contents (Elt F) → (⟨S128, .f32⟩ : BufTy).Contents (Elt F)) ]
theorem opsMean1b_sub : (opsMean1b : List (HloOp τ sig (Elt F))).Forall fun op => op.bufs ⊆ tcRefs τ sig :=
  binary_bufs_sub ..
theorem opsMean1b_fresh : ∀ op ∈ (opsMean1b : List (HloOp τ sig (Elt F))), op.fresh = ∅ := by
  intro _ h; (repeat (cases h with | head => rfl | tail _ h => ?_)); exact nomatch h

/-- 23 operations, in order — the first column variance (the variance function's body, its selection included): %c_10 … %49. -/
abbrev opsVar1 : List (HloOp τ sig (Elt F)) :=
  [ StableHlo.nullary main_c_10 (constantI S_ 32 0#32),
    StableHlo.TRef.nullary main_call0.cst (constant S_ .f32 0x00000000#32),
    StableHlo.TRef.binary (.of main_v45 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v45 : StableHlo.TRef sig ⟨S50000x128, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]
theorem opsVar1_sub : (opsVar1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar1_fresh : ∀ op ∈ (opsVar1 : List (HloOp τ sig (Elt F))), op.fresh = ∅ := by
  intro _ h; (repeat (cases h with | head => rfl | tail _ h => ?_)); exact nomatch h

/-- 23 operations, in order — first normalisation and rectifier: %50 … %70. -/
abbrev opsBn1 : List (HloOp τ sig (Elt F)) :=
  [ StableHlo.unary main_v48 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v51 main_v52 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v53 (broadcastInDim S128 ![] bcast_S_S128 : (⟨S_, .f32⟩ : BufTy).Contents (Elt F) → (⟨S128, .f32⟩ : BufTy).Contents (Elt F)),
    StableHlo.binary main_v49 main_v53 main_v54 (addf : (⟨S128, .f32⟩ : BufTy).Contents (Elt F) → (⟨S128, .f32⟩ : BufTy).Contents (Elt F) → (⟨S128, .f32⟩ : BufTy).Contents (Elt F)),
    StableHlo.unary main_v54 main_v55 (Host.rsqrt : (⟨S128, .f32⟩ : BufTy).Contents (Elt F) → (⟨S128, .f32⟩ : BufTy).Contents (Elt F)),
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v57 main_v58 (mulf : (⟨S50000x128, .f32⟩ : BufTy).Contents (Elt F) → (⟨S50000x128, .f32⟩ : BufTy).Contents (Elt F) → (⟨S50000x128, .f32⟩ : BufTy).Contents (Elt F)),
    StableHlo.unary main_arg8 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg9 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.unary main_cst_12 main_v65 (broadcastInDim S50000x128 ![] bcast_S_S50000x128 : (⟨S_, .f32⟩ : BufTy).Contents (Elt F) → (⟨S50000x128, .f32⟩ : BufTy).Contents (Elt F)),
    StableHlo.binary main_v64 main_v65 main_v66 (cmpf .oge : (⟨S50000x128, .f32⟩ : BufTy).Contents (Elt F) → (⟨S50000x128, .f32⟩ : BufTy).Contents (Elt F) → (⟨S50000x128, .i1⟩ : BufTy).Contents (Elt F)),
    StableHlo.unary main_arg12 main_v67 (broadcastInDim S1x1 ![1] bcast_S1_S1x1_1 : (⟨S1, .f32⟩ : BufTy).Contents (Elt F) → (⟨S1x1, .f32⟩ : BufTy).Contents (Elt F)),
    StableHlo.unary main_v67 main_v68 (broadcastInDim S50000x128 ![0, 1] bcast_S1x1_S50000x128_0_1 : (⟨S1x1, .f32⟩ : BufTy).Contents (Elt F) → (⟨S50000x128, .f32⟩ : BufTy).Contents (Elt F)),
    StableHlo.binary main_v68 main_v64 main_v69 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v66 : StableHlo.TRef sig ⟨S50000x128, .i1⟩) (.of main_v64 : StableHlo.TRef sig ⟨S50000x128, .f32⟩) (.of main_v69 : StableHlo.TRef sig ⟨S50000x128, .f32⟩) main_call1.v0 select ]
theorem opsBn1_sub : (opsBn1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub ..⟩
theorem opsBn1_fresh : ∀ op ∈ (opsBn1 : List (HloOp τ sig (Elt F))), op.fresh = ∅ := by
  intro _ h; (repeat (cases h with | head => rfl | tail _ h => ?_)); exact nomatch h

/-- 20 operations, in order — second dense product and aggregation: %71 … %87. -/
abbrev opsAgg2 : List (HloOp τ sig (Elt F)) :=
  [ StableHlo.binary main_v70 main_arg4 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v72 (broadcastInDim S850000 ![] bcast_S_S850000 : (⟨S_, .i32⟩ : BufTy).Contents (Elt F) → (⟨S850000, .i32⟩ : BufTy).Contents (Elt F)),
    StableHlo.binary main_v3 main_v72 main_v73 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v74 (broadcastInDim S850000 ![] bcast_S_S850000 : (⟨S_, .i32⟩ : BufTy).Contents (Elt F) → (⟨S850000, .i32⟩ : BufTy).Contents (Elt F)),
    StableHlo.binary main_v3 main_v74 main_v75 (addi : (⟨S850000, .i32⟩ : BufTy).Contents (Elt F) → (⟨S850000, .i32⟩ : BufTy).Contents (Elt F) → (⟨S850000, .i32⟩ : BufTy).Contents (Elt F)),
    StableHlo.ternary main_v73 main_v75 main_v3 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v76 main_v77 (broadcastInDim S850000x1 ![0] bcast_S850000_S850000x1_0 : (⟨S850000, .i32⟩ : BufTy).Contents (Elt F) → (⟨S850000x1, .i32⟩ : BufTy).Contents (Elt F)),
    StableHlo.binary main_v71 main_v77 main_v78 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v28 main_v79 (broadcastInDim S850000x1 ![0] bcast_S850000_S850000x1_0 : (⟨S850000, .f32⟩ : BufTy).Contents (Elt F) → (⟨S850000x1, .f32⟩ : BufTy).Contents (Elt F)),
    StableHlo.unary main_v79 main_v80 (broadcastInDim S850000x128 ![0, 1] bcast_S850000x1_S850000x128_0_1 : (⟨S850000x1, .f32⟩ : BufTy).Contents (Elt F) → (⟨S850000x128, .f32⟩ : BufTy).Contents (Elt F)),
    StableHlo.binary main_v78 main_v80 main_v81 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v82 (broadcastInDim S50000x128 ![] bcast_S_S50000x128 : (⟨S_, .f32⟩ : BufTy).Contents (Elt F) → (⟨S50000x128, .f32⟩ : BufTy).Contents (Elt F)),
    StableHlo.unary main_v6 main_v83 (broadcastInDim S850000x1 ![0] bcast_S850000_S850000x1_0 : (⟨S850000, .i32⟩ : BufTy).Contents (Elt F) → (⟨S850000x1, .i32⟩ : BufTy).Contents (Elt F)),
    StableHlo.ternary main_v82 main_v83 main_v81 main_v84 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)) ]
theorem opsAgg2_sub : (opsAgg2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg2_fresh : ∀ op ∈ (opsAgg2 : List (HloOp τ sig (Elt F))), op.fresh = ∅ := by
  intro _ h; (repeat (cases h with | head => rfl | tail _ h => ?_)); exact nomatch h

/-- 28 operations, in order — second column mean and variance: %cst_16 … %91. -/
abbrev opsStat2 : List (HloOp τ sig (Elt F)) :=
  [ StableHlo.nullary main_cst_16 (constant S_ .f32 0x00000000#32),
    StableHlo.binary main_v87 main_cst_16 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call2.cst (constant S_ .f32 0x00000000#32),
    StableHlo.TRef.binary (.of main_v87 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v87 : StableHlo.TRef sig ⟨S50000x128, .f32⟩) main_call2.v4 main_call2.v5 subf,
    StableHlo.TRef.binary main_call2.v5 main_call2.v5 main_call2.v6 mulf,
    StableHlo.TRef.unary (.of main_c_18 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
theorem opsStat2_sub : (opsStat2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsStat2_fresh : ∀ op ∈ (opsStat2 : List (HloOp τ sig (Elt F))), op.fresh = ∅ := by
  intro _ h; (repeat (cases h with | head => rfl | tail _ h => ?_)); exact nomatch h

/-- 7 operations, in order — second normalisation, up to the reciprocal root: %92 … %97. -/
abbrev opsBn2a : List (HloOp τ sig (Elt F)) :=
  [ StableHlo.unary main_v90 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v93 main_v94 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v95 (broadcastInDim S128 ![] bcast_S_S128 : (⟨S_, .f32⟩ : BufTy).Contents (Elt F) → (⟨S128, .f32⟩ : BufTy).Contents (Elt F)),
    StableHlo.binary main_v91 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)) ]
theorem opsBn2a_sub : (opsBn2a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub ..⟩
theorem opsBn2a_fresh : ∀ op ∈ (opsBn2a : List (HloOp τ sig (Elt F))), op.fresh = ∅ := by
  intro _ h; (repeat (cases h with | head => rfl | tail _ h => ?_)); exact nomatch h

/-- 16 operations, in order — second normalisation, the rest, and rectifier: %98 … %112. -/
abbrev opsBn2b : List (HloOp τ sig (Elt F)) :=
  [ StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg10 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (mulf : (⟨S50000x128, .f32⟩ : BufTy).Contents (Elt F) → (⟨S50000x128, .f32⟩ : BufTy).Contents (Elt F) → (⟨S50000x128, .f32⟩ : BufTy).Contents (Elt F)),
    StableHlo.unary main_arg11 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v105 main_v106 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x00000000#32),
    StableHlo.unary main_cst_20 main_v107 (broadcastInDim S50000x128 ![] bcast_S_S50000x128 : (⟨S_, .f32⟩ : BufTy).Contents (Elt F) → (⟨S50000x128, .f32⟩ : BufTy).Contents (Elt F)),
    StableHlo.binary main_v106 main_v107 main_v108 (cmpf .oge : (⟨S50000x128, .f32⟩ : BufTy).Contents (Elt F) → (⟨S50000x128, .f32⟩ : BufTy).Contents (Elt F) → (⟨S50000x128, .i1⟩ : BufTy).Contents (Elt F)),
    StableHlo.unary main_arg13 main_v109 (broadcastInDim S1x1 ![1] bcast_S1_S1x1_1 : (⟨S1, .f32⟩ : BufTy).Contents (Elt F) → (⟨S1x1, .f32⟩ : BufTy).Contents (Elt F)),
    StableHlo.unary main_v109 main_v110 (broadcastInDim S50000x128 ![0, 1] bcast_S1x1_S50000x128_0_1 : (⟨S1x1, .f32⟩ : BufTy).Contents (Elt F) → (⟨S50000x128, .f32⟩ : BufTy).Contents (Elt F)),
    StableHlo.binary main_v110 main_v106 main_v111 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v108 : StableHlo.TRef sig ⟨S50000x128, .i1⟩) (.of main_v106 : StableHlo.TRef sig ⟨S50000x128, .f32⟩) (.of main_v111 : StableHlo.TRef sig ⟨S50000x128, .f32⟩) main_call3.v0 select ]
theorem opsBn2b_sub : (opsBn2b : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub ..⟩
theorem opsBn2b_fresh : ∀ op ∈ (opsBn2b : List (HloOp τ sig (Elt F))), op.fresh = ∅ := by
  intro _ h; (repeat (cases h with | head => rfl | tail _ h => ?_)); exact nomatch h

/-- 20 operations, in order — third dense product and aggregation: %113 … %129. -/
abbrev opsAgg3 : List (HloOp τ sig (Elt F)) :=
  [ StableHlo.binary main_v112 main_arg6 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_21 (constantI S_ 32 0#32),
    StableHlo.unary main_c_21 main_v114 (broadcastInDim S850000 ![] bcast_S_S850000 : (⟨S_, .i32⟩ : BufTy).Contents (Elt F) → (⟨S850000, .i32⟩ : BufTy).Contents (Elt F)),
    StableHlo.binary main_v3 main_v114 main_v115 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v116 (broadcastInDim S850000 ![] bcast_S_S850000 : (⟨S_, .i32⟩ : BufTy).Contents (Elt F) → (⟨S850000, .i32⟩ : BufTy).Contents (Elt F)),
    StableHlo.binary main_v3 main_v116 main_v117 (addi : (⟨S850000, .i32⟩ : BufTy).Contents (Elt F) → (⟨S850000, .i32⟩ : BufTy).Contents (Elt F) → (⟨S850000, .i32⟩ : BufTy).Contents (Elt F)),
    StableHlo.ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v118 main_v119 (broadcastInDim S850000x1 ![0] bcast_S850000_S850000x1_0 : (⟨S850000, .i32⟩ : BufTy).Contents (Elt F) → (⟨S850000x1, .i32⟩ : BufTy).Contents (Elt F)),
    StableHlo.binary main_v113 main_v119 main_v120 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v28 main_v121 (broadcastInDim S850000x1 ![0] bcast_S850000_S850000x1_0 : (⟨S850000, .f32⟩ : BufTy).Contents (Elt F) → (⟨S850000x1, .f32⟩ : BufTy).Contents (Elt F)),
    StableHlo.unary main_v121 main_v122 (broadcastInDim S850000x128 ![0, 1] bcast_S850000x1_S850000x128_0_1 : (⟨S850000x1, .f32⟩ : BufTy).Contents (Elt F) → (⟨S850000x128, .f32⟩ : BufTy).Contents (Elt F)),
    StableHlo.binary main_v120 main_v122 main_v123 (mulf : (⟨S850000x128, .f32⟩ : BufTy).Contents (Elt F) → (⟨S850000x128, .f32⟩ : BufTy).Contents (Elt F) → (⟨S850000x128, .f32⟩ : BufTy).Contents (Elt F)),
    StableHlo.nullary main_cst_23 (constant S_ .f32 0x00000000#32),
    StableHlo.unary main_cst_23 main_v124 (broadcastInDim S50000x128 ![] bcast_S_S50000x128 : (⟨S_, .f32⟩ : BufTy).Contents (Elt F) → (⟨S50000x128, .f32⟩ : BufTy).Contents (Elt F)),
    StableHlo.unary main_v6 main_v125 (broadcastInDim S850000x1 ![0] bcast_S850000_S850000x1_0 : (⟨S850000, .i32⟩ : BufTy).Contents (Elt F) → (⟨S850000x1, .i32⟩ : BufTy).Contents (Elt F)),
    StableHlo.ternary main_v124 main_v125 main_v123 main_v126 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v128 main_v129 (addf : (⟨S50000x128, .f32⟩ : BufTy).Contents (Elt F) → (⟨S50000x128, .f32⟩ : BufTy).Contents (Elt F) → (⟨S50000x128, .f32⟩ : BufTy).Contents (Elt F)) ]
theorem opsAgg3_sub : (opsAgg3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg3_fresh : ∀ op ∈ (opsAgg3 : List (HloOp τ sig (Elt F))), op.fresh = ∅ := by
  intro _ h; (repeat (cases h with | head => rfl | tail _ h => ?_)); exact nomatch h

/-- The operations of @main's first window (statements 1 … 60). -/
abbrev ops0 : List (HloOp τ sig (Elt F)) := opsEdge ++ opsAgg1 ++ opsMean1a
/-- The operations of @main's second window (statements 61 … 120, its three calls replaced by the callees' operations). -/
abbrev ops1 : List (HloOp τ sig (Elt F)) := opsMean1b ++ opsVar1 ++ opsBn1 ++ opsAgg2 ++ opsStat2 ++ opsBn2a
/-- The operations of @main's third window (statements 121 … 157, its call replaced by the callee's operation). -/
abbrev ops2 : List (HloOp τ sig (Elt F)) := opsBn2b ++ opsAgg3
/-- All 198 operations of @main, in order. -/
abbrev ops : List (HloOp τ sig (Elt F)) := ops0 ++ ops1 ++ ops2

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem mem_append_imp {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

set_option maxRecDepth 4096 in
/-- The first window is the straight line of its operations: both sides are one chain of steps once sequencing is
    reassociated. -/
theorem part0_eq (c : Dev nD) : main_part0 (F := F) c = seq ops0 := by
  rw [ops0, seq_append, seq_append]
  simp only [main_part0, seq, bind_assoc, pure_bind]
  rfl

set_option maxRecDepth 8192 in
/-- The second window likewise, the functions' definitions unfolded at their calls. -/
theorem part1_eq (c : Dev nD) : main_part1 (F := F) c = seq ops1 := by
  rw [ops1, seq_append, seq_append, seq_append, seq_append, seq_append]
  simp only [main_part1, fn_var.body, fn_where.body, fn_where_0.body, seq, bind_assoc, pure_bind]
  rfl

set_option maxRecDepth 4096 in
/-- The third window likewise. -/
theorem part2_eq (c : Dev nD) : main_part2 (F := F) c = seq ops2 := by
  rw [ops2, seq_append]
  simp only [main_part2, fn_where_0.body, seq, bind_assoc, pure_bind]

/-- @main is the straight line of all its operations. -/
theorem main_eq (c : Dev nD) : main (F := F) c = seq ops := by
  rw [ops, seq_append, seq_append, ← part0_eq c, ← part1_eq c, ← part2_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append (forall_append (forall_append (forall_append opsEdge_sub opsAgg1_sub) opsMean1a_sub)
    (forall_append (forall_append (forall_append (forall_append (forall_append opsMean1b_sub opsVar1_sub) opsBn1_sub) opsAgg2_sub) opsStat2_sub) opsBn2a_sub))
    (forall_append opsBn2b_sub opsAgg3_sub)

/-- Every operation determines its results. -/
theorem ops_fresh : ∀ op ∈ (ops : List (HloOp τ sig (Elt F))), op.fresh = ∅ :=
  mem_append_imp (mem_append_imp (mem_append_imp (mem_append_imp opsEdge_fresh opsAgg1_fresh) opsMean1a_fresh)
    (mem_append_imp (mem_append_imp (mem_append_imp (mem_append_imp (mem_append_imp opsMean1b_fresh opsVar1_fresh) opsBn1_fresh) opsAgg2_fresh) opsStat2_fresh) opsBn2a_fresh))
    (mem_append_imp opsBn2b_fresh opsAgg3_fresh)

/-- On every device, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefFrame.lean ====
/- What the reference program's operations leave alone: per piece of the line, the references its operations write, and
   that a buffer outside them holds after the piece what it held before. -/
import proofs.«175946_j19301583028532_1_alg».proof.Proof.RefOps

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- An operation that writes the one buffer of a reference among a list writes within the list's buffers. -/
theorem sub_of_writes {op : HloOp τ sig (Elt F)} {y : Ref sig .tc} {wl : List (Ref sig .tc)}
    (h : op.writes = {Proc.devRef .tc y}) (hy : y ∈ wl) :
    op.writes ⊆ (wl.map (Proc.devRef (τ := τ) .tc)).toFinset := by
  rw [h, Finset.singleton_subset_iff, List.mem_toFinset]
  exact List.mem_map_of_mem hy

/-- The references the operations of opsEdge write, in order. -/
abbrev opsEdge_w : List (Ref sig .tc) :=
  [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
theorem opsEdge_writes : (opsEdge : List (HloOp τ sig (Elt F))).Forall fun op => op.writes ⊆ ((opsEdge_w).map (Proc.devRef (τ := τ) .tc)).toFinset :=
  ⟨sub_of_writes (nullary_writes ..) (by decide),
   sub_of_writes (unary_writes ..) (by decide),
   sub_of_writes (reshape_writes ..) (by decide),
   sub_of_writes (binary_writes ..) (by decide),
   sub_of_writes (unary_writes ..) (by decide),
   sub_of_writes (reshape_writes ..) (by decide),
   sub_of_writes (binary_writes ..) (by decide),
   sub_of_writes (nullary_writes ..) (by decide),
   sub_of_writes (unary_writes ..) (by decide),
   sub_of_writes (nullary_writes ..) (by decide),
   sub_of_writes (unary_writes ..) (by decide),
   sub_of_writes (unary_writes ..) (by decide),
   sub_of_writes (ternary_writes ..) (by decide),
   sub_of_writes (nullary_writes ..) (by decide),
   sub_of_writes (unary_writes ..) (by decide),
   sub_of_writes (binary_writes ..) (by decide),
   sub_of_writes (unary_writes ..) (by decide),
   sub_of_writes (nullary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (ternary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (ternary_writes ..) (by decide),
   sub_of_writes (unary_writes ..) (by decide),
   sub_of_writes (binary_writes ..) (by decide),
   sub_of_writes (binary_writes ..) (by decide)⟩

/-- The references the operations of opsAgg1 write, in order. -/
abbrev opsAgg1_w : List (Ref sig .tc) :=
  [main_v29, main_c_5, main_v30, main_v31, main_c_6, main_v32, main_v33, main_v34, main_v35, main_v36, main_v37, main_v38, main_v39, main_cst_7, main_v40, main_v41, main_v42, main_v43, main_v44, main_v45]
theorem opsAgg1_writes : (opsAgg1 : List (HloOp τ sig (Elt F))).Forall fun op => op.writes ⊆ ((opsAgg1_w).map (Proc.devRef (τ := τ) .tc)).toFinset :=
  ⟨sub_of_writes (binary_writes ..) (by decide),
   sub_of_writes (nullary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (ternary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (nullary_writes ..) (by decide),
   sub_of_writes (unary_writes ..) (by decide),
   sub_of_writes (unary_writes ..) (by decide),
   sub_of_writes (ternary_writes ..) (by decide),
   sub_of_writes (unary_writes ..) (by decide),
   sub_of_writes (unary_writes ..) (by decide),
   sub_of_writes (binary_writes ..) (by decide)⟩

/-- The references the operations of opsMean1a write, in order. -/
abbrev opsMean1a_w : List (Ref sig .tc) :=
  [main_cst_8, main_v46, main_cst_9, main_v47]
theorem opsMean1a_writes : (opsMean1a : List (HloOp τ sig (Elt F))).Forall fun op => op.writes ⊆ ((opsMean1a_w).map (Proc.devRef (τ := τ) .tc)).toFinset :=
  ⟨sub_of_writes (nullary_writes ..) (by decide),
   sub_of_writes (binary_writes ..) (by decide),
   sub_of_writes (nullary_writes ..) (by decide),
   sub_of_writes (unary_writes ..) (by decide)⟩

/-- The references the operations of opsMean1b write, in order. -/
abbrev opsMean1b_w : List (Ref sig .tc) :=
  [main_v48]
theorem opsMean1b_writes : (opsMean1b : List (HloOp τ sig (Elt F))).Forall fun op => op.writes ⊆ ((opsMean1b_w).map (Proc.devRef (τ := τ) .tc)).toFinset :=
  sub_of_writes (binary_writes ..) (by decide)

/-- The references the operations of opsVar1 write, in order. -/
abbrev opsVar1_w : List (Ref sig .tc) :=
  [main_c_10, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem opsVar1_writes : (opsVar1 : List (HloOp τ sig (Elt F))).Forall fun op => op.writes ⊆ ((opsVar1_w).map (Proc.devRef (τ := τ) .tc)).toFinset :=
  ⟨sub_of_writes (nullary_writes ..) (by decide),
   sub_of_writes (nullary_writes ..) (by decide),
   sub_of_writes (binary_writes ..) (by decide),
   sub_of_writes (unary_writes ..) (by decide),
   sub_of_writes (nullary_writes ..) (by decide),
   sub_of_writes (unary_writes ..) (by decide),
   sub_of_writes (binary_writes ..) (by decide),
   sub_of_writes (unary_writes ..) (by decide),
   sub_of_writes (binary_writes ..) (by decide),
   sub_of_writes (binary_writes ..) (by decide),
   sub_of_writes (unary_writes ..) (by decide),
   sub_of_writes (nullary_writes ..) (by decide),
   sub_of_writes (binary_writes ..) (by decide),
   sub_of_writes (nullary_writes ..) (by decide),
   sub_of_writes (binary_writes ..) (by decide),
   sub_of_writes (unary_writes ..) (by decide),
   sub_of_writes (binary_writes ..) (by decide),
   sub_of_writes (nullary_writes ..) (by decide),
   sub_of_writes (binary_writes ..) (by decide),
   sub_of_writes (nullary_writes ..) (by decide),
   sub_of_writes (unary_writes ..) (by decide),
   sub_of_writes (unary_writes ..) (by decide),
   sub_of_writes (ternary_writes ..) (by decide)⟩

/-- The references the operations of opsBn1 write, in order. -/
abbrev opsBn1_w : List (Ref sig .tc) :=
  [main_v50, main_v51, main_v52, main_cst_11, main_v53, main_v54, main_v55, main_v56, main_v57, main_v58, main_v59, main_v60, main_v61, main_v62, main_v63, main_v64, main_cst_12, main_v65, main_v66, main_v67, main_v68, main_v69, main_call1.v0.ref]
theorem opsBn1_writes : (opsBn1 : List (HloOp τ sig (Elt F))).Forall fun op => op.writes ⊆ ((opsBn1_w).map (Proc.devRef (τ := τ) .tc)).toFinset :=
  ⟨sub_of_writes (unary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (unary_writes ..) (by decide),
   sub_of_writes (unary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (ternary_writes ..) (by decide)⟩

/-- The references the operations of opsAgg2 write, in order. -/
abbrev opsAgg2_w : List (Ref sig .tc) :=
  [main_v71, main_c_13, main_v72, main_v73, main_c_14, main_v74, main_v75, main_v76, main_v77, main_v78, main_v79, main_v80, main_v81, main_cst_15, main_v82, main_v83, main_v84, main_v85, main_v86, main_v87]
theorem opsAgg2_writes : (opsAgg2 : List (HloOp τ sig (Elt F))).Forall fun op => op.writes ⊆ ((opsAgg2_w).map (Proc.devRef (τ := τ) .tc)).toFinset :=
  ⟨sub_of_writes (binary_writes ..) (by decide),
   sub_of_writes (nullary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (ternary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (nullary_writes ..) (by decide),
   sub_of_writes (unary_writes ..) (by decide),
   sub_of_writes (unary_writes ..) (by decide),
   sub_of_writes (ternary_writes ..) (by decide),
   sub_of_writes (unary_writes ..) (by decide),
   sub_of_writes (unary_writes ..) (by decide),
   sub_of_writes (binary_writes ..) (by decide)⟩

/-- The references the operations of opsStat2 write, in order. -/
abbrev opsStat2_w : List (Ref sig .tc) :=
  [main_cst_16, main_v88, main_cst_17, main_v89, main_v90, main_c_18, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
theorem opsStat2_writes : (opsStat2 : List (HloOp τ sig (Elt F))).Forall fun op => op.writes ⊆ ((opsStat2_w).map (Proc.devRef (τ := τ) .tc)).toFinset :=
  ⟨sub_of_writes (nullary_writes ..) (by decide),
   sub_of_writes (binary_writes ..) (by decide),
   sub_of_writes (nullary_writes ..) (by decide),
   sub_of_writes (unary_writes ..) (by decide),
   sub_of_writes (binary_writes ..) (by decide),
   sub_of_writes (nullary_writes ..) (by decide),
   sub_of_writes (nullary_writes ..) (by decide),
   sub_of_writes (binary_writes ..) (by decide),
   sub_of_writes (unary_writes ..) (by decide),
   sub_of_writes (nullary_writes ..) (by decide),
   sub_of_writes (unary_writes ..) (by decide),
   sub_of_writes (binary_writes ..) (by decide),
   sub_of_writes (unary_writes ..) (by decide),
   sub_of_writes (binary_writes ..) (by decide),
   sub_of_writes (binary_writes ..) (by decide),
   sub_of_writes (unary_writes ..) (by decide),
   sub_of_writes (nullary_writes ..) (by decide),
   sub_of_writes (binary_writes ..) (by decide),
   sub_of_writes (nullary_writes ..) (by decide),
   sub_of_writes (binary_writes ..) (by decide),
   sub_of_writes (unary_writes ..) (by decide),
   sub_of_writes (binary_writes ..) (by decide),
   sub_of_writes (nullary_writes ..) (by decide),
   sub_of_writes (binary_writes ..) (by decide),
   sub_of_writes (nullary_writes ..) (by decide),
   sub_of_writes (unary_writes ..) (by decide),
   sub_of_writes (unary_writes ..) (by decide),
   sub_of_writes (ternary_writes ..) (by decide)⟩

/-- The references the operations of opsBn2a write, in order. -/
abbrev opsBn2a_w : List (Ref sig .tc) :=
  [main_v92, main_v93, main_v94, main_cst_19, main_v95, main_v96, main_v97]
theorem opsBn2a_writes : (opsBn2a : List (HloOp τ sig (Elt F))).Forall fun op => op.writes ⊆ ((opsBn2a_w).map (Proc.devRef (τ := τ) .tc)).toFinset :=
  ⟨sub_of_writes (unary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (unary_writes ..) (by decide)⟩

/-- The references the operations of opsBn2b write, in order. -/
abbrev opsBn2b_w : List (Ref sig .tc) :=
  [main_v98, main_v99, main_v100, main_v101, main_v102, main_v103, main_v104, main_v105, main_v106, main_cst_20, main_v107, main_v108, main_v109, main_v110, main_v111, main_call3.v0.ref]
theorem opsBn2b_writes : (opsBn2b : List (HloOp τ sig (Elt F))).Forall fun op => op.writes ⊆ ((opsBn2b_w).map (Proc.devRef (τ := τ) .tc)).toFinset :=
  ⟨sub_of_writes (unary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (ternary_writes ..) (by decide)⟩

/-- The references the operations of opsAgg3 write, in order. -/
abbrev opsAgg3_w : List (Ref sig .tc) :=
  [main_v113, main_c_21, main_v114, main_v115, main_c_22, main_v116, main_v117, main_v118, main_v119, main_v120, main_v121, main_v122, main_v123, main_cst_23, main_v124, main_v125, main_v126, main_v127, main_v128, main_v129]
theorem opsAgg3_writes : (opsAgg3 : List (HloOp τ sig (Elt F))).Forall fun op => op.writes ⊆ ((opsAgg3_w).map (Proc.devRef (τ := τ) .tc)).toFinset :=
  ⟨sub_of_writes (binary_writes ..) (by decide),
   sub_of_writes (nullary_writes ..) (by decide),
   sub_of_writes (unary_writes ..) (by decide),
   sub_of_writes (binary_writes ..) (by decide),
   sub_of_writes (nullary_writes ..) (by decide),
   sub_of_writes (unary_writes ..) (by decide),
   sub_of_writes (binary_writes ..) (by decide),
   sub_of_writes (ternary_writes ..) (by decide),
   sub_of_writes (unary_writes ..) (by decide),
   sub_of_writes (binary_writes ..) (by decide),
   sub_of_writes (unary_writes ..) (by decide),
   sub_of_writes (unary_writes ..) (by decide),
   sub_of_writes (binary_writes ..) (by decide),
   sub_of_writes (nullary_writes ..) (by decide),
   sub_of_writes (unary_writes ..) (by decide),
   sub_of_writes (unary_writes ..) (by decide),
   sub_of_writes (ternary_writes ..) (by decide),
   sub_of_writes (unary_writes ..) (by decide),
   sub_of_writes (unary_writes ..) (by decide),
   sub_of_writes (binary_writes ..) (by decide)⟩

/-- A buffer none of the operations of opsEdge writes holds after them what it held. -/
theorem frame_opsEdge (W : Valuation τ sig (Elt F)) {r : Ref sig .tc} (hr : r ∉ opsEdge_w) :
    after opsEdge W (no_index (Proc.devRef .tc r)) = W (Proc.devRef .tc r) :=
  after_of_writes_sub opsEdge W opsEdge_writes hr

/-- A buffer none of the operations of opsAgg1 writes holds after them what it held. -/
theorem frame_opsAgg1 (W : Valuation τ sig (Elt F)) {r : Ref sig .tc} (hr : r ∉ opsAgg1_w) :
    after opsAgg1 W (no_index (Proc.devRef .tc r)) = W (Proc.devRef .tc r) :=
  after_of_writes_sub opsAgg1 W opsAgg1_writes hr

/-- A buffer none of the operations of opsMean1a writes holds after them what it held. -/
theorem frame_opsMean1a (W : Valuation τ sig (Elt F)) {r : Ref sig .tc} (hr : r ∉ opsMean1a_w) :
    after opsMean1a W (no_index (Proc.devRef .tc r)) = W (Proc.devRef .tc r) :=
  after_of_writes_sub opsMean1a W opsMean1a_writes hr

/-- A buffer none of the operations of opsMean1b writes holds after them what it held. -/
theorem frame_opsMean1b (W : Valuation τ sig (Elt F)) {r : Ref sig .tc} (hr : r ∉ opsMean1b_w) :
    after opsMean1b W (no_index (Proc.devRef .tc r)) = W (Proc.devRef .tc r) :=
  after_of_writes_sub opsMean1b W opsMean1b_writes hr

/-- A buffer none of the operations of opsVar1 writes holds after them what it held. -/
theorem frame_opsVar1 (W : Valuation τ sig (Elt F)) {r : Ref sig .tc} (hr : r ∉ opsVar1_w) :
    after opsVar1 W (no_index (Proc.devRef .tc r)) = W (Proc.devRef .tc r) :=
  after_of_writes_sub opsVar1 W opsVar1_writes hr

/-- A buffer none of the operations of opsBn1 writes holds after them what it held. -/
theorem frame_opsBn1 (W : Valuation τ sig (Elt F)) {r : Ref sig .tc} (hr : r ∉ opsBn1_w) :
    after opsBn1 W (no_index (Proc.devRef .tc r)) = W (Proc.devRef .tc r) :=
  after_of_writes_sub opsBn1 W opsBn1_writes hr

/-- A buffer none of the operations of opsAgg2 writes holds after them what it held. -/
theorem frame_opsAgg2 (W : Valuation τ sig (Elt F)) {r : Ref sig .tc} (hr : r ∉ opsAgg2_w) :
    after opsAgg2 W (no_index (Proc.devRef .tc r)) = W (Proc.devRef .tc r) :=
  after_of_writes_sub opsAgg2 W opsAgg2_writes hr

/-- A buffer none of the operations of opsStat2 writes holds after them what it held. -/
theorem frame_opsStat2 (W : Valuation τ sig (Elt F)) {r : Ref sig .tc} (hr : r ∉ opsStat2_w) :
    after opsStat2 W (no_index (Proc.devRef .tc r)) = W (Proc.devRef .tc r) :=
  after_of_writes_sub opsStat2 W opsStat2_writes hr

/-- A buffer none of the operations of opsBn2a writes holds after them what it held. -/
theorem frame_opsBn2a (W : Valuation τ sig (Elt F)) {r : Ref sig .tc} (hr : r ∉ opsBn2a_w) :
    after opsBn2a W (no_index (Proc.devRef .tc r)) = W (Proc.devRef .tc r) :=
  after_of_writes_sub opsBn2a W opsBn2a_writes hr

/-- A buffer none of the operations of opsBn2b writes holds after them what it held. -/
theorem frame_opsBn2b (W : Valuation τ sig (Elt F)) {r : Ref sig .tc} (hr : r ∉ opsBn2b_w) :
    after opsBn2b W (no_index (Proc.devRef .tc r)) = W (Proc.devRef .tc r) :=
  after_of_writes_sub opsBn2b W opsBn2b_writes hr

/-- A buffer none of the operations of opsAgg3 writes holds after them what it held. -/
theorem frame_opsAgg3 (W : Valuation τ sig (Elt F)) {r : Ref sig .tc} (hr : r ∉ opsAgg3_w) :
    after opsAgg3 W (no_index (Proc.devRef .tc r)) = W (Proc.devRef .tc r) :=
  after_of_writes_sub opsAgg3 W opsAgg3_writes hr

end Cert.ReferenceIdeal.Hand

end
-- ==== Proof.RefStage.lean ====
/- The stages of the reference program: what each piece of its line of operations leaves in the piece's result buffer, from
   any contents W of the buffers before it — the edges' endpoints and weights, an aggregation, the column mean and
   variance, the normalisation with the rectifier — each the piece's own operations composed. -/
import proofs.«175946_j19301583028532_1_alg».proof.Proof.RefOps
import proofs.«175946_j19301583028532_1_alg».proof.Proof.StagesR

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

-- the gathers, scatters and column sums stay folded: the equations below never look inside them
attribute [local irreducible] Host.gather Host.scatterAdd Host.reduceAdd

set_option maxRecDepth 16384 in
/-- The sources of the edges, the self loops appended. -/
theorem edge_src (W : Valuation τ sig (Elt F)) :
    after opsEdge W (no_index (main_v3 : DevRef τ sig))
      = Cert.RStage.src (W (main_arg1 : DevRef τ sig)) := by
  after_results_simp
  rfl

set_option maxRecDepth 16384 in
/-- The targets of the edges, the self loops appended. -/
theorem edge_dst (W : Valuation τ sig (Elt F)) :
    after opsEdge W (no_index (main_v6 : DevRef τ sig))
      = Cert.RStage.dst (W (main_arg1 : DevRef τ sig)) := by
  after_results_simp
  rfl

set_option maxRecDepth 16384 in
/-- The weights of the edges. -/
theorem edge_nrm (W : Valuation τ sig (Elt F)) :
    after opsEdge W (no_index (main_v28 : DevRef τ sig))
      = Cert.RStage.nrm (W (main_arg1 : DevRef τ sig)) := by
  after_results_simp
  rfl

set_option maxRecDepth 16384 in
/-- The first layer's product, aggregated. -/
theorem agg1_eq (W : Valuation τ sig (Elt F)) :
    after opsAgg1 W (no_index (main_v45 : DevRef τ sig))
      = Cert.RStage.agg (Host.dotGeneral dot_S50000x512_S512x128_S50000x128_1_0_0_1_n_n none (W (main_arg0 : DevRef τ sig)) (W (main_arg2 : DevRef τ sig))) (W (main_arg3 : DevRef τ sig)) (W (main_v3 : DevRef τ sig)) (W (main_v6 : DevRef τ sig)) (W (main_v28 : DevRef τ sig)) := by
  after_results_simp
  rfl

set_option maxRecDepth 16384 in
/-- The first layer's column means. -/
theorem mean1_eq (W : Valuation τ sig (Elt F)) :
    after opsMean1b (after opsMean1a W) (no_index (main_v48 : DevRef τ sig))
      = Cert.RStage.mean (W (main_v45 : DevRef τ sig)) := by
  after_results_simp
  rfl

set_option maxRecDepth 16384 in
/-- The first layer's column variances. -/
theorem var1_eq (W : Valuation τ sig (Elt F)) :
    after opsVar1 W (no_index (main_v49 : DevRef τ sig))
      = Cert.RStage.var (W (main_v45 : DevRef τ sig)) := by
  after_results_simp
  rfl

set_option maxRecDepth 16384 in
/-- The first layer's normalisation and rectifier. -/
theorem bn1_eq (W : Valuation τ sig (Elt F)) :
    after opsBn1 W (no_index (main_v70 : DevRef τ sig))
      = Cert.RStage.bnp (W (main_v45 : DevRef τ sig)) (W (main_v48 : DevRef τ sig)) (W (main_v49 : DevRef τ sig)) (W (main_arg8 : DevRef τ sig)) (W (main_arg9 : DevRef τ sig)) (W (main_arg12 : DevRef τ sig)) := by
  after_results_simp
  rfl

set_option maxRecDepth 16384 in
/-- The second layer's product, aggregated. -/
theorem agg2_eq (W : Valuation τ sig (Elt F)) :
    after opsAgg2 W (no_index (main_v87 : DevRef τ sig))
      = Cert.RStage.agg (Host.dotGeneral dot_S50000x128_S128x128_S50000x128_1_0_0_1_n_n none (W (main_v70 : DevRef τ sig)) (W (main_arg4 : DevRef τ sig))) (W (main_arg5 : DevRef τ sig)) (W (main_v3 : DevRef τ sig)) (W (main_v6 : DevRef τ sig)) (W (main_v28 : DevRef τ sig)) := by
  after_results_simp
  rfl

set_option maxRecDepth 16384 in
/-- The second layer's column means. -/
theorem mean2_eq (W : Valuation τ sig (Elt F)) :
    after opsStat2 W (no_index (main_v90 : DevRef τ sig))
      = Cert.RStage.mean (W (main_v87 : DevRef τ sig)) := by
  after_results_simp
  rfl

set_option maxRecDepth 16384 in
/-- The second layer's column variances. -/
theorem var2_eq (W : Valuation τ sig (Elt F)) :
    after opsStat2 W (no_index (main_v91 : DevRef τ sig))
      = Cert.RStage.var (W (main_v87 : DevRef τ sig)) := by
  after_results_simp
  rfl

set_option maxRecDepth 16384 in
/-- The second layer's normalisation and rectifier. -/
theorem bn2_eq (W : Valuation τ sig (Elt F)) :
    after opsBn2b (after opsBn2a W) (no_index (main_v112 : DevRef τ sig))
      = Cert.RStage.bnp (W (main_v87 : DevRef τ sig)) (W (main_v90 : DevRef τ sig)) (W (main_v91 : DevRef τ sig)) (W (main_arg10 : DevRef τ sig)) (W (main_arg11 : DevRef τ sig)) (W (main_arg13 : DevRef τ sig)) := by
  after_results_simp
  rfl

set_option maxRecDepth 16384 in
/-- The third layer's product, aggregated. -/
theorem agg3_eq (W : Valuation τ sig (Elt F)) :
    after opsAgg3 W (no_index (main_v129 : DevRef τ sig))
      = Cert.RStage.agg (Host.dotGeneral dot_S50000x128_S128x128_S50000x128_1_0_0_1_n_n none (W (main_v112 : DevRef τ sig)) (W (main_arg6 : DevRef τ sig))) (W (main_arg7 : DevRef τ sig)) (W (main_v3 : DevRef τ sig)) (W (main_v6 : DevRef τ sig)) (W (main_v28 : DevRef τ sig)) := by
  after_results_simp
  rfl

end Cert.ReferenceIdeal.Hand

end
-- ==== Proof.RefValue.lean ====
/- The value of the reference program's result: the fold of its operations at the result buffer is the three-layer
   encoder of the fourteen arguments' contents — the stages chained, every buffer a later stage reads left alone by the
   pieces in between —; the arguments' buffers are left as they were; and the run of @main stated with these values. -/
import proofs.«175946_j19301583028532_1_alg».proof.Proof.RefFrame
import proofs.«175946_j19301583028532_1_alg».proof.Proof.RefStage

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The fold over a concatenation is the fold over the second list from the fold over the first. -/
theorem after_append {τ : Topo} {sig : RefSig} {Val : EltTy → Type} (a b : List (HloOp τ sig Val)) (V : Valuation τ sig Val) :
    after (a ++ b) V = after b (after a V) := by
  induction a generalizing V with
  | nil => rfl
  | cons op l ih => simp only [List.cons_append, after_cons, ih]

/-- The whole line as its pieces in turn. -/
theorem after_ops (V : Valuation τ sig (Elt F)) :
    after ops V = after opsAgg3 (after opsBn2b (after opsBn2a (after opsStat2 (after opsAgg2 (after opsBn1 (after opsVar1
      (after opsMean1b (after opsMean1a (after opsAgg1 (after opsEdge V)))))))))) := by
  simp only [ops, ops0, ops1, ops2, after_append]

set_option maxRecDepth 8192 in
/-- The result buffer ends at the encoder of the arguments: each stage's value at the contents the pieces before it leave,
    every buffer it reads carried unchanged through the pieces that do not write it. -/
theorem out_eq (V : Valuation τ sig (Elt F)) :
    after ops V (main_v129 : DevRef τ sig)
      = Cert.RStage.net (fun l r => Host.dotGeneral dot_S50000x512_S512x128_S50000x128_1_0_0_1_n_n none l r)
          (fun l r => Host.dotGeneral dot_S50000x128_S128x128_S50000x128_1_0_0_1_n_n none l r) Cert.RStage.bnp
          (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [after_ops]
  simp (disch := decide) only [agg3_eq, bn2_eq, var2_eq, mean2_eq, agg2_eq, bn1_eq, var1_eq, mean1_eq, agg1_eq, edge_src, edge_dst, edge_nrm,
    frame_opsEdge, frame_opsAgg1, frame_opsMean1a, frame_opsMean1b, frame_opsVar1, frame_opsBn1, frame_opsAgg2, frame_opsStat2, frame_opsBn2a, frame_opsBn2b, frame_opsAgg3]
  rfl

theorem arg0_eq (V : Valuation τ sig (Elt F)) : after ops V (main_arg0 : DevRef τ sig) = V (main_arg0 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg1_eq (V : Valuation τ sig (Elt F)) : after ops V (main_arg1 : DevRef τ sig) = V (main_arg1 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg2_eq (V : Valuation τ sig (Elt F)) : after ops V (main_arg2 : DevRef τ sig) = V (main_arg2 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg3_eq (V : Valuation τ sig (Elt F)) : after ops V (main_arg3 : DevRef τ sig) = V (main_arg3 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg4_eq (V : Valuation τ sig (Elt F)) : after ops V (main_arg4 : DevRef τ sig) = V (main_arg4 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg5_eq (V : Valuation τ sig (Elt F)) : after ops V (main_arg5 : DevRef τ sig) = V (main_arg5 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg6_eq (V : Valuation τ sig (Elt F)) : after ops V (main_arg6 : DevRef τ sig) = V (main_arg6 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg7_eq (V : Valuation τ sig (Elt F)) : after ops V (main_arg7 : DevRef τ sig) = V (main_arg7 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg8_eq (V : Valuation τ sig (Elt F)) : after ops V (main_arg8 : DevRef τ sig) = V (main_arg8 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg9_eq (V : Valuation τ sig (Elt F)) : after ops V (main_arg9 : DevRef τ sig) = V (main_arg9 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg10_eq (V : Valuation τ sig (Elt F)) : after ops V (main_arg10 : DevRef τ sig) = V (main_arg10 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg11_eq (V : Valuation τ sig (Elt F)) : after ops V (main_arg11 : DevRef τ sig) = V (main_arg11 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg12_eq (V : Valuation τ sig (Elt F)) : after ops V (main_arg12 : DevRef τ sig) = V (main_arg12 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

theorem arg13_eq (V : Valuation τ sig (Elt F)) : after ops V (main_arg13 : DevRef τ sig) = V (main_arg13 : DevRef τ sig) := by
  rw [after_ops]
  simp (disch := decide) only [frame_opsEdge, frame_opsAgg1, frame_opsMean1a, frame_opsMean1b, frame_opsVar1, frame_opsBn1, frame_opsAgg2, frame_opsStat2, frame_opsBn2a, frame_opsBn2b, frame_opsAgg3]

/-- On every device, for any float values, from any memory with zero counters: every weakly fair execution of @main
    terminates with the result buffer at the encoder of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = Cert.RStage.net (fun l r => Host.dotGeneral dot_S50000x512_S512x128_S50000x128_1_0_0_1_n_n none l r)
          (fun l r => Host.dotGeneral dot_S50000x128_S128x128_S50000x128_1_0_0_1_n_n none l r) Cert.RStage.bnp
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v129).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c))⟩)
    (run_main m ρ)

end Cert.ReferenceIdeal.Hand

end
-- ==== Proof.lean ====
/- The certificate of a three-layer graph-convolution encoder computed by five kernel launches among host operations,
   against its array-language reference, over the extended reals.

   Each layer multiplies the activations by a weight matrix, aggregates the rows along the edges of the graph (self loops
   added, each edge weighted by the inverse square roots of its endpoints' degrees) and adds a bias; the first two layers
   then normalise every column by its mean and variance over the 50000 nodes, scale and shift it, and apply a
   parametric rectifier. The kernel program computes the three products and the two normalisations in launches over
   2000-row blocks and everything else on the host; the reference computes everything on the host.

   Both programs end with the same function of their arguments. The host-side stages (edge lists, edge weights,
   aggregation, column mean and variance) are the same operations in both. A product into a zero accumulator is, entry
   by entry, the sum over the contracted axis of the operands' products, whichever way the rows are cut into blocks and
   whatever narrower format the operands pass through, and so is the reference's product. The normalisation and
   rectifier is one function of six extended reals at every entry — the activation, and the entries of its column in
   the mean, the variance, the scale and the shift, and the slope — in both programs, with the same constants. No law
   of arithmetic beyond these identifications is used, so the finiteness of the inputs is never opened.

   The frames: the two kernel programs' runs end with their arguments unchanged (the generated frames); the reference's
   run with its result named gives its frame by dropping the result. -/
import proofs.«175946_j19301583028532_1_alg».proof.Defs
import proofs.«175946_j19301583028532_1_alg».proof.Proof.Gen.Kernel
import proofs.«175946_j19301583028532_1_alg».proof.Proof.Gen.Kernel.Frame
import proofs.«175946_j19301583028532_1_alg».proof.Proof.Gen.KernelIdeal
import proofs.«175946_j19301583028532_1_alg».proof.Proof.Gen.KernelIdeal.Frame
import proofs.«175946_j19301583028532_1_alg».proof.Proof.Gen.ReferenceIdeal
import proofs.«175946_j19301583028532_1_alg».proof.Proof.Gen.Pre_finite_inputs
import proofs.«175946_j19301583028532_1_alg».proof.Proof.KValue
import proofs.«175946_j19301583028532_1_alg».proof.Proof.Bridge
import proofs.«175946_j19301583028532_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result named, the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Hand.run (F := Ideal) m ρ)

/-- From memories that agree on the arguments both programs end with the encoder of those arguments: the kernel
    program's result is the encoder over the shared one-entry mathematics, the reference's is the encoder over its own
    products and normalisation, and the two encoders are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (congrFun (congrFun (congrFun (congrFun (congrFun (congrFun (congrFun (congrFun (congrFun (congrFun (congrFun (congrFun (congrFun (congrFun
    Cert.Bridge.net_eq _) _) _) _) _) _) _) _) _) _) _) _) _) _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
